-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x1024 : Shape := ⟨3, ![2, 2048, 1024]⟩
abbrev S2x2048 : Shape := ⟨2, ![2, 2048]⟩
abbrev S3072x1024 : Shape := ⟨2, ![3072, 1024]⟩
abbrev S1024x1024 : Shape := ⟨2, ![1024, 1024]⟩
abbrev S1024 : Shape := ⟨1, ![1024]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S3072x1024 : S_.BroadcastsInDim S3072x1024 (![] : Fin 0 → Fin S3072x1024.rank)
  reducesTo_S3072x1024_S_d0_1 : S3072x1024.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  bcast_S_S2x2048 : S_.BroadcastsInDim S2x2048 (![] : Fin 0 → Fin S2x2048.rank)
  reducesTo_S2x2048_S_d0_1 : S2x2048.ReducesTo [0, 1] S_

variable [Facts]

def fn_part1 {F : FTy → Type} [FloatOps F] (main_arg1 : IVec S2x2048 32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_c_6 : IVec S_ 32 := constantI S_ 32 0#32
  let main_v19 : IVec S2x2048 32 := broadcastInDim S2x2048 ![] bcast_S_S2x2048 main_c_6
  let main_v20 : IVec S2x2048 1 := cmpi .sge main_arg1 main_v19
  let main_c_7 : IVec S_ 32 := constantI S_ 32 8#32
  let main_v21 : IVec S2x2048 32 := broadcastInDim S2x2048 ![] bcast_S_S2x2048 main_c_7
  let main_v22 : IVec S2x2048 1 := cmpi .slt main_arg1 main_v21
  let main_v23 : IVec S2x2048 1 := andi main_v20 main_v22
  let main_c_8 : IVec S_ 1 := constantI S_ 1 1#1
  let main_v24 : IVec S_ 1 := (fun x v => Host.reduce IntOp.andi x v reducesTo_S2x2048_S_d0_1 h_S_) main_v23 main_c_8
  let main_v25 : IVec S_ 1 := andi main_v18 main_v24
  main_v25

def fn {F : FTy → Type} [FloatOps F] (main_arg0 : FVec F S2x2048x1024 .f32) (main_arg1 : IVec S2x2048 32) (main_arg2 : FVec F S3072x1024 .f32) (main_arg3 : FVec F S1024x1024 .f32) (main_arg4 : FVec F S1024 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S3072x1024 .f32 := Host.absf main_arg2
  let main_cst_0 : FVec F S_ .f32 := constant S_ .f32 0x7F800000#32
  let main_v5 : FVec F S3072x1024 .f32 := broadcastInDim S3072x1024 ![] bcast_S_S3072x1024 main_cst_0
  let main_v6 : IVec S3072x1024 1 := cmpf .olt main_v4 main_v5
  let main_c_1 : IVec S_ 1 := constantI S_ 1 1#1
  let main_v7 : IVec S_ 1 := (fun x v => Host.reduce IntOp.andi x v reducesTo_S3072x1024_S_d0_1 h_S_) main_v6 main_c_1
  let main_v8 : IVec S_ 1 := andi main_v3 main_v7
  let main_v9 : FVec F S1024x1024 .f32 := Host.absf main_arg3
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024 .f32 := Host.absf main_arg4
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg1 main_v13 main_v16
-- ==== Kernel.lean ====
abbrev S2x2048x1024 : Shape := ⟨3, ![2, 2048, 1024]⟩
abbrev S2x2048 : Shape := ⟨2, ![2, 2048]⟩
abbrev S3072x1024 : Shape := ⟨2, ![3072, 1024]⟩
abbrev S1024x1024 : Shape := ⟨2, ![1024, 1024]⟩
abbrev S1024 : Shape := ⟨1, ![1024]⟩
abbrev S4096x1024 : Shape := ⟨2, ![4096, 1024]⟩
abbrev S8x1x512 : Shape := ⟨3, ![8, 1, 512]⟩
abbrev S4x1x1024 : Shape := ⟨3, ![4, 1, 1024]⟩
abbrev S_ : Shape := ⟨0, ![]⟩
abbrev S2048x1024 : Shape := ⟨2, ![2048, 1024]⟩
abbrev S16x64x1024 : Shape := ⟨3, ![16, 64, 1024]⟩
abbrev S3072x4096 : Shape := ⟨2, ![3072, 4096]⟩
abbrev S512x1024 : Shape := ⟨2, ![512, 1024]⟩
abbrev S1x1x512 : Shape := ⟨3, ![1, 1, 512]⟩
abbrev S3072x512 : Shape := ⟨2, ![3072, 512]⟩
abbrev S512 : Shape := ⟨1, ![512]⟩
abbrev S512x1 : Shape := ⟨2, ![512, 1]⟩
abbrev S1024x2048 : Shape := ⟨2, ![1024, 2048]⟩
abbrev S1x1x1024 : Shape := ⟨3, ![1, 1, 1024]⟩
abbrev S64x1024 : Shape := ⟨2, ![64, 1024]⟩
abbrev S64x2048 : Shape := ⟨2, ![64, 2048]⟩
abbrev S1024x1 : Shape := ⟨2, ![1024, 1]⟩
abbrev S1024x64 : Shape := ⟨2, ![1024, 64]⟩
abbrev S1x64x1024 : Shape := ⟨3, ![1, 64, 1024]⟩
abbrev S1x1024 : Shape := ⟨2, ![1, 1024]⟩

abbrev nBuf : Space → Nat
  | .hbm => 21
  | .vmem => 19
  | .smem => 0
  | _ => 0

abbrev bufTy : (tb : Table) → Fin (tcTables nBuf tb) → BufTy
  | .hbm, ⟨0, _⟩ => ⟨S2x2048x1024, .f32⟩
  | .hbm, ⟨1, _⟩ => ⟨S2x2048, .i32⟩
  | .hbm, ⟨2, _⟩ => ⟨S3072x1024, .f32⟩
  | .hbm, ⟨3, _⟩ => ⟨S1024x1024, .f32⟩
  | .hbm, ⟨4, _⟩ => ⟨S1024, .f32⟩
  | .hbm, ⟨5, _⟩ => ⟨S4096x1024, .f32⟩
  | .hbm, ⟨6, _⟩ => ⟨S8x1x512, .i32⟩
  | .hbm, ⟨7, _⟩ => ⟨S4x1x1024, .i32⟩
  | .hbm, ⟨8, _⟩ => ⟨S1024x1024, .f32⟩
  | .hbm, ⟨9, _⟩ => ⟨S_, .f32⟩
  | .hbm, ⟨10, _⟩ => ⟨S1024x1024, .f32⟩
  | .hbm, ⟨11, _⟩ => ⟨S1024x1024, .f32⟩
  | .hbm, ⟨12, _⟩ => ⟨S2048x1024, .f32⟩
  | .hbm, ⟨13, _⟩ => ⟨S3072x1024, .f32⟩
  | .hbm, ⟨14, _⟩ => ⟨S3072x1024, .bf16⟩
  | .hbm, ⟨15, _⟩ => ⟨S1024x1024, .f32⟩
  | .hbm, ⟨16, _⟩ => ⟨S1024x1024, .bf16⟩
  | .hbm, ⟨17, _⟩ => ⟨S16x64x1024, .bf16⟩
  | .hbm, ⟨18, _⟩ => ⟨S3072x4096, .bf16⟩
  | .hbm, ⟨19, _⟩ => ⟨S4096x1024, .f32⟩
  | .hbm, ⟨20, _⟩ => ⟨S2x2048x1024, .f32⟩
  | .local _ .vmem, ⟨0, _⟩ => ⟨S512x1024, .f32⟩
  | .local _ .vmem, ⟨1, _⟩ => ⟨S512x1024, .f32⟩
  | .local _ .vmem, ⟨2, _⟩ => ⟨S1x1x512, .i32⟩
  | .local _ .vmem, ⟨3, _⟩ => ⟨S1x1x512, .i32⟩
  | .local _ .vmem, ⟨4, _⟩ => ⟨S3072x1024, .bf16⟩
  | .local _ .vmem, ⟨5, _⟩ => ⟨S3072x512, .bf16⟩
  | .local _ .vmem, ⟨6, _⟩ => ⟨S3072x512, .bf16⟩
  | .local _ .vmem, ⟨7, _⟩ => ⟨S1024x1024, .bf16⟩
  | .local _ .vmem, ⟨8, _⟩ => ⟨S1024x1024, .bf16⟩
  | .local _ .vmem, ⟨9, _⟩ => ⟨S1024x2048, .bf16⟩
  | .local _ .vmem, ⟨10, _⟩ => ⟨S1024x2048, .bf16⟩
  | .local _ .vmem, ⟨11, _⟩ => ⟨S1024x2048, .bf16⟩
  | .local _ .vmem, ⟨12, _⟩ => ⟨S1024x2048, .bf16⟩
  | .local _ .vmem, ⟨13, _⟩ => ⟨S1x1x1024, .i32⟩
  | .local _ .vmem, ⟨14, _⟩ => ⟨S1x1x1024, .i32⟩
  | .local _ .vmem, ⟨15, _⟩ => ⟨S16x64x1024, .bf16⟩
  | .local _ .vmem, ⟨16, _⟩ => ⟨S1024, .f32⟩
  | .local _ .vmem, ⟨17, _⟩ => ⟨S1024x1024, .f32⟩
  | .local _ .vmem, ⟨18, _⟩ => ⟨S1024x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg6_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem3_1 : DmaSem sig := 14
abbrev cc1_sem4_0 : DmaSem sig := 15
abbrev cc1_sem5_0 : DmaSem sig := 16
abbrev cc1_sem6_0 : DmaSem sig := 17
abbrev cc1_sem6_1 : DmaSem sig := 18

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3072x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S3072x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![2, 2], ![false, false]⟩

def cc1_transform_0 (i : grid1.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![c0_i32.toNat, v1.toNat]

def cc1_transform_1 (i : grid1.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg0.toNat]

def cc1_transform_2 (i : grid1.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  ![c2_i32.toNat, arg0.toNat]

def cc1_transform_3 (i : grid1.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_5 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1024x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1024x2048 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x1x1024 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 1 → Memref sig .tc .vmem S16x64x1024 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 2 → Memref sig .tc .vmem S1024x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

class Facts₀ : Prop where
  shapeCasts_S2x2048x1024_S4096x1024 : S2x2048x1024.ShapeCasts S4096x1024
  shapeCasts_S2x2048_S8x1x512 : S2x2048.ShapeCasts S8x1x512
  shapeCasts_S2x2048_S4x1x1024 : S2x2048.ShapeCasts S4x1x1024
  slices_S3072x1024_S1024x1024_0_0 : S3072x1024.Slices ![0, 0] S1024x1024
  bcast_S_S1024x1024 : S_.BroadcastsInDim S1024x1024 (![] : Fin 0 → Fin S1024x1024.rank)
  slices_S3072x1024_S2048x1024_1024_0 : S3072x1024.Slices ![1024, 0] S2048x1024
  concatenates_S1024x1024_S2048x1024_S3072x1024_d0 : Shape.Concatenates [S1024x1024, S2048x1024] S3072x1024 0
  bitsLt_bf16_f32 : FTy.bits .bf16 < FTy.bits .f32
  transposes_S1024x1024_S1024x1024_1_0 : S1024x1024.Transposes [1, 0] S1024x1024
  shapeCasts_S1024x1024_S16x64x1024 : S1024x1024.ShapeCasts S16x64x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1x1x512_S1x1x512_0_0_0 : ∀ a, (![0, 0, 0] : Fin 3 → Nat) a + S1x1x512.size a ≤ S1x1x512.size a
  h_S1x1x512 : 0 < S1x1x512.numel
  shapeCasts_S1x1x512_S512 : S1x1x512.ShapeCasts S512
  iota_S512x1024_d1_w32 : S512x1024.Iotas .tc 32 [1]
  shapeCasts_S512_S512x1 : S512.ShapeCasts S512x1
  broadcasts_S512x1_S512x1024 : S512x1.Broadcasts S512x1024
  inb_S3072x1024_S3072x1024_0_0 : ∀ a, (![0, 0] : Fin 2 → Nat) a + S3072x1024.size a ≤ S3072x1024.size a
  h_S3072x1024 : 0 < S3072x1024.numel
  shapeCasts_S3072x1024_S3072x1024 : S3072x1024.ShapeCasts S3072x1024
  inb_S3072x512_S3072x512_0_0 : ∀ a, (![0, 0] : Fin 2 → Nat) a + S3072x512.size a ≤ S3072x512.size a
  h_S3072x512 : 0 < S3072x512.numel
  packedbf16_S3072x512_S3072x512_0_0 : (Rect.unit (s := S3072x512) ![0, 0] S3072x512.size inb_S3072x512_S3072x512_0_0).PackedRows (EltTy.packing .bf16)
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1024x1024_S64x1024_0_0 : ∀ a, (![0, 0] : Fin 2 → Nat) a + S64x1024.size a ≤ S1024x1024.size a
  h_S64x1024 : 0 < S64x1024.numel
  shapeCasts_S64x1024_S64x1024 : S64x1024.ShapeCasts S64x1024
  slices_S1024x2048_o0_0_S64x2048 : S1024x2048.Slices ![0, 0] S64x2048
  reduces_S1024x2048_S1024 : S1024x2048.Reduces [1] S1024
  shapeCasts_S1024_S1024x1 : S1024.ShapeCasts S1024x1
  broadcasts_S1024x1_S1024x2048 : S1024x1.Broadcasts S1024x2048
  broadcasts_S1024x1_S1024x64 : S1024x1.Broadcasts S1024x64
  inb_S16x64x1024_S1x64x1024_0_0_0 : ∀ a, (![0, 0, 0] : Fin 3 → Nat) a + S1x64x1024.size a ≤ S16x64x1024.size a
  h_S1x64x1024 : 0 < S1x64x1024.numel
  shapeCasts_S1x64x1024_S64x1024 : S1x64x1024.ShapeCasts S64x1024
  inb_S1024x1024_S64x1024_64_0 : ∀ a, (![64, 0] : Fin 2 → Nat) a + S64x1024.size a ≤ S1024x1024.size a
  slices_S1024x2048_o64_0_S64x2048 : S1024x2048.Slices ![64, 0] S64x2048
  inb_S16x64x1024_S1x64x1024_1_0_0 : ∀ a, (![1, 0, 0] : Fin 3 → Nat) a + S1x64x1024.size a ≤ S16x64x1024.size a
  inb_S1024x1024_S64x1024_128_0 : ∀ a, (![128, 0] : Fin 2 → Nat) a + S64x1024.size a ≤ S1024x1024.size a
  slices_S1024x2048_o128_0_S64x2048 : S1024x2048.Slices ![128, 0] S64x2048
  inb_S16x64x1024_S1x64x1024_2_0_0 : ∀ a, (![2, 0, 0] : Fin 3 → Nat) a + S1x64x1024.size a ≤ S16x64x1024.size a
  inb_S1024x1024_S64x1024_192_0 : ∀ a, (![192, 0] : Fin 2 → Nat) a + S64x1024.size a ≤ S1024x1024.size a
  slices_S1024x2048_o192_0_S64x2048 : S1024x2048.Slices ![192, 0] S64x2048
  inb_S16x64x1024_S1x64x1024_3_0_0 : ∀ a, (![3, 0, 0] : Fin 3 → Nat) a + S1x64x1024.size a ≤ S16x64x1024.size a
  inb_S1024x1024_S64x1024_256_0 : ∀ a, (![256, 0] : Fin 2 → Nat) a + S64x1024.size a ≤ S1024x1024.size a
  slices_S1024x2048_o256_0_S64x2048 : S1024x2048.Slices ![256, 0] S64x2048
  inb_S16x64x1024_S1x64x1024_4_0_0 : ∀ a, (![4, 0, 0] : Fin 3 → Nat) a + S1x64x1024.size a ≤ S16x64x1024.size a
  inb_S1024x1024_S64x1024_320_0 : ∀ a, (![320, 0] : Fin 2 → Nat) a + S64x1024.size a ≤ S1024x1024.size a
  slices_S1024x2048_o320_0_S64x2048 : S1024x2048.Slices ![320, 0] S64x2048
  inb_S16x64x1024_S1x64x1024_5_0_0 : ∀ a, (![5, 0, 0] : Fin 3 → Nat) a + S1x64x1024.size a ≤ S16x64x1024.size a
  inb_S1024x1024_S64x1024_384_0 : ∀ a, (![384, 0] : Fin 2 → Nat) a + S64x1024.size a ≤ S1024x1024.size a
  slices_S1024x2048_o384_0_S64x2048 : S1024x2048.Slices ![384, 0] S64x2048
  inb_S16x64x1024_S1x64x1024_6_0_0 : ∀ a, (![6, 0, 0] : Fin 3 → Nat) a + S1x64x1024.size a ≤ S16x64x1024.size a
  inb_S1024x1024_S64x1024_448_0 : ∀ a, (![448, 0] : Fin 2 → Nat) a + S64x1024.size a ≤ S1024x1024.size a
  slices_S1024x2048_o448_0_S64x2048 : S1024x2048.Slices ![448, 0] S64x2048
  inb_S16x64x1024_S1x64x1024_7_0_0 : ∀ a, (![7, 0, 0] : Fin 3 → Nat) a + S1x64x1024.size a ≤ S16x64x1024.size a
  inb_S1024x1024_S64x1024_512_0 : ∀ a, (![512, 0] : Fin 2 → Nat) a + S64x1024.size a ≤ S1024x1024.size a
  slices_S1024x2048_o512_0_S64x2048 : S1024x2048.Slices ![512, 0] S64x2048
  inb_S16x64x1024_S1x64x1024_8_0_0 : ∀ a, (![8, 0, 0] : Fin 3 → Nat) a + S1x64x1024.size a ≤ S16x64x1024.size a
  inb_S1024x1024_S64x1024_576_0 : ∀ a, (![576, 0] : Fin 2 → Nat) a + S64x1024.size a ≤ S1024x1024.size a
  slices_S1024x2048_o576_0_S64x2048 : S1024x2048.Slices ![576, 0] S64x2048
  inb_S16x64x1024_S1x64x1024_9_0_0 : ∀ a, (![9, 0, 0] : Fin 3 → Nat) a + S1x64x1024.size a ≤ S16x64x1024.size a
  inb_S1024x1024_S64x1024_640_0 : ∀ a, (![640, 0] : Fin 2 → Nat) a + S64x1024.size a ≤ S1024x1024.size a
  slices_S1024x2048_o640_0_S64x2048 : S1024x2048.Slices ![640, 0] S64x2048
  inb_S16x64x1024_S1x64x1024_10_0_0 : ∀ a, (![10, 0, 0] : Fin 3 → Nat) a + S1x64x1024.size a ≤ S16x64x1024.size a
  inb_S1024x1024_S64x1024_704_0 : ∀ a, (![704, 0] : Fin 2 → Nat) a + S64x1024.size a ≤ S1024x1024.size a
  slices_S1024x2048_o704_0_S64x2048 : S1024x2048.Slices ![704, 0] S64x2048
  inb_S16x64x1024_S1x64x1024_11_0_0 : ∀ a, (![11, 0, 0] : Fin 3 → Nat) a + S1x64x1024.size a ≤ S16x64x1024.size a
  inb_S1024x1024_S64x1024_768_0 : ∀ a, (![768, 0] : Fin 2 → Nat) a + S64x1024.size a ≤ S1024x1024.size a
  slices_S1024x2048_o768_0_S64x2048 : S1024x2048.Slices ![768, 0] S64x2048
  inb_S16x64x1024_S1x64x1024_12_0_0 : ∀ a, (![12, 0, 0] : Fin 3 → Nat) a + S1x64x1024.size a ≤ S16x64x1024.size a
  inb_S1024x1024_S64x1024_832_0 : ∀ a, (![832, 0] : Fin 2 → Nat) a + S64x1024.size a ≤ S1024x1024.size a
  slices_S1024x2048_o832_0_S64x2048 : S1024x2048.Slices ![832, 0] S64x2048
  inb_S16x64x1024_S1x64x1024_13_0_0 : ∀ a, (![13, 0, 0] : Fin 3 → Nat) a + S1x64x1024.size a ≤ S16x64x1024.size a
  inb_S1024x1024_S64x1024_896_0 : ∀ a, (![896, 0] : Fin 2 → Nat) a + S64x1024.size a ≤ S1024x1024.size a
  slices_S1024x2048_o896_0_S64x2048 : S1024x2048.Slices ![896, 0] S64x2048
  inb_S16x64x1024_S1x64x1024_14_0_0 : ∀ a, (![14, 0, 0] : Fin 3 → Nat) a + S1x64x1024.size a ≤ S16x64x1024.size a
  inb_S1024x1024_S64x1024_960_0 : ∀ a, (![960, 0] : Fin 2 → Nat) a + S64x1024.size a ≤ S1024x1024.size a
  slices_S1024x2048_o960_0_S64x2048 : S1024x2048.Slices ![960, 0] S64x2048
  inb_S16x64x1024_S1x64x1024_15_0_0 : ∀ a, (![15, 0, 0] : Fin 3 → Nat) a + S1x64x1024.size a ≤ S16x64x1024.size a
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S1024x1024 : S1x1024.Broadcasts S1024x1024
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1024 : S1x1x1024.ShapeCasts S1024
  iota_S1024x1024_d1_w32 : S1024x1024.Iotas .tc 32 [1]
  broadcasts_S1024x1_S1024x1024 : S1024x1.Broadcasts S1024x1024
  inb_S1024x1024_S1024x1024_0_0 : ∀ a, (![0, 0] : Fin 2 → Nat) a + S1024x1024.size a ≤ S1024x1024.size a
  h_S1024x1024 : 0 < S1024x1024.numel
  shapeCasts_S4096x1024_S2x2048x1024 : S4096x1024.ShapeCasts S2x2048x1024
  dot_S3072x1024_S512x1024_S3072x512_1_1_0_0_n_n_wf : DotDims.WF S3072x1024 S512x1024 S3072x512 [1] [1] [0] [0] [] []
  dot_S64x1024_S64x2048_S1024x2048_0_0_1_1_n_n_wf : DotDims.WF S64x1024 S64x2048 S1024x2048 [0] [0] [1] [1] [] []
  dot_S1024x2048_S64x2048_S1024x64_1_1_0_0_n_n_wf : DotDims.WF S1024x2048 S64x2048 S1024x64 [1] [1] [0] [0] [] []
  dot_S1024x64_S64x1024_S1024x1024_1_0_0_1_n_n_wf : DotDims.WF S1024x64 S64x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x1024.size a
  hwx0_0 : ∀ i : grid0.Coords, EltTy.bits .f32 = 32 ∨ (Rect.block (s := S4096x1024) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x512.size a ≤ S8x1x512.size a
  hwx0_1 : ∀ i : grid0.Coords, EltTy.bits .i32 = 32 ∨ (Rect.block (s := S8x1x512) S1x1x512.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3072x1024.size a ≤ S3072x1024.size a
  hwx0_2 : ∀ i : grid0.Coords, EltTy.bits .bf16 = 32 ∨ (Rect.block (s := S3072x1024) S3072x1024.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S3072x512.size a ≤ S3072x4096.size a
  hwx0_3 : ∀ i : grid0.Coords, EltTy.bits .bf16 = 32 ∨ (Rect.block (s := S3072x4096) S3072x512.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S3072x4096.size a
  hwx1_0 : ∀ i : grid1.Coords, EltTy.bits .bf16 = 32 ∨ (Rect.block (s := S3072x4096) S1024x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x2048.size a ≤ S3072x4096.size a
  hwx1_1 : ∀ i : grid1.Coords, EltTy.bits .bf16 = 32 ∨ (Rect.block (s := S3072x4096) S1024x2048.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x2048.size a ≤ S3072x4096.size a
  hwx1_2 : ∀ i : grid1.Coords, EltTy.bits .bf16 = 32 ∨ (Rect.block (s := S3072x4096) S1024x2048.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1x1024.size a ≤ S4x1x1024.size a
  hwx1_3 : ∀ i : grid1.Coords, EltTy.bits .i32 = 32 ∨ (Rect.block (s := S4x1x1024) S1x1x1024.size (cc1_transform_3 i) (hinb1_3 i)).WholeWords (EltTy.packing .i32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S16x64x1024.size a ≤ S16x64x1024.size a
  hwx1_4 : ∀ i : grid1.Coords, EltTy.bits .bf16 = 32 ∨ (Rect.block (s := S16x64x1024) S16x64x1024.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1024.size a ≤ S1024.size a
  hwx1_5 : ∀ i : grid1.Coords, EltTy.bits .f32 = 32 ∨ (Rect.block (s := S1024) S1024.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1024x1024.size a ≤ S4096x1024.size a
  hwx1_6 : ∀ i : grid1.Coords, EltTy.bits .f32 = 32 ∨ (Rect.block (s := S4096x1024) S1024x1024.size (cc1_transform_6 i) (hinb1_6 i)).WholeWords (EltTy.packing .f32)

variable [Facts₀]

def dot_S3072x1024_S512x1024_S3072x512_1_1_0_0_n_n : DotDims S3072x1024 S512x1024 S3072x512 where
  lhsContracting := [1]
  rhsContracting := [1]
  lhsNonContracting := [0]
  rhsNonContracting := [0]
  lhsBatch := []
  rhsBatch := []
  wf := dot_S3072x1024_S512x1024_S3072x512_1_1_0_0_n_n_wf
def dot_S64x1024_S64x2048_S1024x2048_0_0_1_1_n_n : DotDims S64x1024 S64x2048 S1024x2048 where
  lhsContracting := [0]
  rhsContracting := [0]
  lhsNonContracting := [1]
  rhsNonContracting := [1]
  lhsBatch := []
  rhsBatch := []
  wf := dot_S64x1024_S64x2048_S1024x2048_0_0_1_1_n_n_wf
def dot_S1024x2048_S64x2048_S1024x64_1_1_0_0_n_n : DotDims S1024x2048 S64x2048 S1024x64 where
  lhsContracting := [1]
  rhsContracting := [1]
  lhsNonContracting := [0]
  rhsNonContracting := [0]
  lhsBatch := []
  rhsBatch := []
  wf := dot_S1024x2048_S64x2048_S1024x64_1_1_0_0_n_n_wf
def dot_S1024x64_S64x1024_S1024x1024_1_0_0_1_n_n : DotDims S1024x64 S64x1024 S1024x1024 where
  lhsContracting := [1]
  rhsContracting := [0]
  lhsNonContracting := [0]
  rhsNonContracting := [1]
  lhsBatch := []
  rhsBatch := []
  wf := dot_S1024x64_S64x1024_S1024x1024_1_0_0_1_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S3072x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v12) S3072x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v12) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S1024x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S1024x2048.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v2) S1x1x1024.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v11) S16x64x1024.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg4) S1024.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v13) S1024x1024.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S2x2048x1024 : Shape := ⟨3, ![2, 2048, 1024]⟩
abbrev S2x2048 : Shape := ⟨2, ![2, 2048]⟩
abbrev S3072x1024 : Shape := ⟨2, ![3072, 1024]⟩
abbrev S1024x1024 : Shape := ⟨2, ![1024, 1024]⟩
abbrev S1024 : Shape := ⟨1, ![1024]⟩
abbrev S_ : Shape := ⟨0, ![]⟩
abbrev S1x1x1024 : Shape := ⟨3, ![1, 1, 1024]⟩
abbrev S2x2048x1 : Shape := ⟨3, ![2, 2048, 1]⟩
abbrev S2x2048x3072 : Shape := ⟨3, ![2, 2048, 3072]⟩
abbrev S2x2048x3x16x64 : Shape := ⟨5, ![2, 2048, 3, 16, 64]⟩
abbrev S2x2048x1x16x64 : Shape := ⟨5, ![2, 2048, 1, 16, 64]⟩
abbrev S2x2048x16x64 : Shape := ⟨4, ![2, 2048, 16, 64]⟩
abbrev S2x16x2048x64 : Shape := ⟨4, ![2, 16, 2048, 64]⟩
abbrev S2x16x2048x2048 : Shape := ⟨4, ![2, 16, 2048, 2048]⟩
abbrev S2x16x2048 : Shape := ⟨3, ![2, 16, 2048]⟩
abbrev S2x16x2048x1 : Shape := ⟨4, ![2, 16, 2048, 1]⟩

abbrev nBuf : Space → Nat
  | .hbm => 74
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x2048, .i32⟩
  | .hbm, ⟨2, _⟩ => ⟨S3072x1024, .f32⟩
  | .hbm, ⟨3, _⟩ => ⟨S1024x1024, .f32⟩
  | .hbm, ⟨4, _⟩ => ⟨S1024, .f32⟩
  | .hbm, ⟨5, _⟩ => ⟨S_, .i32⟩
  | .hbm, ⟨6, _⟩ => ⟨S2x2048, .i32⟩
  | .hbm, ⟨7, _⟩ => ⟨S2x2048, .i32⟩
  | .hbm, ⟨8, _⟩ => ⟨S_, .i32⟩
  | .hbm, ⟨9, _⟩ => ⟨S2x2048, .i32⟩
  | .hbm, ⟨10, _⟩ => ⟨S2x2048, .i32⟩
  | .hbm, ⟨11, _⟩ => ⟨S_, .i32⟩
  | .hbm, ⟨12, _⟩ => ⟨S_, .i32⟩
  | .hbm, ⟨13, _⟩ => ⟨S2x2048, .i32⟩
  | .hbm, ⟨14, _⟩ => ⟨S2x2048, .i32⟩
  | .hbm, ⟨15, _⟩ => ⟨S2x2048, .i32⟩
  | .hbm, ⟨16, _⟩ => ⟨S_, .i32⟩
  | .hbm, ⟨17, _⟩ => ⟨S2x2048, .i32⟩
  | .hbm, ⟨18, _⟩ => ⟨S2x2048, .i1⟩
  | .hbm, ⟨19, _⟩ => ⟨S2x2048, .i32⟩
  | .hbm, ⟨20, _⟩ => ⟨S2x2048, .i32⟩
  | .hbm, ⟨21, _⟩ => ⟨S_, .i32⟩
  | .hbm, ⟨22, _⟩ => ⟨S2x2048, .i32⟩
  | .hbm, ⟨23, _⟩ => ⟨S2x2048, .i1⟩
  | .hbm, ⟨24, _⟩ => ⟨S2x2048, .i1⟩
  | .hbm, ⟨25, _⟩ => ⟨S_, .i32⟩
  | .hbm, ⟨26, _⟩ => ⟨S2x2048, .i32⟩
  | .hbm, ⟨27, _⟩ => ⟨S2x2048, .i32⟩
  | .hbm, ⟨28, _⟩ => ⟨S2x2048, .i32⟩
  | .hbm, ⟨29, _⟩ => ⟨S1024, .i32⟩
  | .hbm, ⟨30, _⟩ => ⟨S1x1x1024, .i32⟩
  | .hbm, ⟨31, _⟩ => ⟨S2x2048x1, .i32⟩
  | .hbm, ⟨32, _⟩ => ⟨S2x2048x1024, .i32⟩
  | .hbm, ⟨33, _⟩ => ⟨S2x2048x1024, .i32⟩
  | .hbm, ⟨34, _⟩ => ⟨S2x2048x1024, .i1⟩
  | .hbm, ⟨35, _⟩ => ⟨S2x2048x1024, .f32⟩
  | .hbm, ⟨36, _⟩ => ⟨S2x2048x1024, .f32⟩
  | .hbm, ⟨37, _⟩ => ⟨S2x2048x3072, .f32⟩
  | .hbm, ⟨38, _⟩ => ⟨S2x2048x3x16x64, .f32⟩
  | .hbm, ⟨39, _⟩ => ⟨S2x2048x1x16x64, .f32⟩
  | .hbm, ⟨40, _⟩ => ⟨S2x2048x16x64, .f32⟩
  | .hbm, ⟨41, _⟩ => ⟨S2x16x2048x64, .f32⟩
  | .hbm, ⟨42, _⟩ => ⟨S2x2048x1x16x64, .f32⟩
  | .hbm, ⟨43, _⟩ => ⟨S2x2048x16x64, .f32⟩
  | .hbm, ⟨44, _⟩ => ⟨S2x16x2048x64, .f32⟩
  | .hbm, ⟨45, _⟩ => ⟨S2x2048x1x16x64, .f32⟩
  | .hbm, ⟨46, _⟩ => ⟨S2x2048x16x64, .f32⟩
  | .hbm, ⟨47, _⟩ => ⟨S2x16x2048x64, .f32⟩
  | .hbm, ⟨48, _⟩ => ⟨S2x16x2048x2048, .f32⟩
  | .hbm, ⟨49, _⟩ => ⟨S_, .f32⟩
  | .hbm, ⟨50, _⟩ => ⟨S2x16x2048x2048, .f32⟩
  | .hbm, ⟨51, _⟩ => ⟨S2x16x2048x2048, .f32⟩
  | .hbm, ⟨52, _⟩ => ⟨S_, .f32⟩
  | .hbm, ⟨53, _⟩ => ⟨S2x16x2048, .f32⟩
  | .hbm, ⟨54, _⟩ => ⟨S_, .f32⟩
  | .hbm, ⟨55, _⟩ => ⟨S2x16x2048, .f32⟩
  | .hbm, ⟨56, _⟩ => ⟨S2x16x2048, .f32⟩
  | .hbm, ⟨57, _⟩ => ⟨S2x16x2048x1, .f32⟩
  | .hbm, ⟨58, _⟩ => ⟨S2x16x2048x2048, .f32⟩
  | .hbm, ⟨59, _⟩ => ⟨S2x16x2048x2048, .f32⟩
  | .hbm, ⟨60, _⟩ => ⟨S2x16x2048x2048, .f32⟩
  | .hbm, ⟨61, _⟩ => ⟨S_, .f32⟩
  | .hbm, ⟨62, _⟩ => ⟨S2x16x2048, .f32⟩
  | .hbm, ⟨63, _⟩ => ⟨S2x16x2048x1, .f32⟩
  | .hbm, ⟨64, _⟩ => ⟨S2x16x2048x2048, .f32⟩
  | .hbm, ⟨65, _⟩ => ⟨S2x16x2048x2048, .f32⟩
  | .hbm, ⟨66, _⟩ => ⟨S2x16x2048x64, .f32⟩
  | .hbm, ⟨67, _⟩ => ⟨S2x2048x16x64, .f32⟩
  | .hbm, ⟨68, _⟩ => ⟨S2x2048x1024, .f32⟩
  | .hbm, ⟨69, _⟩ => ⟨S2x2048x1024, .f32⟩
  | .hbm, ⟨70, _⟩ => ⟨S1x1x1024, .f32⟩
  | .hbm, ⟨71, _⟩ => ⟨S2x2048x1024, .f32⟩
  | .hbm, ⟨72, _⟩ => ⟨S2x2048x1024, .f32⟩
  | .hbm, ⟨73, _⟩ => ⟨S2x2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_c_1 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_c : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_0 : Ref sig .tc := ⟨.hbm, 25, rfl⟩
abbrev main_call0_v12 : Ref sig .tc := ⟨.hbm, 26, rfl⟩
abbrev main_call0_v13 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_cst : Ref sig .tc := ⟨.hbm, 49, rfl⟩
abbrev main_v25 : Ref sig .tc := ⟨.hbm, 50, rfl⟩
abbrev main_v26 : Ref sig .tc := ⟨.hbm, 51, rfl⟩
abbrev main_cst_2 : Ref sig .tc := ⟨.hbm, 52, rfl⟩
abbrev main_v27 : Ref sig .tc := ⟨.hbm, 53, rfl⟩
abbrev main_cst_3 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_cst_4 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩

abbrev nD : Nat := 1
abbrev τ : Topo := Topo.v7x

variable {F : FTy → Type} [FloatOps F]

class Facts₀ : Prop where
  bcast_S_S2x2048 : S_.BroadcastsInDim S2x2048 (![] : Fin 0 → Fin S2x2048.rank)
  bcast_S1024_S1x1x1024_2 : S1024.BroadcastsInDim S1x1x1024 (![2] : Fin 1 → Fin S1x1x1024.rank)
  bcast_S2x2048_S2x2048x1_0_1 : S2x2048.BroadcastsInDim S2x2048x1 (![0, 1] : Fin 2 → Fin S2x2048x1.rank)
  bcast_S1x1x1024_S2x2048x1024_0_1_2 : S1x1x1024.BroadcastsInDim S2x2048x1024 (![0, 1, 2] : Fin 3 → Fin S2x2048x1024.rank)
  bcast_S2x2048x1_S2x2048x1024_0_1_2 : S2x2048x1.BroadcastsInDim S2x2048x1024 (![0, 1, 2] : Fin 3 → Fin S2x2048x1024.rank)
  shapeCasts_S2x2048x3072_S2x2048x3x16x64 : S2x2048x3072.ShapeCasts S2x2048x3x16x64
  slices_S2x2048x3x16x64_S2x2048x1x16x64_0_0_0_0_0 : S2x2048x3x16x64.Slices ![0, 0, 0, 0, 0] S2x2048x1x16x64
  shapeCasts_S2x2048x1x16x64_S2x2048x16x64 : S2x2048x1x16x64.ShapeCasts S2x2048x16x64
  transposes_S2x2048x16x64_S2x16x2048x64_0_2_1_3 : S2x2048x16x64.Transposes [0, 2, 1, 3] S2x16x2048x64
  slices_S2x2048x3x16x64_S2x2048x1x16x64_0_0_1_0_0 : S2x2048x3x16x64.Slices ![0, 0, 1, 0, 0] S2x2048x1x16x64
  slices_S2x2048x3x16x64_S2x2048x1x16x64_0_0_2_0_0 : S2x2048x3x16x64.Slices ![0, 0, 2, 0, 0] S2x2048x1x16x64
  bcast_S_S2x16x2048x2048 : S_.BroadcastsInDim S2x16x2048x2048 (![] : Fin 0 → Fin S2x16x2048x2048.rank)
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  transposes_S2x16x2048x64_S2x2048x16x64_0_2_1_3 : S2x16x2048x64.Transposes [0, 2, 1, 3] S2x2048x16x64
  shapeCasts_S2x2048x16x64_S2x2048x1024 : S2x2048x16x64.ShapeCasts S2x2048x1024
  dot_S2x2048x1024_S3072x1024_S2x2048x3072_2_1_01_0_n_n_wf : DotDims.WF S2x2048x1024 S3072x1024 S2x2048x3072 [2] [1] [0, 1] [0] [] []
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]
  dot_S2x2048x1024_S1024x1024_S2x2048x1024_2_1_01_0_n_n_wf : DotDims.WF S2x2048x1024 S1024x1024 S2x2048x1024 [2] [1] [0, 1] [0] [] []

variable [Facts₀]

def dot_S2x2048x1024_S3072x1024_S2x2048x3072_2_1_01_0_n_n : DotDims S2x2048x1024 S3072x1024 S2x2048x3072 where
  lhsContracting := [2]
  rhsContracting := [1]
  lhsNonContracting := [0, 1]
  rhsNonContracting := [0]
  lhsBatch := []
  rhsBatch := []
  wf := dot_S2x2048x1024_S3072x1024_S2x2048x3072_2_1_01_0_n_n_wf
def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf
def dot_S2x2048x1024_S1024x1024_S2x2048x1024_2_1_01_0_n_n : DotDims S2x2048x1024 S1024x1024 S2x2048x1024 where
  lhsContracting := [2]
  rhsContracting := [1]
  lhsNonContracting := [0, 1]
  rhsNonContracting := [0]
  lhsBatch := []
  rhsBatch := []
  wf := dot_S2x2048x1024_S1024x1024_S2x2048x1024_2_1_01_0_n_n_wf

class Facts : Prop extends Facts₀ where

variable [Facts]
-- ==== Proof.Spec.lean ====
/-
  The two formulas this certificate joins, over the extended reals, with every array a function of its coordinates.

  Nested attention: a token (b, n) carries a feature mask M b n · over the 1024 features. The masked tokens are
  projected to 3072 features (query, key and value slabs of 16 heads × 64 lanes), each head's scores over the 2048
  keys of the batch entry go through a softmax, the weighted values of the 16 heads are laid side by side, projected
  by Wp with the bias Bp, and masked again.

  `KG` is the arrangement with the scale 1/8 folded into the query rows of the projection, the softmax normalised
  after the value product, and the output projection accumulated head by head. `RG` is the textbook arrangement: the
  scale applied to the scores, the softmax normalised before the value product, one projection over all 1024 columns.
-/
import Mathlib.Data.EReal.Basic
import Mathlib.Algebra.BigOperators.Fin
import Idealize.ShloMosaic.PureOps.Ideal

noncomputable section

namespace Cert.AttnSpec

open Idealize.ShloMosaic

/-- Feature `s·1024 + h·64 + d` of the 3072: slab `s` (0 query, 1 key, 2 value), head `h`, lane `d`. -/
def feat (s : Fin 3) (h : Fin 16) (d : Fin 64) : Fin 3072 := ⟨s.val * 1024 + h.val * 64 + d.val, by omega⟩
/-- Column `h·64 + d` of the 1024. -/
def col (h : Fin 16) (d : Fin 64) : Fin 1024 := ⟨h.val * 64 + d.val, by omega⟩
/-- The scale 1/8 = 64^(-1/2). -/
def eighth : EReal := ((0.125 : ℝ) : EReal)

variable (X : Fin 2 → Fin 2048 → Fin 1024 → EReal) (M : Fin 2 → Fin 2048 → Fin 1024 → Bool)
  (Wq : Fin 3072 → Fin 1024 → EReal) (Wp : Fin 1024 → Fin 1024 → EReal) (Bp : Fin 1024 → EReal)

/-! ## The folded arrangement -/

def kxm (b : Fin 2) (n : Fin 2048) (d : Fin 1024) : EReal := if M b n d then X b n d else 0
/-- The projection with the scale folded into the query rows. -/
def kw (f : Fin 3072) (d : Fin 1024) : EReal := if f.val < 1024 then Wq f d * eighth else Wq f d
/-- Feature-major projection of the masked tokens. -/
def kqkv (f : Fin 3072) (b : Fin 2) (n : Fin 2048) : EReal := ∑ d : Fin 1024, kw Wq f d * kxm X M b n d
def ks (b : Fin 2) (h : Fin 16) (q k : Fin 2048) : EReal :=
  ∑ d : Fin 64, kqkv X M Wq (feat 0 h d) b q * kqkv X M Wq (feat 1 h d) b k
def kmax (b : Fin 2) (h : Fin 16) (q : Fin 2048) : EReal := Finset.univ.sup fun k : Fin 2048 => ks X M Wq b h q k
def kp (b : Fin 2) (h : Fin 16) (q k : Fin 2048) : EReal := Ideal.exp (ks X M Wq b h q k - kmax X M Wq b h q)
def kl (b : Fin 2) (h : Fin 16) (q : Fin 2048) : EReal := ∑ k : Fin 2048, kp X M Wq b h q k
def ko (b : Fin 2) (h : Fin 16) (q : Fin 2048) (d : Fin 64) : EReal :=
  Ideal.div (∑ k : Fin 2048, kp X M Wq b h q k * kqkv X M Wq (feat 2 h d) b k) (kl X M Wq b h q)
def kc (b : Fin 2) (h : Fin 16) (q : Fin 2048) (o : Fin 1024) : EReal :=
  ∑ d : Fin 64, ko X M Wq b h q d * Wp o (col h d)
def KG (b : Fin 2) (q : Fin 2048) (o : Fin 1024) : EReal :=
  if M b q o then (∑ h : Fin 16, kc X M Wq Wp b h q o) + Bp o else 0

/-! ## The textbook arrangement -/

def fm (b : Fin 2) (n : Fin 2048) (d : Fin 1024) : EReal := if M b n d then 1 else 0
def rxm (b : Fin 2) (n : Fin 2048) (d : Fin 1024) : EReal := X b n d * fm M b n d
def rqkv (b : Fin 2) (n : Fin 2048) (f : Fin 3072) : EReal := ∑ d : Fin 1024, rxm X M b n d * Wq f d
def ra (b : Fin 2) (h : Fin 16) (q k : Fin 2048) : EReal :=
  (∑ d : Fin 64, rqkv X M Wq b q (feat 0 h d) * rqkv X M Wq b k (feat 1 h d)) * eighth
def rmax (b : Fin 2) (h : Fin 16) (q : Fin 2048) : EReal := Finset.univ.sup fun k : Fin 2048 => ra X M Wq b h q k
def ru (b : Fin 2) (h : Fin 16) (q k : Fin 2048) : EReal := Ideal.exp (ra X M Wq b h q k - rmax X M Wq b h q)
def rz (b : Fin 2) (h : Fin 16) (q : Fin 2048) : EReal := ∑ k : Fin 2048, ru X M Wq b h q k
def rsm (b : Fin 2) (h : Fin 16) (q k : Fin 2048) : EReal := Ideal.div (ru X M Wq b h q k) (rz X M Wq b h q)
def rx (b : Fin 2) (h : Fin 16) (q : Fin 2048) (d : Fin 64) : EReal :=
  ∑ k : Fin 2048, rsm X M Wq b h q k * rqkv X M Wq b k (feat 2 h d)
/-- The heads' outputs side by side: column `c` belongs to head `c / 64`, lane `c % 64`. -/
def rcat (b : Fin 2) (n : Fin 2048) (c : Fin 1024) : EReal :=
  rx X M Wq b ⟨c.val / 64, by omega⟩ n ⟨c.val % 64, by omega⟩
def ry (b : Fin 2) (n : Fin 2048) (o : Fin 1024) : EReal := (∑ c : Fin 1024, rcat X M Wq b n c * Wp o c) + Bp o
def RG (b : Fin 2) (n : Fin 2048) (o : Fin 1024) : EReal := ry X M Wq Wp Bp b n o * fm M b n o

end Cert.AttnSpec

end
-- ==== Proof.RefFn.lean ====
/-
  The reference program's result as one pure term of its five arguments: one `let` per operation of @main, in the
  program's order, each carrying the pure function and the evidence the printed operation carries. The call of
  @floor_divide is opened in place (its operations over the call's operands, then @_where's select).
-/
import proofs.«166787_g36747740185073_cont_sun_m_199_12_alg».proof.ReferenceIdeal
import Idealize.ShloMosaic.PureOps.Ideal

noncomputable section

namespace Cert.ReferenceIdeal.RefFn

open Idealize.ShloMosaic Cert.ReferenceIdeal
open Cert.ReferenceIdeal.Facts₀ Cert.ReferenceIdeal.Facts

variable [Cert.ReferenceIdeal.Facts]

/-- %10: the feature mask as a word of one bit per (token, feature): the signed test `d < ⌊1024·(a1+1) / 8⌋`,
    the floor division spelt as the truncated quotient corrected by one where the signs differ and the
    remainder is not zero. -/
def maskBits (a1 : IVec S2x2048 32) : IVec S2x2048x1024 1 :=
  let c : IVec S_ 32 := constantI S_ 32 1#32
  let v0 : IVec S2x2048 32 := broadcastInDim S2x2048 ![] bcast_S_S2x2048 c
  let v1 : IVec S2x2048 32 := addi a1 v0
  let c_0 : IVec S_ 32 := constantI S_ 32 1024#32
  let v2 : IVec S2x2048 32 := broadcastInDim S2x2048 ![] bcast_S_S2x2048 c_0
  let v3 : IVec S2x2048 32 := muli v2 v1
  let c_1 : IVec S_ 32 := constantI S_ 32 8#32
  -- @floor_divide(%3, %c_1)
  let f0 : IVec S_ 32 := id c_1
  let f1 : IVec S2x2048 32 := broadcastInDim S2x2048 ![] bcast_S_S2x2048 f0
  let f2 : IVec S2x2048 32 := Host.divsi v3 f1
  let f3 : IVec S2x2048 32 := signi v3
  let f4 : IVec S_ 32 := signi f0
  let f5 : IVec S2x2048 32 := broadcastInDim S2x2048 ![] bcast_S_S2x2048 f4
  let f6 : IVec S2x2048 1 := cmpi .ne f3 f5
  let f7 : IVec S2x2048 32 := broadcastInDim S2x2048 ![] bcast_S_S2x2048 f0
  let f8 : IVec S2x2048 32 := Host.remsi v3 f7
  let fc : IVec S_ 32 := constantI S_ 32 0#32
  let f9 : IVec S2x2048 32 := broadcastInDim S2x2048 ![] bcast_S_S2x2048 fc
  let f10 : IVec S2x2048 1 := cmpi .ne f8 f9
  let f11 : IVec S2x2048 1 := andi f6 f10
  let fc_0 : IVec S_ 32 := constantI S_ 32 1#32
  let f12 : IVec S2x2048 32 := broadcastInDim S2x2048 ![] bcast_S_S2x2048 fc_0
  let f13 : IVec S2x2048 32 := subi f2 f12
  -- @_where(%11, %13, %2)
  let v4 : IVec S2x2048 32 := select f11 f13 f2
  let v5 : IVec S1024 32 := iotaInDim S1024 32 0
  let v6 : IVec S1x1x1024 32 := broadcastInDim S1x1x1024 ![2] bcast_S1024_S1x1x1024_2 v5
  let v7 : IVec S2x2048x1 32 := broadcastInDim S2x2048x1 ![0, 1] bcast_S2x2048_S2x2048x1_0_1 v4
  let v8 : IVec S2x2048x1024 32 := broadcastInDim S2x2048x1024 ![0, 1, 2] bcast_S1x1x1024_S2x2048x1024_0_1_2 v6
  let v9 : IVec S2x2048x1024 32 := broadcastInDim S2x2048x1024 ![0, 1, 2] bcast_S2x2048x1_S2x2048x1024_0_1_2 v7
  cmpi .slt v8 v9

/-- %45 of @main as a function of %arg0 … %arg4. -/
def refFn (a0 : FVec Ideal S2x2048x1024 .f32) (a1 : IVec S2x2048 32) (a2 : FVec Ideal S3072x1024 .f32)
    (a3 : FVec Ideal S1024x1024 .f32) (a4 : FVec Ideal S1024 .f32) : FVec Ideal S2x2048x1024 .f32 :=
  let v10 : IVec S2x2048x1024 1 := maskBits a1
  let v11 : FVec Ideal S2x2048x1024 .f32 := uitofp .f32 v10
  let v12 : FVec Ideal S2x2048x1024 .f32 := mulf a0 v11
  let v13 : FVec Ideal S2x2048x3072 .f32 :=
    Host.dotGeneral (F := Ideal) dot_S2x2048x1024_S3072x1024_S2x2048x3072_2_1_01_0_n_n none v12 a2
  let v14 : FVec Ideal S2x2048x3x16x64 .f32 := shapeCast S2x2048x3x16x64 v13 shapeCasts_S2x2048x3072_S2x2048x3x16x64
  let v15 : FVec Ideal S2x2048x1x16x64 .f32 :=
    extractStridedSlice S2x2048x1x16x64 ![0, 0, 0, 0, 0] v14 slices_S2x2048x3x16x64_S2x2048x1x16x64_0_0_0_0_0
  let v16 : FVec Ideal S2x2048x16x64 .f32 := shapeCast S2x2048x16x64 v15 shapeCasts_S2x2048x1x16x64_S2x2048x16x64
  let v17 : FVec Ideal S2x16x2048x64 .f32 :=
    transpose S2x16x2048x64 [0, 2, 1, 3] v16 transposes_S2x2048x16x64_S2x16x2048x64_0_2_1_3
  let v18 : FVec Ideal S2x2048x1x16x64 .f32 :=
    extractStridedSlice S2x2048x1x16x64 ![0, 0, 1, 0, 0] v14 slices_S2x2048x3x16x64_S2x2048x1x16x64_0_0_1_0_0
  let v19 : FVec Ideal S2x2048x16x64 .f32 := shapeCast S2x2048x16x64 v18 shapeCasts_S2x2048x1x16x64_S2x2048x16x64
  let v20 : FVec Ideal S2x16x2048x64 .f32 :=
    transpose S2x16x2048x64 [0, 2, 1, 3] v19 transposes_S2x2048x16x64_S2x16x2048x64_0_2_1_3
  let v21 : FVec Ideal S2x2048x1x16x64 .f32 :=
    extractStridedSlice S2x2048x1x16x64 ![0, 0, 2, 0, 0] v14 slices_S2x2048x3x16x64_S2x2048x1x16x64_0_0_2_0_0
  let v22 : FVec Ideal S2x2048x16x64 .f32 := shapeCast S2x2048x16x64 v21 shapeCasts_S2x2048x1x16x64_S2x2048x16x64
  let v23 : FVec Ideal S2x16x2048x64 .f32 :=
    transpose S2x16x2048x64 [0, 2, 1, 3] v22 transposes_S2x2048x16x64_S2x16x2048x64_0_2_1_3
  let v24 : FVec Ideal S2x16x2048x2048 .f32 :=
    Host.dotGeneral (F := Ideal) dot_S2x16x2048x64_S2x16x2048x64_S2x16x2048x2048_3_3_2_2_01_01 none v17 v20
  let cst : FVec Ideal S_ .f32 := constant (F := Ideal) S_ .f32 0x3E000000#32
  let v25 : FVec Ideal S2x16x2048x2048 .f32 := broadcastInDim S2x16x2048x2048 ![] bcast_S_S2x16x2048x2048 cst
  let v26 : FVec Ideal S2x16x2048x2048 .f32 := mulf v24 v25
  let cst_2 : FVec Ideal S_ .f32 := constant (F := Ideal) S_ .f32 0xFF800000#32
  let v27 : FVec Ideal S2x16x2048 .f32 :=
    Host.reduce (FloatOps.maximumf (F := Ideal)) v26 cst_2 reducesTo_S2x16x2048x2048_S2x16x2048_d3 h_S_
  let cst_3 : FVec Ideal S_ .f32 := constant (F := Ideal) S_ .f32 0xFF800000#32
  let v28 : FVec Ideal S2x16x2048 .f32 := broadcastInDim S2x16x2048 ![] bcast_S_S2x16x2048 cst_3
  let v29 : FVec Ideal S2x16x2048 .f32 := maximumf v28 v27
  let v30 : FVec Ideal S2x16x2048x1 .f32 := broadcastInDim S2x16x2048x1 ![0, 1, 2] bcast_S2x16x2048_S2x16x2048x1_0_1_2 v29
  let v31 : FVec Ideal S2x16x2048x2048 .f32 :=
    broadcastInDim S2x16x2048x2048 ![0, 1, 2, 3] bcast_S2x16x2048x1_S2x16x2048x2048_0_1_2_3 v30
  let v32 : FVec Ideal S2x16x2048x2048 .f32 := subf v26 v31
  let v33 : FVec Ideal S2x16x2048x2048 .f32 := Host.exp (F := Ideal) v32
  let cst_4 : FVec Ideal S_ .f32 := constant (F := Ideal) S_ .f32 0x00000000#32
  let v34 : FVec Ideal S2x16x2048 .f32 :=
    Host.reduceAdd (F := Ideal) v33 cst_4 reducesTo_S2x16x2048x2048_S2x16x2048_d3 h_S_
  let v35 : FVec Ideal S2x16x2048x1 .f32 := broadcastInDim S2x16x2048x1 ![0, 1, 2] bcast_S2x16x2048_S2x16x2048x1_0_1_2 v34
  let v36 : FVec Ideal S2x16x2048x2048 .f32 :=
    broadcastInDim S2x16x2048x2048 ![0, 1, 2, 3] bcast_S2x16x2048x1_S2x16x2048x2048_0_1_2_3 v35
  let v37 : FVec Ideal S2x16x2048x2048 .f32 := Host.divf (F := Ideal) v33 v36
  let v38 : FVec Ideal S2x16x2048x64 .f32 :=
    Host.dotGeneral (F := Ideal) dot_S2x16x2048x2048_S2x16x2048x64_S2x16x2048x64_3_2_2_3_01_01 none v37 v23
  let v39 : FVec Ideal S2x2048x16x64 .f32 :=
    transpose S2x2048x16x64 [0, 2, 1, 3] v38 transposes_S2x16x2048x64_S2x2048x16x64_0_2_1_3
  let v40 : FVec Ideal S2x2048x1024 .f32 := shapeCast S2x2048x1024 v39 shapeCasts_S2x2048x16x64_S2x2048x1024
  let v41 : FVec Ideal S2x2048x1024 .f32 :=
    Host.dotGeneral (F := Ideal) dot_S2x2048x1024_S1024x1024_S2x2048x1024_2_1_01_0_n_n none v40 a3
  let v42 : FVec Ideal S1x1x1024 .f32 := broadcastInDim S1x1x1024 ![2] bcast_S1024_S1x1x1024_2 a4
  let v43 : FVec Ideal S2x2048x1024 .f32 := broadcastInDim S2x2048x1024 ![0, 1, 2] bcast_S1x1x1024_S2x2048x1024_0_1_2 v42
  let v44 : FVec Ideal S2x2048x1024 .f32 := addf v41 v43
  mulf v44 v11

end Cert.ReferenceIdeal.RefFn

end
-- ==== Proof.RefRunOps.lean ====
/-
  The reference program's @main as one straight line of its 69 host operations — the two outlined
  functions' operations listed in place at the call, over the call's own buffers — and its run read back:
  every weakly fair execution terminates with every buffer at the fold of the operations' results over the
  launch contents.
-/
import proofs.«166787_g36747740185073_cont_sun_m_199_12_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's operations in order, the calls unfolded: seven of its own, the sixteen of the floor division
    followed by the select of the function it calls in turn, then forty-five of its own. -/
abbrev ops : List (HloOp τ sig (Elt F)) :=
  [ nullary main_c (constantI S_ 32 1#32),
    unary main_c main_v0 (broadcastInDim S2x2048 ![] bcast_S_S2x2048 : (⟨S_, .i32⟩ : BufTy).Contents (Elt F) → (⟨S2x2048, .i32⟩ : BufTy).Contents (Elt F)),
    binary main_arg1 main_v0 main_v1 (addi : (⟨S2x2048, .i32⟩ : BufTy).Contents (Elt F) → (⟨S2x2048, .i32⟩ : BufTy).Contents (Elt F) → (⟨S2x2048, .i32⟩ : BufTy).Contents (Elt F)),
    nullary main_c_0 (constantI S_ 32 1024#32),
    unary main_c_0 main_v2 (broadcastInDim S2x2048 ![] bcast_S_S2x2048 : (⟨S_, .i32⟩ : BufTy).Contents (Elt F) → (⟨S2x2048, .i32⟩ : BufTy).Contents (Elt F)),
    binary main_v2 main_v1 main_v3 (muli : (⟨S2x2048, .i32⟩ : BufTy).Contents (Elt F) → (⟨S2x2048, .i32⟩ : BufTy).Contents (Elt F) → (⟨S2x2048, .i32⟩ : BufTy).Contents (Elt F)),
    nullary main_c_1 (constantI S_ 32 8#32),
    TRef.unary (.of main_c_1 : TRef sig ⟨S_, .i32⟩) main_call0.v0 id,
    TRef.unary main_call0.v0 main_call0.v1 (broadcastInDim S2x2048 ![] bcast_S_S2x2048),
    TRef.binary (.of main_v3 : TRef sig ⟨S2x2048, .i32⟩) main_call0.v1 main_call0.v2 Host.divsi,
    TRef.unary (.of main_v3 : TRef sig ⟨S2x2048, .i32⟩) main_call0.v3 signi,
    TRef.unary main_call0.v0 main_call0.v4 signi,
    TRef.unary main_call0.v4 main_call0.v5 (broadcastInDim S2x2048 ![] bcast_S_S2x2048),
    TRef.binary main_call0.v3 main_call0.v5 main_call0.v6 (cmpi .ne),
    TRef.unary main_call0.v0 main_call0.v7 (broadcastInDim S2x2048 ![] bcast_S_S2x2048),
    TRef.binary (.of main_v3 : TRef sig ⟨S2x2048, .i32⟩) main_call0.v7 main_call0.v8 Host.remsi,
    TRef.nullary main_call0.c (constantI S_ 32 0#32),
    TRef.unary main_call0.c main_call0.v9 (broadcastInDim S2x2048 ![] bcast_S_S2x2048),
    TRef.binary main_call0.v8 main_call0.v9 main_call0.v10 (cmpi .ne),
    TRef.binary main_call0.v6 main_call0.v10 main_call0.v11 andi,
    TRef.nullary main_call0.c_0 (constantI S_ 32 1#32),
    TRef.unary main_call0.c_0 main_call0.v12 (broadcastInDim S2x2048 ![] bcast_S_S2x2048),
    TRef.binary main_call0.v2 main_call0.v12 main_call0.v13 subi,
    TRef.ternary main_call0.v11 main_call0.v13 main_call0.v2 main_call0.call0.v0 select,
    nullary main_v5 (iotaInDim S1024 32 0),
    unary main_v5 main_v6 (broadcastInDim S1x1x1024 ![2] bcast_S1024_S1x1x1024_2 : (⟨S1024, .i32⟩ : BufTy).Contents (Elt F) → (⟨S1x1x1024, .i32⟩ : BufTy).Contents (Elt F)),
    unary main_v4 main_v7 (broadcastInDim S2x2048x1 ![0, 1] bcast_S2x2048_S2x2048x1_0_1 : (⟨S2x2048, .i32⟩ : BufTy).Contents (Elt F) → (⟨S2x2048x1, .i32⟩ : BufTy).Contents (Elt F)),
    unary main_v6 main_v8 (broadcastInDim S2x2048x1024 ![0, 1, 2] bcast_S1x1x1024_S2x2048x1024_0_1_2 : (⟨S1x1x1024, .i32⟩ : BufTy).Contents (Elt F) → (⟨S2x2048x1024, .i32⟩ : BufTy).Contents (Elt F)),
    unary main_v7 main_v9 (broadcastInDim S2x2048x1024 ![0, 1, 2] bcast_S2x2048x1_S2x2048x1024_0_1_2 : (⟨S2x2048x1, .i32⟩ : BufTy).Contents (Elt F) → (⟨S2x2048x1024, .i32⟩ : BufTy).Contents (Elt F)),
    binary main_v8 main_v9 main_v10 (cmpi .slt : (⟨S2x2048x1024, .i32⟩ : BufTy).Contents (Elt F) → (⟨S2x2048x1024, .i32⟩ : BufTy).Contents (Elt F) → (⟨S2x2048x1024, .i1⟩ : BufTy).Contents (Elt F)),
    unary main_v10 main_v11 (uitofp .f32 : (⟨S2x2048x1024, .i1⟩ : BufTy).Contents (Elt F) → (⟨S2x2048x1024, .f32⟩ : BufTy).Contents (Elt F)),
    binary main_arg0 main_v11 main_v12 (mulf : (⟨S2x2048x1024, .f32⟩ : BufTy).Contents (Elt F) → (⟨S2x2048x1024, .f32⟩ : BufTy).Contents (Elt F) → (⟨S2x2048x1024, .f32⟩ : BufTy).Contents (Elt F)),
    binary main_v12 main_arg2 main_v13 ((fun l r => Host.dotGeneral dot_S2x2048x1024_S3072x1024_S2x2048x3072_2_1_01_0_n_n none l r) : (⟨S2x2048x1024, .f32⟩ : BufTy).Contents (Elt F) → (⟨S3072x1024, .f32⟩ : BufTy).Contents (Elt F) → (⟨S2x2048x3072, .f32⟩ : BufTy).Contents (Elt F)),
    reshape main_v13 main_v14 rfl shapeCasts_S2x2048x3072_S2x2048x3x16x64,
    unary main_v14 main_v15 ((extractStridedSlice S2x2048x1x16x64 ![0, 0, 0, 0, 0] · slices_S2x2048x3x16x64_S2x2048x1x16x64_0_0_0_0_0) : (⟨S2x2048x3x16x64, .f32⟩ : BufTy).Contents (Elt F) → (⟨S2x2048x1x16x64, .f32⟩ : BufTy).Contents (Elt F)),
    reshape main_v15 main_v16 rfl shapeCasts_S2x2048x1x16x64_S2x2048x16x64,
    unary main_v16 main_v17 ((transpose S2x16x2048x64 [0, 2, 1, 3] · transposes_S2x2048x16x64_S2x16x2048x64_0_2_1_3) : (⟨S2x2048x16x64, .f32⟩ : BufTy).Contents (Elt F) → (⟨S2x16x2048x64, .f32⟩ : BufTy).Contents (Elt F)),
    unary main_v14 main_v18 ((extractStridedSlice S2x2048x1x16x64 ![0, 0, 1, 0, 0] · slices_S2x2048x3x16x64_S2x2048x1x16x64_0_0_1_0_0) : (⟨S2x2048x3x16x64, .f32⟩ : BufTy).Contents (Elt F) → (⟨S2x2048x1x16x64, .f32⟩ : BufTy).Contents (Elt F)),
    reshape main_v18 main_v19 rfl shapeCasts_S2x2048x1x16x64_S2x2048x16x64,
    unary main_v19 main_v20 ((transpose S2x16x2048x64 [0, 2, 1, 3] · transposes_S2x2048x16x64_S2x16x2048x64_0_2_1_3) : (⟨S2x2048x16x64, .f32⟩ : BufTy).Contents (Elt F) → (⟨S2x16x2048x64, .f32⟩ : BufTy).Contents (Elt F)),
    unary main_v14 main_v21 ((extractStridedSlice S2x2048x1x16x64 ![0, 0, 2, 0, 0] · slices_S2x2048x3x16x64_S2x2048x1x16x64_0_0_2_0_0) : (⟨S2x2048x3x16x64, .f32⟩ : BufTy).Contents (Elt F) → (⟨S2x2048x1x16x64, .f32⟩ : BufTy).Contents (Elt F)),
    reshape main_v21 main_v22 rfl shapeCasts_S2x2048x1x16x64_S2x2048x16x64,
    unary main_v22 main_v23 ((transpose S2x16x2048x64 [0, 2, 1, 3] · transposes_S2x2048x16x64_S2x16x2048x64_0_2_1_3) : (⟨S2x2048x16x64, .f32⟩ : BufTy).Contents (Elt F) → (⟨S2x16x2048x64, .f32⟩ : BufTy).Contents (Elt F)),
    binary main_v17 main_v20 main_v24 ((fun l r => Host.dotGeneral dot_S2x16x2048x64_S2x16x2048x64_S2x16x2048x2048_3_3_2_2_01_01 none l r) : (⟨S2x16x2048x64, .f32⟩ : BufTy).Contents (Elt F) → (⟨S2x16x2048x64, .f32⟩ : BufTy).Contents (Elt F) → (⟨S2x16x2048x2048, .f32⟩ : BufTy).Contents (Elt F)),
    nullary main_cst (constant S_ .f32 0x3E000000#32),
    unary main_cst main_v25 (broadcastInDim S2x16x2048x2048 ![] bcast_S_S2x16x2048x2048 : (⟨S_, .f32⟩ : BufTy).Contents (Elt F) → (⟨S2x16x2048x2048, .f32⟩ : BufTy).Contents (Elt F)),
    binary main_v24 main_v25 main_v26 (mulf : (⟨S2x16x2048x2048, .f32⟩ : BufTy).Contents (Elt F) → (⟨S2x16x2048x2048, .f32⟩ : BufTy).Contents (Elt F) → (⟨S2x16x2048x2048, .f32⟩ : BufTy).Contents (Elt F)),
    nullary main_cst_2 (constant S_ .f32 0xFF800000#32),
    binary main_v26 main_cst_2 main_v27 ((fun x v => Host.reduce FloatOps.maximumf x v reducesTo_S2x16x2048x2048_S2x16x2048_d3 h_S_) : (⟨S2x16x2048x2048, .f32⟩ : BufTy).Contents (Elt F) → (⟨S_, .f32⟩ : BufTy).Contents (Elt F) → (⟨S2x16x2048, .f32⟩ : BufTy).Contents (Elt F)),
    nullary main_cst_3 (constant S_ .f32 0xFF800000#32),
    unary main_cst_3 main_v28 (broadcastInDim S2x16x2048 ![] bcast_S_S2x16x2048 : (⟨S_, .f32⟩ : BufTy).Contents (Elt F) → (⟨S2x16x2048, .f32⟩ : BufTy).Contents (Elt F)),
    binary main_v28 main_v27 main_v29 (maximumf : (⟨S2x16x2048, .f32⟩ : BufTy).Contents (Elt F) → (⟨S2x16x2048, .f32⟩ : BufTy).Contents (Elt F) → (⟨S2x16x2048, .f32⟩ : BufTy).Contents (Elt F)),
    unary main_v29 main_v30 (broadcastInDim S2x16x2048x1 ![0, 1, 2] bcast_S2x16x2048_S2x16x2048x1_0_1_2 : (⟨S2x16x2048, .f32⟩ : BufTy).Contents (Elt F) → (⟨S2x16x2048x1, .f32⟩ : BufTy).Contents (Elt F)),
    unary main_v30 main_v31 (broadcastInDim S2x16x2048x2048 ![0, 1, 2, 3] bcast_S2x16x2048x1_S2x16x2048x2048_0_1_2_3 : (⟨S2x16x2048x1, .f32⟩ : BufTy).Contents (Elt F) → (⟨S2x16x2048x2048, .f32⟩ : BufTy).Contents (Elt F)),
    binary main_v26 main_v31 main_v32 (subf : (⟨S2x16x2048x2048, .f32⟩ : BufTy).Contents (Elt F) → (⟨S2x16x2048x2048, .f32⟩ : BufTy).Contents (Elt F) → (⟨S2x16x2048x2048, .f32⟩ : BufTy).Contents (Elt F)),
    unary main_v32 main_v33 (Host.exp : (⟨S2x16x2048x2048, .f32⟩ : BufTy).Contents (Elt F) → (⟨S2x16x2048x2048, .f32⟩ : BufTy).Contents (Elt F)),
    nullary main_cst_4 (constant S_ .f32 0x00000000#32),
    binary main_v33 main_cst_4 main_v34 ((fun x v => Host.reduceAdd x v reducesTo_S2x16x2048x2048_S2x16x2048_d3 h_S_) : (⟨S2x16x2048x2048, .f32⟩ : BufTy).Contents (Elt F) → (⟨S_, .f32⟩ : BufTy).Contents (Elt F) → (⟨S2x16x2048, .f32⟩ : BufTy).Contents (Elt F)),
    unary main_v34 main_v35 (broadcastInDim S2x16x2048x1 ![0, 1, 2] bcast_S2x16x2048_S2x16x2048x1_0_1_2 : (⟨S2x16x2048, .f32⟩ : BufTy).Contents (Elt F) → (⟨S2x16x2048x1, .f32⟩ : BufTy).Contents (Elt F)),
    unary main_v35 main_v36 (broadcastInDim S2x16x2048x2048 ![0, 1, 2, 3] bcast_S2x16x2048x1_S2x16x2048x2048_0_1_2_3 : (⟨S2x16x2048x1, .f32⟩ : BufTy).Contents (Elt F) → (⟨S2x16x2048x2048, .f32⟩ : BufTy).Contents (Elt F)),
    binary main_v33 main_v36 main_v37 (Host.divf : (⟨S2x16x2048x2048, .f32⟩ : BufTy).Contents (Elt F) → (⟨S2x16x2048x2048, .f32⟩ : BufTy).Contents (Elt F) → (⟨S2x16x2048x2048, .f32⟩ : BufTy).Contents (Elt F)),
    binary main_v37 main_v23 main_v38 ((fun l r => Host.dotGeneral dot_S2x16x2048x2048_S2x16x2048x64_S2x16x2048x64_3_2_2_3_01_01 none l r) : (⟨S2x16x2048x2048, .f32⟩ : BufTy).Contents (Elt F) → (⟨S2x16x2048x64, .f32⟩ : BufTy).Contents (Elt F) → (⟨S2x16x2048x64, .f32⟩ : BufTy).Contents (Elt F)),
    unary main_v38 main_v39 ((transpose S2x2048x16x64 [0, 2, 1, 3] · transposes_S2x16x2048x64_S2x2048x16x64_0_2_1_3) : (⟨S2x16x2048x64, .f32⟩ : BufTy).Contents (Elt F) → (⟨S2x2048x16x64, .f32⟩ : BufTy).Contents (Elt F)),
    reshape main_v39 main_v40 rfl shapeCasts_S2x2048x16x64_S2x2048x1024,
    binary main_v40 main_arg3 main_v41 ((fun l r => Host.dotGeneral dot_S2x2048x1024_S1024x1024_S2x2048x1024_2_1_01_0_n_n none l r) : (⟨S2x2048x1024, .f32⟩ : BufTy).Contents (Elt F) → (⟨S1024x1024, .f32⟩ : BufTy).Contents (Elt F) → (⟨S2x2048x1024, .f32⟩ : BufTy).Contents (Elt F)),
    unary main_arg4 main_v42 (broadcastInDim S1x1x1024 ![2] bcast_S1024_S1x1x1024_2 : (⟨S1024, .f32⟩ : BufTy).Contents (Elt F) → (⟨S1x1x1024, .f32⟩ : BufTy).Contents (Elt F)),
    unary main_v42 main_v43 (broadcastInDim S2x2048x1024 ![0, 1, 2] bcast_S1x1x1024_S2x2048x1024_0_1_2 : (⟨S1x1x1024, .f32⟩ : BufTy).Contents (Elt F) → (⟨S2x2048x1024, .f32⟩ : BufTy).Contents (Elt F)),
    binary main_v41 main_v43 main_v44 (addf : (⟨S2x2048x1024, .f32⟩ : BufTy).Contents (Elt F) → (⟨S2x2048x1024, .f32⟩ : BufTy).Contents (Elt F) → (⟨S2x2048x1024, .f32⟩ : BufTy).Contents (Elt F)),
    binary main_v44 main_v11 main_v45 (mulf : (⟨S2x2048x1024, .f32⟩ : BufTy).Contents (Elt F) → (⟨S2x2048x1024, .f32⟩ : BufTy).Contents (Elt F) → (⟨S2x2048x1024, .f32⟩ : BufTy).Contents (Elt F)) ]

set_option maxRecDepth 8192 in
set_option maxHeartbeats 4000000 in
/-- @main is that straight line: the functions' definitions unfolded at their calls, both sides are one chain
    of steps once sequencing is reassociated. -/
theorem main_eq (c : Dev nD) : main (F := F) c = seq ops := by
  simp only [main, fn_floor_divide.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub .., nullary_bufs_sub .., unary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub .., nullary_bufs_sub .., unary_bufs_sub .., unary_bufs_sub .., unary_bufs_sub .., unary_bufs_sub .., binary_bufs_sub .., unary_bufs_sub .., binary_bufs_sub .., binary_bufs_sub .., reshape_bufs_sub .., unary_bufs_sub .., reshape_bufs_sub .., unary_bufs_sub .., unary_bufs_sub .., reshape_bufs_sub .., unary_bufs_sub .., unary_bufs_sub .., reshape_bufs_sub .., unary_bufs_sub .., binary_bufs_sub .., nullary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub .., unary_bufs_sub .., reshape_bufs_sub .., binary_bufs_sub .., unary_bufs_sub .., unary_bufs_sub .., binary_bufs_sub .., binary_bufs_sub ..⟩

/-- From any memory with zero counters every weakly fair execution of @main terminates, and every final state has
    each buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefRun

end
-- ==== Proof.RefRunArgs.lean ====
/-
  The reference's straight line writes none of its five argument buffers: after it each holds what it held.
-/
import proofs.«166787_g36747740185073_cont_sun_m_199_12_alg».proof.Proof.RefRunOps
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in
/-- No operation of the line writes argument 0's buffer. -/
theorem arg0_eq (V : Valuation τ sig (Elt F)) :
    after ops V (main_arg0 : DevRef τ sig) = V (main_arg0 : DevRef τ sig) := by
  after_results_simp <;> rfl

set_option maxRecDepth 8192 in
set_option maxHeartbeats 4000000 in
/-- No operation of the line writes argument 1's buffer. -/
theorem arg1_eq (V : Valuation τ sig (Elt F)) :
    after ops V (main_arg1 : DevRef τ sig) = V (main_arg1 : DevRef τ sig) := by
  after_results_simp <;> rfl

set_option maxRecDepth 8192 in
set_option maxHeartbeats 4000000 in
/-- No operation of the line writes argument 2's buffer. -/
theorem arg2_eq (V : Valuation τ sig (Elt F)) :
    after ops V (main_arg2 : DevRef τ sig) = V (main_arg2 : DevRef τ sig) := by
  after_results_simp <;> rfl

set_option maxRecDepth 8192 in
set_option maxHeartbeats 4000000 in
/-- No operation of the line writes argument 3's buffer. -/
theorem arg3_eq (V : Valuation τ sig (Elt F)) :
    after ops V (main_arg3 : DevRef τ sig) = V (main_arg3 : DevRef τ sig) := by
  after_results_simp <;> rfl

set_option maxRecDepth 8192 in
set_option maxHeartbeats 4000000 in
/-- No operation of the line writes argument 4's buffer. -/
theorem arg4_eq (V : Valuation τ sig (Elt F)) :
    after ops V (main_arg4 : DevRef τ sig) = V (main_arg4 : DevRef τ sig) := by
  after_results_simp <;> rfl

end Cert.ReferenceIdeal.RefRun

end
-- ==== Proof.RefRunRes.lean ====
/-
  What the reference's straight line leaves in its result buffer: the program's result as one pure term of
  the five arguments' contents.
-/
import proofs.«166787_g36747740185073_cont_sun_m_199_12_alg».proof.Proof.RefRunOps
import proofs.«166787_g36747740185073_cont_sun_m_199_12_alg».proof.Proof.RefFn
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

set_option maxRecDepth 16384 in
set_option maxHeartbeats 32000000 in
/-- The fold at the result buffer is the pure term of the arguments: each operation's result read at its own
    buffer is its function's value, at any other buffer what was there; the typed references' transports are
    the identity at these literal references. -/
theorem res_eq (V : Valuation τ sig (Elt Ideal)) :
    after (ops (F := Ideal)) V (main_v45 : DevRef τ sig)
      = RefFn.refFn (V (main_arg0 : DevRef τ sig)) (V (main_arg1 : DevRef τ sig)) (V (main_arg2 : DevRef τ sig))
          (V (main_arg3 : DevRef τ sig)) (V (main_arg4 : DevRef τ sig)) := by
  after_results_simp
  <;> first | rfl | fail "not rfl"

end Cert.ReferenceIdeal.RefRun

end
-- ==== Proof.RefRun.lean ====
/-
  The reference program's run: from any memory with zero counters every weakly fair execution of @main
  terminates with the result buffer at the program's pure term of the five arguments' launch contents and the
  arguments unchanged; and, from it, the reference's frame.
-/
import proofs.«166787_g36747740185073_cont_sun_m_199_12_alg».proof.Defs
import proofs.«166787_g36747740185073_cont_sun_m_199_12_alg».proof.Proof.Gen.ReferenceIdeal
import proofs.«166787_g36747740185073_cont_sun_m_199_12_alg».proof.Proof.Gen.Pre_finite_inputs
import proofs.«166787_g36747740185073_cont_sun_m_199_12_alg».proof.Proof.RefFn
import proofs.«166787_g36747740185073_cont_sun_m_199_12_alg».proof.Proof.RefRunOps
import proofs.«166787_g36747740185073_cont_sun_m_199_12_alg».proof.Proof.RefRunArgs
import proofs.«166787_g36747740185073_cont_sun_m_199_12_alg».proof.Proof.RefRunRes
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

/-- On every device, from any memory with zero counters: every weakly fair execution of @main terminates with
    the result at the program's pure term of the arguments and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v45)
          = Cert.ReferenceIdeal.RefFn.refFn (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h c main_v45).trans (res_eq (launchContents m c)),
      (h c main_arg0).trans (arg0_eq (launchContents m c)),
      (h c main_arg1).trans (arg1_eq (launchContents m c)),
      (h c main_arg2).trans (arg2_eq (launchContents m c)),
      (h c main_arg3).trans (arg3_eq (launchContents m c)),
      (h c main_arg4).trans (arg4_eq (launchContents m c))⟩)
    (run_main m ρ)

/-- The reference runs and its argument arrays end unchanged. -/
theorem frame_ri : Cert.frame_ReferenceIdeal :=
  fun m ρ _ => (θ_run _ _ _).mono (fun _ h c => (h c).2) (run m ρ)

end Cert.ReferenceIdeal.RefRun

end
-- ==== Proof.RefReadStages.lean ====
/-
  The reference's result as a chain of named stages, one per array the value proof reads at an index: the mask as
  floats, the masked tokens, the projection, its split into slabs, the three slabs head-major, the scores, the scaled
  scores, their row maximum, the exponentials, their row sums, the softmax, the weighted values, the heads side by
  side, the output projection, the bias added, the mask applied. The composed term is the reference's result.
-/
import proofs.«166787_g36747740185073_cont_sun_m_199_12_alg».proof.Proof.RefFn

noncomputable section

namespace Cert.ReferenceIdeal.RefRead

open Idealize.ShloMosaic Cert.ReferenceIdeal Cert.ReferenceIdeal.RefFn
open Cert.ReferenceIdeal.Facts₀ Cert.ReferenceIdeal.Facts

variable [Cert.ReferenceIdeal.Facts]
variable (a0 : FVec Ideal S2x2048x1024 .f32) (a1 : IVec S2x2048 32) (a2 : FVec Ideal S3072x1024 .f32)
  (a3 : FVec Ideal S1024x1024 .f32) (a4 : FVec Ideal S1024 .f32)

/-- The mask as floats. -/
def s11 : FVec Ideal S2x2048x1024 .f32 := uitofp .f32 (maskBits a1)
/-- The masked tokens. -/
def s12 : FVec Ideal S2x2048x1024 .f32 := mulf a0 (s11 a1)
/-- The projection to 3072 features. -/
def s13 : FVec Ideal S2x2048x3072 .f32 :=
  Host.dotGeneral (F := Ideal) dot_S2x2048x1024_S3072x1024_S2x2048x3072_2_1_01_0_n_n none (s12 a0 a1) a2
/-- The features split into slab, head and lane. -/
def s14 : FVec Ideal S2x2048x3x16x64 .f32 :=
  shapeCast S2x2048x3x16x64 (s13 a0 a1 a2) shapeCasts_S2x2048x3072_S2x2048x3x16x64
/-- One slab, head-major. -/
def slabOf (off : Fin 5 → Nat) (hs : S2x2048x3x16x64.Slices off S2x2048x1x16x64) (v : FVec Ideal S2x2048x3x16x64 .f32) :
    FVec Ideal S2x16x2048x64 .f32 :=
  transpose S2x16x2048x64 [0, 2, 1, 3]
    (shapeCast S2x2048x16x64 (extractStridedSlice S2x2048x1x16x64 off v hs) shapeCasts_S2x2048x1x16x64_S2x2048x16x64)
    transposes_S2x2048x16x64_S2x16x2048x64_0_2_1_3
/-- Queries, keys and values, head-major. -/
def s17 : FVec Ideal S2x16x2048x64 .f32 :=
  slabOf ![0, 0, 0, 0, 0] slices_S2x2048x3x16x64_S2x2048x1x16x64_0_0_0_0_0 (s14 a0 a1 a2)
def s20 : FVec Ideal S2x16x2048x64 .f32 :=
  slabOf ![0, 0, 1, 0, 0] slices_S2x2048x3x16x64_S2x2048x1x16x64_0_0_1_0_0 (s14 a0 a1 a2)
def s23 : FVec Ideal S2x16x2048x64 .f32 :=
  slabOf ![0, 0, 2, 0, 0] slices_S2x2048x3x16x64_S2x2048x1x16x64_0_0_2_0_0 (s14 a0 a1 a2)
/-- The scores. -/
def s24 : FVec Ideal S2x16x2048x2048 .f32 :=
  Host.dotGeneral (F := Ideal) dot_S2x16x2048x64_S2x16x2048x64_S2x16x2048x2048_3_3_2_2_01_01 none (s17 a0 a1 a2) (s20 a0 a1 a2)
/-- The scaled scores. -/
def s26 : FVec Ideal S2x16x2048x2048 .f32 :=
  mulf (s24 a0 a1 a2)
    (broadcastInDim S2x16x2048x2048 ![] bcast_S_S2x16x2048x2048 (constant (F := Ideal) S_ .f32 0x3E000000#32))
/-- Their row maximum. -/
def s29 : FVec Ideal S2x16x2048 .f32 :=
  maximumf (broadcastInDim S2x16x2048 ![] bcast_S_S2x16x2048 (constant (F := Ideal) S_ .f32 0xFF800000#32))
    (Host.reduce (FloatOps.maximumf (F := Ideal)) (s26 a0 a1 a2) (constant (F := Ideal) S_ .f32 0xFF800000#32)
      reducesTo_S2x16x2048x2048_S2x16x2048_d3 h_S_)
/-- A row statistic spread back over the keys. -/
def spread (v : FVec Ideal S2x16x2048 .f32) : FVec Ideal S2x16x2048x2048 .f32 :=
  broadcastInDim S2x16x2048x2048 ![0, 1, 2, 3] bcast_S2x16x2048x1_S2x16x2048x2048_0_1_2_3
    (broadcastInDim S2x16x2048x1 ![0, 1, 2] bcast_S2x16x2048_S2x16x2048x1_0_1_2 v)
/-- The exponentials. -/
def s33 : FVec Ideal S2x16x2048x2048 .f32 := Host.exp (F := Ideal) (subf (s26 a0 a1 a2) (spread (s29 a0 a1 a2)))
/-- Their row sums. -/
def s34 : FVec Ideal S2x16x2048 .f32 :=
  Host.reduceAdd (F := Ideal) (s33 a0 a1 a2) (constant (F := Ideal) S_ .f32 0x00000000#32)
    reducesTo_S2x16x2048x2048_S2x16x2048_d3 h_S_
/-- The softmax. -/
def s37 : FVec Ideal S2x16x2048x2048 .f32 := Host.divf (F := Ideal) (s33 a0 a1 a2) (spread (s34 a0 a1 a2))
/-- The weighted values. -/
def s38 : FVec Ideal S2x16x2048x64 .f32 :=
  Host.dotGeneral (F := Ideal) dot_S2x16x2048x2048_S2x16x2048x64_S2x16x2048x64_3_2_2_3_01_01 none (s37 a0 a1 a2) (s23 a0 a1 a2)
/-- The heads side by side. -/
def s40 : FVec Ideal S2x2048x1024 .f32 :=
  shapeCast S2x2048x1024 (transpose S2x2048x16x64 [0, 2, 1, 3] (s38 a0 a1 a2) transposes_S2x16x2048x64_S2x2048x16x64_0_2_1_3)
    shapeCasts_S2x2048x16x64_S2x2048x1024
/-- The output projection. -/
def s41 : FVec Ideal S2x2048x1024 .f32 :=
  Host.dotGeneral (F := Ideal) dot_S2x2048x1024_S1024x1024_S2x2048x1024_2_1_01_0_n_n none (s40 a0 a1 a2) a3
/-- The bias added. -/
def s44 : FVec Ideal S2x2048x1024 .f32 :=
  addf (s41 a0 a1 a2 a3)
    (broadcastInDim S2x2048x1024 ![0, 1, 2] bcast_S1x1x1024_S2x2048x1024_0_1_2
      (broadcastInDim S1x1x1024 ![2] bcast_S1024_S1x1x1024_2 a4))
/-- The mask applied. -/
def s45 : FVec Ideal S2x2048x1024 .f32 := mulf (s44 a0 a1 a2 a3 a4) (s11 a1)

/-- The reference's result is the last stage. -/
theorem refFn_eq_stages : refFn a0 a1 a2 a3 a4 = s45 a0 a1 a2 a3 a4 := rfl

end Cert.ReferenceIdeal.RefRead

end
-- ==== Proof.RefReadLayout.lean ====
/-
  Layout operations on arrays of literal rank read at one index.

  Broadcasts: a vector along the last axis of a rank-3 array through a `[1, 1, C]` array; a matrix along the first
  two axes of a rank-3 array through a `[A, B, 1]` array; a rank-3 array along the first three axes of a rank-4 array
  through an `[A, B, C, 1]` array. Casts: the last axis of a `[A, B, S·H·D]` array split into `[S, H, D]`; one slab of
  that split with its unit axis forgotten and the token and head axes exchanged; the exchange back followed by the merge of
  head and lane into one column axis.
-/
import Idealize.ShloMosaic.Lib.ValueIdx
import Idealize.ShloMosaic.Lib.Pipeline.Value

namespace Cert.ReferenceIdeal.RefRead

open Idealize.ShloMosaic Idealize.ShloMosaic.ValueIdx

variable {α : Type}

/-! ## Broadcasts -/

/-- A vector placed on the last axis of `[1, 1, C]` and spread over `[A, B, C]` reads, at `(b, n, d)`, the vector at `d`. -/
theorem bcast_lane_apply {A B C : Nat} (x : (⟨1, ![C]⟩ : Shape).Idx → α)
    (h' : (⟨1, ![C]⟩ : Shape).BroadcastsInDim ⟨3, ![1, 1, C]⟩ ![2])
    (h : (⟨3, ![1, 1, C]⟩ : Shape).BroadcastsInDim ⟨3, ![A, B, C]⟩ ![0, 1, 2])
    (b : Fin A) (n : Fin B) (d : Fin C) :
    broadcastInDim ⟨3, ![A, B, C]⟩ ![0, 1, 2] h (broadcastInDim ⟨3, ![1, 1, C]⟩ ![2] h' x) (ix3 b n d) = x (ix1 d) :=
  (broadcastInDim_apply _ h _ (ix3 b n d) (ix3 (0 : Fin 1) (0 : Fin 1) d) (fun a => match a with
    | ⟨0, _⟩ => rfl
    | ⟨1, _⟩ => rfl
    | ⟨2, _⟩ => by
      show d.val = if C = 1 then 0 else d.val
      have := d.isLt
      split <;> omega)).trans
  (broadcastInDim_apply _ h' x (ix3 (0 : Fin 1) (0 : Fin 1) d) (ix1 d) (fun a => match a with
    | ⟨0, _⟩ => by
      show d.val = if C = 1 then 0 else d.val
      have := d.isLt
      split <;> omega))

/-- A matrix placed on the first two axes of `[A, B, 1]` and spread over `[A, B, C]` reads, at `(b, n, d)`, the matrix
    at `(b, n)`. -/
theorem bcast_token_apply {A B C : Nat} (x : (⟨2, ![A, B]⟩ : Shape).Idx → α)
    (h' : (⟨2, ![A, B]⟩ : Shape).BroadcastsInDim ⟨3, ![A, B, 1]⟩ ![0, 1])
    (h : (⟨3, ![A, B, 1]⟩ : Shape).BroadcastsInDim ⟨3, ![A, B, C]⟩ ![0, 1, 2])
    (b : Fin A) (n : Fin B) (d : Fin C) :
    broadcastInDim ⟨3, ![A, B, C]⟩ ![0, 1, 2] h (broadcastInDim ⟨3, ![A, B, 1]⟩ ![0, 1] h' x) (ix3 b n d) = x (ix2 b n) :=
  (broadcastInDim_apply _ h _ (ix3 b n d) (ix3 b n (0 : Fin 1)) (fun a => match a with
    | ⟨0, _⟩ => by
      show b.val = if A = 1 then 0 else b.val
      have := b.isLt
      split <;> omega
    | ⟨1, _⟩ => by
      show n.val = if B = 1 then 0 else n.val
      have := n.isLt
      split <;> omega
    | ⟨2, _⟩ => rfl)).trans
  (broadcastInDim_apply _ h' x (ix3 b n (0 : Fin 1)) (ix2 b n) (fun a => match a with
    | ⟨0, _⟩ => by
      show b.val = if A = 1 then 0 else b.val
      have := b.isLt
      split <;> omega
    | ⟨1, _⟩ => by
      show n.val = if B = 1 then 0 else n.val
      have := n.isLt
      split <;> omega))

/-- A rank-3 array placed on the first three axes of `[A, B, C, 1]` and spread over `[A, B, C, D]` reads, at
    `(b, h, q, k)`, the array at `(b, h, q)`. -/
theorem bcast_row_apply {A B C D : Nat} (x : (⟨3, ![A, B, C]⟩ : Shape).Idx → α)
    (h' : (⟨3, ![A, B, C]⟩ : Shape).BroadcastsInDim ⟨4, ![A, B, C, 1]⟩ ![0, 1, 2])
    (h : (⟨4, ![A, B, C, 1]⟩ : Shape).BroadcastsInDim ⟨4, ![A, B, C, D]⟩ ![0, 1, 2, 3])
    (b : Fin A) (hh : Fin B) (q : Fin C) (k : Fin D) :
    broadcastInDim ⟨4, ![A, B, C, D]⟩ ![0, 1, 2, 3] h (broadcastInDim ⟨4, ![A, B, C, 1]⟩ ![0, 1, 2] h' x) (ix4 b hh q k)
      = x (ix3 b hh q) :=
  (broadcastInDim_apply _ h _ (ix4 b hh q k) (ix4 b hh q (0 : Fin 1)) (fun a => match a with
    | ⟨0, _⟩ => by
      show b.val = if A = 1 then 0 else b.val
      have := b.isLt
      split <;> omega
    | ⟨1, _⟩ => by
      show hh.val = if B = 1 then 0 else hh.val
      have := hh.isLt
      split <;> omega
    | ⟨2, _⟩ => by
      show q.val = if C = 1 then 0 else q.val
      have := q.isLt
      split <;> omega
    | ⟨3, _⟩ => rfl)).trans
  (broadcastInDim_apply _ h' x (ix4 b hh q (0 : Fin 1)) (ix3 b hh q) (fun a => match a with
    | ⟨0, _⟩ => by
      show b.val = if A = 1 then 0 else b.val
      have := b.isLt
      split <;> omega
    | ⟨1, _⟩ => by
      show hh.val = if B = 1 then 0 else hh.val
      have := hh.isLt
      split <;> omega
    | ⟨2, _⟩ => by
      show q.val = if C = 1 then 0 else q.val
      have := q.isLt
      split <;> omega))

/-- A scalar spread over any shape reads the scalar everywhere. -/
theorem bcast_scalar_apply {t : Shape} (dims : Fin 0 → Fin t.rank)
    (h : (⟨0, ![]⟩ : Shape).BroadcastsInDim t dims) (x : (⟨0, ![]⟩ : Shape).Idx → α) (j : t.Idx) :
    broadcastInDim t dims h x j = x ix0 :=
  broadcastInDim_apply dims h x j ix0 (fun a => a.elim0)

/-! ## Splitting the feature axis into slab, head and lane -/

/-- The last axis of `[A, B, F]`, `F = S·H·D`, split into `[S, H, D]`: entry `(b, n, s, h, d)` is the array at the
    feature `f = (s·H + h)·D + d`. -/
theorem split_feat_apply {A B S H D F : Nat} (hF : F = S * H * D) (x : (⟨3, ![A, B, F]⟩ : Shape).Idx → α)
    (hc : (⟨3, ![A, B, F]⟩ : Shape).ShapeCasts ⟨5, ![A, B, S, H, D]⟩)
    (b : Fin A) (n : Fin B) (s : Fin S) (h : Fin H) (d : Fin D) (f : Fin F)
    (hf : f.val = (s.val * H + h.val) * D + d.val) :
    shapeCast ⟨5, ![A, B, S, H, D]⟩ x hc (ix5 b n s h d) = x (ix3 b n f) := by
  refine shapeCast_apply x hc (ix5 b n s h d) (ix3 b n f) ?_
  rw [Shape.rowMajor_val_three, Shape.rowMajor_val_five]
  show (b.val * B + n.val) * F + f.val
    = (((b.val * B + n.val) * S + s.val) * H + h.val) * D + d.val
  rw [hf, hF]; ring

/-- Slab `s` of `[A, B, S, H, D]`, its unit axis forgotten, token and head axes exchanged: entry `(b, h, n, d)` is the
    array at `(b, n, s, h, d)`. -/
theorem slab_apply {A B S H D : Nat} (o : Nat) (s : Fin S) (ho : s.val = o)
    (x : (⟨5, ![A, B, S, H, D]⟩ : Shape).Idx → α)
    (hs : (⟨5, ![A, B, S, H, D]⟩ : Shape).Slices ![0, 0, o, 0, 0] ⟨5, ![A, B, 1, H, D]⟩)
    (hc : (⟨5, ![A, B, 1, H, D]⟩ : Shape).ShapeCasts ⟨4, ![A, B, H, D]⟩)
    (ht : (⟨4, ![A, B, H, D]⟩ : Shape).Transposes [0, 2, 1, 3] ⟨4, ![A, H, B, D]⟩)
    (b : Fin A) (h : Fin H) (n : Fin B) (d : Fin D) :
    transpose ⟨4, ![A, H, B, D]⟩ [0, 2, 1, 3]
        (shapeCast ⟨4, ![A, B, H, D]⟩ (extractStridedSlice ⟨5, ![A, B, 1, H, D]⟩ ![0, 0, o, 0, 0] x hs) hc) ht
        (ix4 b h n d)
      = x (ix5 b n s h d) := by
  refine (transpose_apply _ _ ht (ix4 b h n d) (ix4 b n h d) (fun a => match a with
    | ⟨0, _⟩ => rfl
    | ⟨1, _⟩ => rfl
    | ⟨2, _⟩ => rfl
    | ⟨3, _⟩ => rfl)).trans ?_
  refine (shapeCast_apply _ hc (ix4 b n h d) (ix5 b n (0 : Fin 1) h d) ?_).trans ?_
  · rw [Shape.rowMajor_val_five, Shape.rowMajor_val_four]
    show (((b.val * B + n.val) * 1 + 0) * H + h.val) * D + d.val = ((b.val * B + n.val) * H + h.val) * D + d.val
    rw [Nat.mul_one, Nat.add_zero]
  · exact extractStridedSlice_apply _ x hs (ix5 b n (0 : Fin 1) h d) (ix5 b n s h d) (fun a => match a with
      | ⟨0, _⟩ => by show b.val = 0 + b.val; omega
      | ⟨1, _⟩ => by show n.val = 0 + n.val; omega
      | ⟨2, _⟩ => by show s.val = o + 0; omega
      | ⟨3, _⟩ => by show h.val = 0 + h.val; omega
      | ⟨4, _⟩ => by show d.val = 0 + d.val; omega)

/-- `[A, H, B, D]` with head and token axes exchanged and head and lane merged into `H·D` columns: entry `(b, n, c)`
    is the array at head `c / D`, lane `c % D`. -/
theorem merge_heads_apply {A H B D C : Nat} (hC : C = H * D) (x : (⟨4, ![A, H, B, D]⟩ : Shape).Idx → α)
    (ht : (⟨4, ![A, H, B, D]⟩ : Shape).Transposes [0, 2, 1, 3] ⟨4, ![A, B, H, D]⟩)
    (hc : (⟨4, ![A, B, H, D]⟩ : Shape).ShapeCasts ⟨3, ![A, B, C]⟩)
    (b : Fin A) (n : Fin B) (c : Fin C) (h : Fin H) (d : Fin D) (hcd : c.val = h.val * D + d.val) :
    shapeCast ⟨3, ![A, B, C]⟩ (transpose ⟨4, ![A, B, H, D]⟩ [0, 2, 1, 3] x ht) hc (ix3 b n c)
      = x (ix4 b h n d) := by
  refine (shapeCast_apply _ hc (ix3 b n c) (ix4 b n h d) ?_).trans ?_
  · rw [Shape.rowMajor_val_three, Shape.rowMajor_val_four]
    show ((b.val * B + n.val) * H + h.val) * D + d.val = (b.val * B + n.val) * C + c.val
    rw [hcd, hC]; ring
  · exact transpose_apply _ x ht (ix4 b n h d) (ix4 b h n d) (fun a => match a with
      | ⟨0, _⟩ => rfl
      | ⟨1, _⟩ => rfl
      | ⟨2, _⟩ => rfl
      | ⟨3, _⟩ => rfl)

end Cert.ReferenceIdeal.RefRead
-- ==== Proof.RefReadMask.lean ====
/-
  The reference's feature mask, word by word.

  Token `(b, n)` carries a 32-bit count `a`; feature `d` is kept where the word of `d` is below, as signed words,
  the floored quotient of `1024·(a + 1)` by 8 — the truncated quotient, less one where the dividend's sign differs from
  the divisor's and the remainder is not zero. For a count below 8 that quotient is `128·(a + 1)`.
-/
import proofs.«166787_g36747740185073_cont_sun_m_199_12_alg».proof.Proof.RefFn
import proofs.«166787_g36747740185073_cont_sun_m_199_12_alg».proof.Proof.RefReadLayout

namespace Cert.ReferenceIdeal.RefRead

open Idealize.ShloMosaic Idealize.ShloMosaic.ValueIdx Cert.ReferenceIdeal Cert.ReferenceIdeal.RefFn
open Cert.ReferenceIdeal.Facts₀ Cert.ReferenceIdeal.Facts

/-- The sign of a word, as a word: `0`, `-1` or `1`. -/
def wsign (x : BitVec 32) : BitVec 32 := if x = 0 then 0 else if x.msb then -1 else 1

/-- The floored quotient of `1024·(x + 1)` by 8, in the words' arithmetic. -/
def maskWidth (x : BitVec 32) : BitVec 32 :=
  Scalar.select
    (IntOp.andi (IntOp.cmpi .ne (wsign (IntOp.muli 1024#32 (IntOp.addi x 1#32))) (wsign 8#32))
      (IntOp.cmpi .ne (IntOp.remsi .host (IntOp.muli 1024#32 (IntOp.addi x 1#32)) 8#32) 0#32))
    (IntOp.subi (IntOp.divsi .host (IntOp.muli 1024#32 (IntOp.addi x 1#32)) 8#32) 1#32)
    (IntOp.divsi .host (IntOp.muli 1024#32 (IntOp.addi x 1#32)) 8#32)

/-- The mask bit of feature `d` for a token whose count is the word `x`. -/
def maskBit (x : BitVec 32) (d : Fin 1024) : BitVec 1 := IntOp.cmpi .slt (BitVec.ofNat 32 d.val) (maskWidth x)

/-- The reference's mask: feature `d` of token `(b, n)` is kept. -/
def rmask (a1 : IVec S2x2048 32) (b : Fin 2) (n : Fin 2048) (d : Fin 1024) : Bool :=
  decide (maskBit (a1 (ix2 b n)) d = 1#1)

/-! ## The program's mask read at an index -/

section Pointwise
variable {s : Shape} {w : Nat}

theorem addi_apply (x y : IVec s w) (i : s.Idx) : addi x y i = IntOp.addi (x i) (y i) := rfl
theorem subi_apply (x y : IVec s w) (i : s.Idx) : subi x y i = IntOp.subi (x i) (y i) := rfl
theorem muli_apply (x y : IVec s w) (i : s.Idx) : muli x y i = IntOp.muli (x i) (y i) := rfl
theorem andi_apply (x y : IVec s w) (i : s.Idx) : andi x y i = IntOp.andi (x i) (y i) := rfl
theorem cmpi_apply (p : CmpIPredicate) (x y : IVec s w) (i : s.Idx) : cmpi p x y i = IntOp.cmpi p (x i) (y i) := rfl
theorem hostDivsi_apply (x y : IVec s w) (i : s.Idx) : Host.divsi x y i = IntOp.divsi .host (x i) (y i) := rfl
theorem hostRemsi_apply (x y : IVec s w) (i : s.Idx) : Host.remsi x y i = IntOp.remsi .host (x i) (y i) := rfl
theorem signi_apply (x : IVec s 32) (i : s.Idx) : signi x i = wsign (x i) := rfl
theorem constantI_apply (b : BitVec w) (i : s.Idx) : constantI s w b i = b := rfl
theorem iota1_apply {n : Nat} (d : Fin n) : iotaInDim ⟨1, ![n]⟩ 32 0 (ix1 d) = BitVec.ofNat 32 d.val := rfl

end Pointwise

section
variable [Cert.ReferenceIdeal.Facts]

/-- The program's mask at `(b, n, d)` is the mask bit of `d` at the token's count. -/
theorem maskBits_apply (a1 : IVec S2x2048 32) (b : Fin 2) (n : Fin 2048) (d : Fin 1024) :
    maskBits a1 (ix3 b n d) = maskBit (a1 (ix2 b n)) d := by
  unfold maskBits
  rw [cmpi_apply, bcast_lane_apply, bcast_token_apply]
  rfl

end

/-! ## The mask for a count below 8 -/

/-- Two words of naturals below `2 ^ 31` compare, signed, as the naturals. -/
theorem slt_ofNat (m n : Nat) (hm : m < 2 ^ 31) (hn : n < 2 ^ 31) :
    (BitVec.ofNat 32 m).slt (BitVec.ofNat 32 n) = decide (m < n) := by
  have msb_small : ∀ k : Nat, k < 2 ^ 31 → (BitVec.ofNat 32 k).msb = false := fun k hk => by
    rw [BitVec.msb_eq_decide, BitVec.toNat_ofNat, Nat.mod_eq_of_lt (by omega)]
    exact decide_eq_false (by omega)
  rw [BitVec.slt_eq_decide, BitVec.toInt_eq_toNat_of_msb (msb_small m hm), BitVec.toInt_eq_toNat_of_msb (msb_small n hn),
    BitVec.toNat_ofNat, BitVec.toNat_ofNat, Nat.mod_eq_of_lt (by omega), Nat.mod_eq_of_lt (by omega)]
  simp

/-- For a count `k < 8` the width is the word of `128·(k + 1)`. -/
theorem maskWidth_small (k : Nat) (hk : k < 8) : maskWidth (BitVec.ofNat 32 k) = BitVec.ofNat 32 (128 * (k + 1)) := by
  interval_cases k <;> decide

/-- For a count below 8, feature `d` is kept exactly when `d < 128·(count + 1)`. -/
theorem maskBit_small (x : BitVec 32) (hx : x.toNat < 8) (d : Fin 1024) :
    decide (maskBit x d = 1#1) = decide (d.val < 128 * (x.toNat + 1)) := by
  obtain ⟨k, hk, rfl⟩ : ∃ k, k < 8 ∧ x = BitVec.ofNat 32 k :=
    ⟨x.toNat, hx, BitVec.eq_of_toNat_eq (by rw [BitVec.toNat_ofNat, Nat.mod_eq_of_lt x.isLt])⟩
  have hd := d.isLt
  have hk' : (BitVec.ofNat 32 k).toNat = k := by rw [BitVec.toNat_ofNat, Nat.mod_eq_of_lt (by omega)]
  unfold maskBit
  rw [maskWidth_small k hk, hk']
  show decide (BitVec.ofBool ((BitVec.ofNat 32 d.val).slt (BitVec.ofNat 32 (128 * (k + 1)))) = 1#1) = _
  rw [slt_ofNat d.val (128 * (k + 1)) (by omega) (by omega)]
  by_cases h : d.val < 128 * (k + 1) <;> simp [h]

theorem rmask_eq (a1 : IVec S2x2048 32) (h : ∀ b n, (a1 (ix2 b n)).toNat < 8) (b : Fin 2) (n : Fin 2048) (d : Fin 1024) :
    rmask a1 b n d = decide (d.val < 128 * ((a1 (ix2 b n)).toNat + 1)) :=
  maskBit_small (a1 (ix2 b n)) (h b n) d

end Cert.ReferenceIdeal.RefRead
-- ==== Proof.RefReadDots.lean ====
/-
  Host operations on arrays of literal rank read at one index, over the extended reals.

  Three contractions: a rank-3 array against a matrix along both last axes; two rank-4 arrays with two leading batch
  axes, contracted along both last axes, or along the last axis of the first and the third of the second. Each is, at
  an entry, the finite sum over the contracted coordinate of the products of the two entries.
-/
import Idealize.ShloMosaic.PureOps.Ideal
import Idealize.ShloMosaic.PureOps.Ideal.Laws
import Idealize.ShloMosaic.Lib.ValueIdx

noncomputable section

open scoped BigOperators

namespace Cert.ReferenceIdeal.RefRead

open Idealize.ShloMosaic Idealize.ShloMosaic.ValueIdx

/-- A `[B, N, K]` array against a `[P, K]` matrix, both last axes contracted: entry `(b, n, p)` is the sum over
    `d` of `A (b, n, d) * C (p, d)`. -/
theorem dot_rows_apply {B N K P : ℕ} {φ₁ φ₂ : FTy}
    (w : DotDims.WF ⟨3, ![B, N, K]⟩ ⟨2, ![P, K]⟩ ⟨3, ![B, N, P]⟩ [2] [1] [0, 1] [0] [] [])
    (prec : Option ContractPrecision) (A : FVec Ideal ⟨3, ![B, N, K]⟩ φ₁) (C : FVec Ideal ⟨2, ![P, K]⟩ φ₂)
    (b : Fin B) (n : Fin N) (p : Fin P) :
    Host.dotGeneral (F := Ideal) (⟨[2], [1], [0, 1], [0], [], [], w⟩ : DotDims _ _ _) prec A C (ix3 b n p)
      = ∑ d : Fin K, A (ix3 b n d) * C (ix2 p d) := by
  simp only [Host.dotGeneral]
  rw [Ideal.dotGeneral_apply,
    ← Equiv.sum_comp (contrEquiv1 (⟨[2], [1], [0, 1], [0], [], [], w⟩ : DotDims _ _ _) K rfl rfl).symm]
  refine Finset.sum_congr rfl fun c _ => ?_
  have c2 := contrEquiv1_symm_val
    (⟨[2], [1], [0, 1], [0], [], [], w⟩ : DotDims ⟨3, ![B, N, K]⟩ ⟨2, ![P, K]⟩ ⟨3, ![B, N, P]⟩) K rfl rfl c
  have l2 : (⟨[2], [1], [0, 1], [0], [], [], w⟩ : DotDims ⟨3, ![B, N, K]⟩ ⟨2, ![P, K]⟩ ⟨3, ![B, N, P]⟩).lhsIdx (ix3 b n p)
      ((contrEquiv1 _ K rfl rfl).symm c) = ix3 b n c := by
    funext ax; apply Fin.ext
    match ax with
    | ⟨0, _⟩ => simp [DotDims.lhsIdx]; rfl
    | ⟨1, _⟩ => simp [DotDims.lhsIdx]; rfl
    | ⟨2, _⟩ => simp [DotDims.lhsIdx]; exact c2
  have r2 : (⟨[2], [1], [0, 1], [0], [], [], w⟩ : DotDims ⟨3, ![B, N, K]⟩ ⟨2, ![P, K]⟩ ⟨3, ![B, N, P]⟩).rhsIdx (ix3 b n p)
      ((contrEquiv1 _ K rfl rfl).symm c) = ix2 p c := by
    funext ax; apply Fin.ext
    match ax with
    | ⟨0, _⟩ => simp [DotDims.rhsIdx]; rfl
    | ⟨1, _⟩ => simp [DotDims.rhsIdx]; exact c2
  rw [l2, r2]

/-- Two `[B, H, ·, D]` arrays with batch axes `B`, `H`, both last axes contracted: entry `(b, h, q, k)` is the sum
    over `d` of `A (b, h, q, d) * C (b, h, k, d)`. -/
theorem dot_batch_last_apply {B H Q K D : ℕ} {φ₁ φ₂ : FTy}
    (w : DotDims.WF ⟨4, ![B, H, Q, D]⟩ ⟨4, ![B, H, K, D]⟩ ⟨4, ![B, H, Q, K]⟩ [3] [3] [2] [2] [0, 1] [0, 1])
    (prec : Option ContractPrecision) (A : FVec Ideal ⟨4, ![B, H, Q, D]⟩ φ₁) (C : FVec Ideal ⟨4, ![B, H, K, D]⟩ φ₂)
    (b : Fin B) (h : Fin H) (q : Fin Q) (k : Fin K) :
    Host.dotGeneral (F := Ideal) (⟨[3], [3], [2], [2], [0, 1], [0, 1], w⟩ : DotDims _ _ _) prec A C (ix4 b h q k)
      = ∑ d : Fin D, A (ix4 b h q d) * C (ix4 b h k d) := by
  simp only [Host.dotGeneral]
  rw [Ideal.dotGeneral_apply,
    ← Equiv.sum_comp (contrEquiv1 (⟨[3], [3], [2], [2], [0, 1], [0, 1], w⟩ : DotDims _ _ _) D rfl rfl).symm]
  refine Finset.sum_congr rfl fun c _ => ?_
  have c2 := contrEquiv1_symm_val
    (⟨[3], [3], [2], [2], [0, 1], [0, 1], w⟩ : DotDims ⟨4, ![B, H, Q, D]⟩ ⟨4, ![B, H, K, D]⟩ ⟨4, ![B, H, Q, K]⟩) D rfl rfl c
  have l2 : (⟨[3], [3], [2], [2], [0, 1], [0, 1], w⟩ : DotDims ⟨4, ![B, H, Q, D]⟩ ⟨4, ![B, H, K, D]⟩ ⟨4, ![B, H, Q, K]⟩).lhsIdx (ix4 b h q k)
      ((contrEquiv1 _ D rfl rfl).symm c) = ix4 b h q c := by
    funext ax; apply Fin.ext
    match ax with
    | ⟨0, _⟩ => simp [DotDims.lhsIdx]; rfl
    | ⟨1, _⟩ => simp [DotDims.lhsIdx]; rfl
    | ⟨2, _⟩ => simp [DotDims.lhsIdx]; rfl
    | ⟨3, _⟩ => simp [DotDims.lhsIdx]; exact c2
  have r2 : (⟨[3], [3], [2], [2], [0, 1], [0, 1], w⟩ : DotDims ⟨4, ![B, H, Q, D]⟩ ⟨4, ![B, H, K, D]⟩ ⟨4, ![B, H, Q, K]⟩).rhsIdx (ix4 b h q k)
      ((contrEquiv1 _ D rfl rfl).symm c) = ix4 b h k c := by
    funext ax; apply Fin.ext
    match ax with
    | ⟨0, _⟩ => simp [DotDims.rhsIdx]; rfl
    | ⟨1, _⟩ => simp [DotDims.rhsIdx]; rfl
    | ⟨2, _⟩ => simp [DotDims.rhsIdx]; rfl
    | ⟨3, _⟩ => simp [DotDims.rhsIdx]; exact c2
  rw [l2, r2]

/-- A `[B, H, Q, K]` array against a `[B, H, K, D]` array with batch axes `B`, `H`, the first's last axis contracted
    with the second's third: entry `(b, h, q, d)` is the sum over `k` of `A (b, h, q, k) * C (b, h, k, d)`. -/
theorem dot_batch_mid_apply {B H Q K D : ℕ} {φ₁ φ₂ : FTy}
    (w : DotDims.WF ⟨4, ![B, H, Q, K]⟩ ⟨4, ![B, H, K, D]⟩ ⟨4, ![B, H, Q, D]⟩ [3] [2] [2] [3] [0, 1] [0, 1])
    (prec : Option ContractPrecision) (A : FVec Ideal ⟨4, ![B, H, Q, K]⟩ φ₁) (C : FVec Ideal ⟨4, ![B, H, K, D]⟩ φ₂)
    (b : Fin B) (h : Fin H) (q : Fin Q) (d : Fin D) :
    Host.dotGeneral (F := Ideal) (⟨[3], [2], [2], [3], [0, 1], [0, 1], w⟩ : DotDims _ _ _) prec A C (ix4 b h q d)
      = ∑ k : Fin K, A (ix4 b h q k) * C (ix4 b h k d) := by
  simp only [Host.dotGeneral]
  rw [Ideal.dotGeneral_apply,
    ← Equiv.sum_comp (contrEquiv1 (⟨[3], [2], [2], [3], [0, 1], [0, 1], w⟩ : DotDims _ _ _) K rfl rfl).symm]
  refine Finset.sum_congr rfl fun c _ => ?_
  have c2 := contrEquiv1_symm_val
    (⟨[3], [2], [2], [3], [0, 1], [0, 1], w⟩ : DotDims ⟨4, ![B, H, Q, K]⟩ ⟨4, ![B, H, K, D]⟩ ⟨4, ![B, H, Q, D]⟩) K rfl rfl c
  have l2 : (⟨[3], [2], [2], [3], [0, 1], [0, 1], w⟩ : DotDims ⟨4, ![B, H, Q, K]⟩ ⟨4, ![B, H, K, D]⟩ ⟨4, ![B, H, Q, D]⟩).lhsIdx (ix4 b h q d)
      ((contrEquiv1 _ K rfl rfl).symm c) = ix4 b h q c := by
    funext ax; apply Fin.ext
    match ax with
    | ⟨0, _⟩ => simp [DotDims.lhsIdx]; rfl
    | ⟨1, _⟩ => simp [DotDims.lhsIdx]; rfl
    | ⟨2, _⟩ => simp [DotDims.lhsIdx]; rfl
    | ⟨3, _⟩ => simp [DotDims.lhsIdx]; exact c2
  have r2 : (⟨[3], [2], [2], [3], [0, 1], [0, 1], w⟩ : DotDims ⟨4, ![B, H, Q, K]⟩ ⟨4, ![B, H, K, D]⟩ ⟨4, ![B, H, Q, D]⟩).rhsIdx (ix4 b h q d)
      ((contrEquiv1 _ K rfl rfl).symm c) = ix4 b h c d := by
    funext ax; apply Fin.ext
    match ax with
    | ⟨0, _⟩ => simp [DotDims.rhsIdx]; rfl
    | ⟨1, _⟩ => simp [DotDims.rhsIdx]; rfl
    | ⟨2, _⟩ => simp [DotDims.rhsIdx]; exact c2
    | ⟨3, _⟩ => simp [DotDims.rhsIdx]; rfl
  rw [l2, r2]

end Cert.ReferenceIdeal.RefRead

end
-- ==== Proof.RefReadReduce.lean ====
/-
  The host's reductions over the last axis of a rank-4 array read at one index, over the extended reals, and three
  binary32 literals.

  The sum from the zero literal is the finite sum over the last coordinate; the maximum from the literal of minus
  infinity is the supremum over the last coordinate.
-/
import Idealize.ShloMosaic.PureOps.Ideal
import Idealize.ShloMosaic.PureOps.Ideal.Laws
import Idealize.ShloMosaic.PureOps.Reduce
import Idealize.ShloMosaic.Lib.ValueIdx

noncomputable section

open scoped BigOperators

namespace Cert.ReferenceIdeal.RefRead

open Idealize.ShloMosaic Idealize.ShloMosaic.ValueIdx

/-- The reduced index `(b, h, q)` with `k` inserted on the dropped last axis is `(b, h, q, k)`. -/
theorem lift_last4 {A B C D : Nat} (h : (⟨4, ![A, B, C, D]⟩ : Shape).Reduces [3] ⟨3, ![A, B, C]⟩)
    (b : Fin A) (hh : Fin B) (q : Fin C) (k : Fin D) : h.lift (ix3 b hh q) k = ix4 b hh q k := by
  funext a; refine Fin.ext ?_
  match a with
  | ⟨0, _⟩ => rfl
  | ⟨1, _⟩ => rfl
  | ⟨2, _⟩ => rfl
  | ⟨3, _⟩ => rfl

/-- The host's sum over the last axis of `[A, B, C, D]` from the zero literal, at `(b, h, q)`: the sum over `k` of the
    array at `(b, h, q, k)`. -/
theorem hostReduceAdd_last4_apply {A B C D : Nat} {u : Shape} (x : FVec Ideal ⟨4, ![A, B, C, D]⟩ .f32)
    (h' : (⟨4, ![A, B, C, D]⟩ : Shape).ReducesTo [3] ⟨3, ![A, B, C]⟩) (hu : 0 < u.numel)
    (b : Fin A) (hh : Fin B) (q : Fin C) :
    Host.reduceAdd (F := Ideal) x (constant (F := Ideal) u .f32 0x00000000#32) h' hu (ix3 b hh q)
      = ∑ k : Fin D, x (ix4 b hh q k) := by
  have h : (⟨4, ![A, B, C, D]⟩ : Shape).Reduces [3] ⟨3, ![A, B, C]⟩ := ⟨h'.1, (show 0 < 3 by decide), h'.2⟩
  show Ideal.hostReduceAdd h' x (Ideal.ofBits .f32 0x00000000#32) (ix3 b hh q) = _
  rw [Ideal.hostReduceAdd_single h' h x _ (ix3 b hh q), Ideal.ofBits_zero_f32, zero_add]
  exact Finset.sum_congr rfl fun k _ => congrArg x (lift_last4 h b hh q k)

/-- The host's maximum over the last axis of `[A, B, C, D]` from a literal, at `(b, h, q)`: the fold of the maximum from
    the literal's value over `k` of the array at `(b, h, q, k)`. -/
theorem hostReduce_max_last4_apply {A B C D : Nat} {u : Shape} (x : FVec Ideal ⟨4, ![A, B, C, D]⟩ .f32) (bits : BitVec 32)
    (h' : (⟨4, ![A, B, C, D]⟩ : Shape).ReducesTo [3] ⟨3, ![A, B, C]⟩) (hu : 0 < u.numel)
    (b : Fin A) (hh : Fin B) (q : Fin C) :
    Host.reduce (FloatOps.maximumf (F := Ideal)) x (constant (F := Ideal) u .f32 bits) h' hu (ix3 b hh q)
      = (Finset.univ : Finset (Fin D)).fold max (Ideal.ofBits .f32 bits) (fun k => x (ix4 b hh q k)) := by
  have h : (⟨4, ![A, B, C, D]⟩ : Shape).Reduces [3] ⟨3, ![A, B, C]⟩ := ⟨h'.1, (show 0 < 3 by decide), h'.2⟩
  rw [Host.reduce_eq_fold_single FloatOps.maximumf x _ h' h hu]
  exact congrArg ((Finset.univ : Finset (Fin D)).fold max (Ideal.ofBits .f32 bits))
    (funext fun k => congrArg x (lift_last4 h b hh q k))

/-- The fold of the maximum from `⊥` over a finite type is the supremum. -/
theorem fold_max_bot_eq_sup {ι : Type} [Fintype ι] (f : ι → EReal) :
    (Finset.univ : Finset ι).fold max ⊥ f = Finset.univ.sup f := rfl

/-! ## Literals -/

/-- The binary32 pattern of minus infinity denotes `⊥`. -/
theorem ofBits_neginf : Ideal.ofBits .f32 0xFF800000#32 = (⊥ : EReal) := by
  simp [Ideal.ofBits, Ideal.ieee]

/-- The binary32 pattern `0x3E000000` denotes one eighth. -/
theorem ofBits_eighth : Ideal.ofBits .f32 0x3E000000#32 = ((0.125 : ℝ) : EReal) := by
  simp [Ideal.ofBits, Ideal.ieee]
  rw [← EReal.coe_mul]
  congr 1
  norm_num

/-- A bit read as an unsigned integer is `1` or `0`. -/
theorem uitofp_bit (b : BitVec 1) : (FloatOps.uitofp (F := Ideal) .f32 b : EReal) = if b = 1#1 then 1 else 0 := by
  show (((b.toNat : ℝ)) : EReal) = _
  rcases BitVec.eq_zero_or_eq_one b with h | h
  · subst h; simp
  · subst h; simp

end Cert.ReferenceIdeal.RefRead

end
-- ==== Proof.RefReadA.lean ====
/-
  The reference's stages up to the scores, read at an index in the terms of the specification's textbook arrangement:
  the mask as floats is `fm`, the masked tokens are `rxm`, the projection is `rqkv`, a slab of the projection laid
  head-major is `rqkv` at the slab's feature, and a score is the sum over the 64 lanes of query times key.
-/
import proofs.«166787_g36747740185073_cont_sun_m_199_12_alg».proof.Proof.Spec
import proofs.«166787_g36747740185073_cont_sun_m_199_12_alg».proof.Proof.RefReadStages
import proofs.«166787_g36747740185073_cont_sun_m_199_12_alg».proof.Proof.RefReadMask
import proofs.«166787_g36747740185073_cont_sun_m_199_12_alg».proof.Proof.RefReadDots
import proofs.«166787_g36747740185073_cont_sun_m_199_12_alg».proof.Proof.RefReadLayout
import proofs.«166787_g36747740185073_cont_sun_m_199_12_alg».proof.Proof.RefReadReduce

noncomputable section

open scoped BigOperators

namespace Cert.ReferenceIdeal.RefRead

open Idealize.ShloMosaic Idealize.ShloMosaic.ValueIdx Cert.ReferenceIdeal Cert.ReferenceIdeal.RefFn Cert.AttnSpec
open Cert.ReferenceIdeal.Facts₀ Cert.ReferenceIdeal.Facts

variable [Cert.ReferenceIdeal.Facts]
variable (a0 : FVec Ideal S2x2048x1024 .f32) (a1 : IVec S2x2048 32) (a2 : FVec Ideal S3072x1024 .f32)
  (a3 : FVec Ideal S1024x1024 .f32) (a4 : FVec Ideal S1024 .f32)

local notation "𝐗" => (fun (b : Fin 2) (n : Fin 2048) (d : Fin 1024) => a0 (ix3 b n d))
local notation "𝐌" => rmask a1
local notation "𝐖" => (fun (f : Fin 3072) (d : Fin 1024) => a2 (ix2 f d))
local notation "𝐏" => (fun (o : Fin 1024) (c : Fin 1024) => a3 (ix2 o c))
local notation "𝐁" => (fun (o : Fin 1024) => a4 (ix1 o))

theorem feat_val (s : Fin 3) (h : Fin 16) (d : Fin 64) : (feat s h d).val = (s.val * 16 + h.val) * 64 + d.val := by
  show s.val * 1024 + h.val * 64 + d.val = _
  omega

theorem s11_apply (b : Fin 2) (n : Fin 2048) (d : Fin 1024) : s11 a1 (ix3 b n d) = fm 𝐌 b n d := by
  show FloatOps.uitofp (F := Ideal) .f32 (maskBits a1 (ix3 b n d)) = _
  rw [maskBits_apply, uitofp_bit]
  unfold fm rmask
  by_cases h : maskBit (a1 (ix2 b n)) d = 1#1 <;> simp [h]

theorem s12_apply (b : Fin 2) (n : Fin 2048) (d : Fin 1024) : s12 a0 a1 (ix3 b n d) = rxm 𝐗 𝐌 b n d := by
  show a0 (ix3 b n d) * s11 a1 (ix3 b n d) = _
  rw [s11_apply]; rfl

theorem s13_apply (b : Fin 2) (n : Fin 2048) (f : Fin 3072) : s13 a0 a1 a2 (ix3 b n f) = rqkv 𝐗 𝐌 𝐖 b n f := by
  unfold s13
  refine (dot_rows_apply dot_S2x2048x1024_S3072x1024_S2x2048x3072_2_1_01_0_n_n_wf none _ _ b n f).trans ?_
  exact Finset.sum_congr rfl fun d _ => by rw [s12_apply]

theorem slabOf_apply (o : Nat) (s : Fin 3) (ho : s.val = o)
    (hs : S2x2048x3x16x64.Slices ![0, 0, o, 0, 0] S2x2048x1x16x64)
    (b : Fin 2) (h : Fin 16) (n : Fin 2048) (d : Fin 64) :
    slabOf ![0, 0, o, 0, 0] hs (s14 a0 a1 a2) (ix4 b h n d) = rqkv 𝐗 𝐌 𝐖 b n (feat s h d) := by
  unfold slabOf
  refine (slab_apply o s ho _ hs _ _ b h n d).trans ?_
  unfold s14
  refine (split_feat_apply (by norm_num) _ _ b n s h d (feat s h d) (feat_val s h d)).trans ?_
  exact s13_apply a0 a1 a2 b n (feat s h d)

theorem s24_apply (b : Fin 2) (h : Fin 16) (q k : Fin 2048) :
    s24 a0 a1 a2 (ix4 b h q k) = ∑ d : Fin 64, rqkv 𝐗 𝐌 𝐖 b q (feat 0 h d) * rqkv 𝐗 𝐌 𝐖 b k (feat 1 h d) := by
  unfold s24
  refine (dot_batch_last_apply dot_S2x16x2048x64_S2x16x2048x64_S2x16x2048x2048_3_3_2_2_01_01_wf none _ _ b h q k).trans ?_
  exact Finset.sum_congr rfl fun d _ => by
    unfold s17 s20
    rw [slabOf_apply a0 a1 a2 0 0 rfl, slabOf_apply a0 a1 a2 1 1 rfl]

end Cert.ReferenceIdeal.RefRead

end
-- ==== Proof.RefReadB.lean ====
/-
  The reference's softmax stages read at an index in the terms of the specification's textbook arrangement: the scaled
  score is `ra` (the literal is one eighth), the row maximum is `rmax` (the fold of the maximum from minus infinity is
  the supremum, and the extra maximum against minus infinity changes nothing), the exponential is `ru`, the row sum from
  zero is `rz`, and the quotient is `rsm`.
-/
import proofs.«166787_g36747740185073_cont_sun_m_199_12_alg».proof.Proof.RefReadA
import proofs.«166787_g36747740185073_cont_sun_m_199_12_alg».proof.Proof.RefReadStages
import proofs.«166787_g36747740185073_cont_sun_m_199_12_alg».proof.Proof.RefReadMask
import proofs.«166787_g36747740185073_cont_sun_m_199_12_alg».proof.Proof.RefReadDots
import proofs.«166787_g36747740185073_cont_sun_m_199_12_alg».proof.Proof.RefReadLayout
import proofs.«166787_g36747740185073_cont_sun_m_199_12_alg».proof.Proof.RefReadReduce

noncomputable section

open scoped BigOperators

namespace Cert.ReferenceIdeal.RefRead

open Idealize.ShloMosaic Idealize.ShloMosaic.ValueIdx Cert.ReferenceIdeal Cert.ReferenceIdeal.RefFn Cert.AttnSpec
open Cert.ReferenceIdeal.Facts₀ Cert.ReferenceIdeal.Facts

variable [Cert.ReferenceIdeal.Facts]
variable (a0 : FVec Ideal S2x2048x1024 .f32) (a1 : IVec S2x2048 32) (a2 : FVec Ideal S3072x1024 .f32)
  (a3 : FVec Ideal S1024x1024 .f32) (a4 : FVec Ideal S1024 .f32)

local notation "𝐗" => (fun (b : Fin 2) (n : Fin 2048) (d : Fin 1024) => a0 (ix3 b n d))
local notation "𝐌" => rmask a1
local notation "𝐖" => (fun (f : Fin 3072) (d : Fin 1024) => a2 (ix2 f d))
local notation "𝐏" => (fun (o : Fin 1024) (c : Fin 1024) => a3 (ix2 o c))
local notation "𝐁" => (fun (o : Fin 1024) => a4 (ix1 o))

theorem hostExp_apply {s : Shape} {φ : FTy} (a : FVec Ideal s φ) (i : s.Idx) :
    Host.exp (F := Ideal) a i = Ideal.exp (a i) := rfl

theorem hostDivf_apply {s : Shape} {φ : FTy} (a b : FVec Ideal s φ) (i : s.Idx) :
    Host.divf (F := Ideal) a b i = Ideal.div (a i) (b i) := rfl

theorem spread_apply (v : FVec Ideal S2x16x2048 .f32) (b : Fin 2) (h : Fin 16) (q k : Fin 2048) :
    spread v (ix4 b h q k) = v (ix3 b h q) := by
  unfold spread
  exact bcast_row_apply v _ _ b h q k

theorem s26_apply (b : Fin 2) (h : Fin 16) (q k : Fin 2048) : s26 a0 a1 a2 (ix4 b h q k) = ra 𝐗 𝐌 𝐖 b h q k := by
  unfold s26
  rw [mulf_apply, bcast_scalar_apply, constant_apply, ofBits_eighth, s24_apply]
  rfl

/-- The row maximum of any scores, with the extra maximum against minus infinity, is the supremum over the keys. -/
theorem rowmax_apply (v : FVec Ideal S2x16x2048x2048 .f32) (b : Fin 2) (h : Fin 16) (q : Fin 2048) :
    maximumf (broadcastInDim S2x16x2048 ![] bcast_S_S2x16x2048 (constant (F := Ideal) S_ .f32 0xFF800000#32))
      (Host.reduce (FloatOps.maximumf (F := Ideal)) v (constant (F := Ideal) S_ .f32 0xFF800000#32)
        reducesTo_S2x16x2048x2048_S2x16x2048_d3 h_S_) (ix3 b h q)
      = Finset.univ.sup fun k : Fin 2048 => v (ix4 b h q k) := by
  rw [maximumf_apply, bcast_scalar_apply, constant_apply, ofBits_neginf, max_bot_left, hostReduce_max_last4_apply,
    ofBits_neginf, fold_max_bot_eq_sup]

theorem s29_apply (b : Fin 2) (h : Fin 16) (q : Fin 2048) : s29 a0 a1 a2 (ix3 b h q) = rmax 𝐗 𝐌 𝐖 b h q := by
  unfold s29
  rw [rowmax_apply]
  unfold rmax
  exact congrArg Finset.univ.sup (funext fun k => s26_apply a0 a1 a2 b h q k)

theorem s33_apply (b : Fin 2) (h : Fin 16) (q k : Fin 2048) : s33 a0 a1 a2 (ix4 b h q k) = ru 𝐗 𝐌 𝐖 b h q k := by
  unfold s33
  rw [hostExp_apply, subf_apply, spread_apply, s26_apply, s29_apply]
  rfl

/-- The row sum of any array from the zero literal is the sum over the keys. -/
theorem rowsum_apply (v : FVec Ideal S2x16x2048x2048 .f32) (b : Fin 2) (h : Fin 16) (q : Fin 2048) :
    Host.reduceAdd (F := Ideal) v (constant (F := Ideal) S_ .f32 0x00000000#32)
        reducesTo_S2x16x2048x2048_S2x16x2048_d3 h_S_ (ix3 b h q)
      = ∑ k : Fin 2048, v (ix4 b h q k) :=
  hostReduceAdd_last4_apply v _ _ b h q

theorem s34_apply (b : Fin 2) (h : Fin 16) (q : Fin 2048) : s34 a0 a1 a2 (ix3 b h q) = rz 𝐗 𝐌 𝐖 b h q := by
  unfold s34
  rw [rowsum_apply]
  exact Finset.sum_congr rfl fun k _ => s33_apply a0 a1 a2 b h q k

theorem s37_apply (b : Fin 2) (h : Fin 16) (q k : Fin 2048) : s37 a0 a1 a2 (ix4 b h q k) = rsm 𝐗 𝐌 𝐖 b h q k := by
  unfold s37
  rw [hostDivf_apply, spread_apply, s33_apply, s34_apply]
  rfl

end Cert.ReferenceIdeal.RefRead

end
-- ==== Proof.RefRead.lean ====
/-
  The reference's result is the textbook arrangement `RG` of the specification, entry by entry.

  The last stages read at an index: the weighted values are `rx`, the heads side by side are `rcat` (column `c` is head
  `c / 64`, lane `c % 64`), the output projection with the bias is `ry`, and the mask applied is `RG`.
-/
import proofs.«166787_g36747740185073_cont_sun_m_199_12_alg».proof.Proof.RefReadB
import proofs.«166787_g36747740185073_cont_sun_m_199_12_alg».proof.Proof.RefReadStages
import proofs.«166787_g36747740185073_cont_sun_m_199_12_alg».proof.Proof.RefReadMask
import proofs.«166787_g36747740185073_cont_sun_m_199_12_alg».proof.Proof.RefReadDots
import proofs.«166787_g36747740185073_cont_sun_m_199_12_alg».proof.Proof.RefReadLayout
import proofs.«166787_g36747740185073_cont_sun_m_199_12_alg».proof.Proof.RefReadReduce

noncomputable section

open scoped BigOperators

namespace Cert.ReferenceIdeal.RefRead

open Idealize.ShloMosaic Idealize.ShloMosaic.ValueIdx Cert.ReferenceIdeal Cert.ReferenceIdeal.RefFn Cert.AttnSpec
open Cert.ReferenceIdeal.Facts₀ Cert.ReferenceIdeal.Facts

variable [Cert.ReferenceIdeal.Facts]
variable (a0 : FVec Ideal S2x2048x1024 .f32) (a1 : IVec S2x2048 32) (a2 : FVec Ideal S3072x1024 .f32)
  (a3 : FVec Ideal S1024x1024 .f32) (a4 : FVec Ideal S1024 .f32)

local notation "𝐗" => (fun (b : Fin 2) (n : Fin 2048) (d : Fin 1024) => a0 (ix3 b n d))
local notation "𝐌" => rmask a1
local notation "𝐖" => (fun (f : Fin 3072) (d : Fin 1024) => a2 (ix2 f d))
local notation "𝐏" => (fun (o : Fin 1024) (c : Fin 1024) => a3 (ix2 o c))
local notation "𝐁" => (fun (o : Fin 1024) => a4 (ix1 o))

theorem s38_apply (b : Fin 2) (h : Fin 16) (q : Fin 2048) (d : Fin 64) :
    s38 a0 a1 a2 (ix4 b h q d) = rx 𝐗 𝐌 𝐖 b h q d := by
  unfold s38
  refine (dot_batch_mid_apply dot_S2x16x2048x2048_S2x16x2048x64_S2x16x2048x64_3_2_2_3_01_01_wf none _ _ b h q d).trans ?_
  exact Finset.sum_congr rfl fun k _ => by
    unfold s23
    rw [s37_apply, slabOf_apply a0 a1 a2 2 2 rfl]

theorem s40_apply (b : Fin 2) (n : Fin 2048) (c : Fin 1024) : s40 a0 a1 a2 (ix3 b n c) = rcat 𝐗 𝐌 𝐖 b n c := by
  unfold s40
  refine (merge_heads_apply (by norm_num) _ _ _ b n c ⟨c.val / 64, by omega⟩ ⟨c.val % 64, by omega⟩
    (by show c.val = c.val / 64 * 64 + c.val % 64; omega)).trans ?_
  exact s38_apply a0 a1 a2 b _ n _

theorem s41_apply (b : Fin 2) (n : Fin 2048) (o : Fin 1024) :
    s41 a0 a1 a2 a3 (ix3 b n o) = ∑ c : Fin 1024, rcat 𝐗 𝐌 𝐖 b n c * a3 (ix2 o c) := by
  unfold s41
  refine (dot_rows_apply dot_S2x2048x1024_S1024x1024_S2x2048x1024_2_1_01_0_n_n_wf none _ _ b n o).trans ?_
  exact Finset.sum_congr rfl fun c _ => by rw [s40_apply]

theorem s44_apply (b : Fin 2) (n : Fin 2048) (o : Fin 1024) :
    s44 a0 a1 a2 a3 a4 (ix3 b n o) = ry 𝐗 𝐌 𝐖 𝐏 𝐁 b n o := by
  unfold s44
  rw [addf_apply, bcast_lane_apply, s41_apply]
  rfl

theorem s45_apply (b : Fin 2) (n : Fin 2048) (o : Fin 1024) :
    s45 a0 a1 a2 a3 a4 (ix3 b n o) = RG 𝐗 𝐌 𝐖 𝐏 𝐁 b n o := by
  unfold s45
  rw [mulf_apply, s44_apply, s11_apply]
  rfl

/-- The reference's result, entry by entry, is the specification's textbook arrangement. -/
theorem refFn_eq :
    refFn a0 a1 a2 a3 a4 = fun i => Cert.AttnSpec.RG (fun b n d => a0 (ix3 b n d)) (rmask a1) (fun f d => a2 (ix2 f d))
      (fun o c => a3 (ix2 o c)) (fun o => a4 (ix1 o)) (i 0) (i 1) (i 2) := by
  rw [refFn_eq_stages]
  funext i
  obtain ⟨b, n, o, rfl⟩ : ∃ (b : Fin 2) (n : Fin 2048) (o : Fin 1024), i = ix3 b n o := ⟨i 0, i 1, i 2, eq_ix3 i⟩
  exact s45_apply a0 a1 a2 a3 a4 b n o

end Cert.ReferenceIdeal.RefRead

end
-- ==== Proof.PreDecode.lean ====
/-
  The precondition read back. `finite_inputs` is the conjunction of four tests |x| < +∞ over every entry of the
  four float arrays and of the two signed tests 0 ≤ e and e < 8 over every entry of the integer array, each
  reduced by `and` over the whole array. That it is all ones says: every float entry is a real number, and every
  integer entry, read unsigned, is below 8.
-/
import proofs.«166787_g36747740185073_cont_sun_m_199_12_alg».proof.Defs
import proofs.«166787_g36747740185073_cont_sun_m_199_12_alg».proof.Pre_finite_inputs
import proofs.«166787_g36747740185073_cont_sun_m_199_12_alg».proof.Proof.Gen.Pre_finite_inputs
import Idealize.ShloMosaic.Lib.ReduceAll
import Idealize.ShloMosaic.Lib.ValueIdx
import Idealize.ShloMosaic.PureOps.Ideal

noncomputable section

namespace Cert.PreDecode

open Idealize.ShloMosaic Idealize.SL.Sem Cert.Pre_finite_inputs Cert.Pre_finite_inputs.Gen

/-- A shape of rank zero has one index. -/
instance : Subsingleton S_.Idx := ⟨fun a b => funext fun d => d.elim0⟩

/-- The pattern 0x7F800000 denotes +∞. -/
theorem inf_eq_top : Ideal.ofBits .f32 0x7F800000#32 = (⊤ : EReal) := by simp [Ideal.ofBits, Ideal.ieee]

/-- An extended real whose absolute value is below +∞ is a real number. -/
theorem real_of_abs_lt_top (x : EReal) (h : max x (-x) < ⊤) : ∃ r : ℝ, x = (r : EReal) := by
  induction x using EReal.rec with
  | bot => simp at h
  | coe r => exact ⟨r, rfl⟩
  | top => simp at h

/-- The element test |x| < +∞, as the ideal instance reads it, says that x is a real number. -/
theorem real_of_finite (x : Ideal .f32)
    (h : FloatOps.cmpf (F := Ideal) .olt (FloatOps.hostAbsf x) (FloatOps.ofBits .f32 0x7F800000#32) = 1#1) :
    ∃ r : ℝ, x = (r : EReal) := by
  change Ideal.cmp .olt (max x (-x)) (Ideal.ofBits .f32 0x7F800000#32) = 1#1 at h
  rw [inf_eq_top] at h
  have h' : max x (-x) < (⊤ : EReal) := by
    by_contra hn
    simp [Ideal.cmp, hn] at h
  exact real_of_abs_lt_top x h'

/-- A 32-bit word that is at least 0 and below 8 as a signed number is below 8 as an unsigned one. -/
theorem toNat_lt_eight (w : BitVec 32) (h0 : (0#32 : BitVec 32).toInt ≤ w.toInt) (h8 : w.toInt < (8#32 : BitVec 32).toInt) :
    w.toNat < 8 := by
  have e0 : (0#32 : BitVec 32).toInt = 0 := by decide
  have e8 : (8#32 : BitVec 32).toInt = 8 := by decide
  rw [e0] at h0
  rw [e8] at h8
  have h32 := w.isLt
  unfold BitVec.toInt at h0 h8
  split at h8 <;> omega

/-- The precondition decoded over any five operands of the arguments' types. -/
theorem decode (a0 : FVec Ideal S2x2048x1024 .f32) (a1 : IVec S2x2048 32) (a2 : FVec Ideal S3072x1024 .f32)
    (a3 : FVec Ideal S1024x1024 .f32) (a4 : FVec Ideal S1024 .f32)
    (h : Cert.Pre_finite_inputs.fn (F := Ideal) a0 a1 a2 a3 a4 = fun _ => 1#1) :
    (∀ i, ∃ r : ℝ, a0 i = (r : EReal)) ∧ (∀ i, ∃ r : ℝ, a2 i = (r : EReal)) ∧ (∀ i, ∃ r : ℝ, a3 i = (r : EReal))
      ∧ (∀ i, ∃ r : ℝ, a4 i = (r : EReal)) ∧ (∀ i, (a1 i).toNat < 8) := by
  have e := congrFun h ValueIdx.ix0
  dsimp only [Cert.Pre_finite_inputs.fn, Cert.Pre_finite_inputs.fn_part1] at e
  obtain ⟨e18, h24⟩ := IntOp.andi_eq_one.1 e
  obtain ⟨e13, h17⟩ := IntOp.andi_eq_one.1 e18
  obtain ⟨e8, h12⟩ := IntOp.andi_eq_one.1 e13
  obtain ⟨h3, h7⟩ := IntOp.andi_eq_one.1 e8
  refine ⟨fun i => ?_, fun i => ?_, fun i => ?_, fun i => ?_, fun i => ?_⟩
  · exact real_of_finite (a0 i) (Host.reduce_andi_all _ _ _ _ _ h3 i)
  · exact real_of_finite (a2 i) (Host.reduce_andi_all _ _ _ _ _ h7 i)
  · exact real_of_finite (a3 i) (Host.reduce_andi_all _ _ _ _ _ h12 i)
  · exact real_of_finite (a4 i) (Host.reduce_andi_all _ _ _ _ _ h17 i)
  · obtain ⟨hge, hlt⟩ := IntOp.andi_eq_one.1 (Host.reduce_andi_all _ _ _ _ _ h24 i)
    exact toNat_lt_eight (a1 i) (IntOp.cmpi_sge.1 hge) (IntOp.cmpi_slt.1 hlt)

/-- The precondition of `KernelIdeal`'s launch memory, decoded on every device. -/
theorem of_pre_KernelIdeal (m : (ℓ : Loc Cert.KernelIdeal.nD Cert.KernelIdeal.τ Cert.KernelIdeal.sig) → Buf (Elt Ideal) ℓ) (h : Cert.Pre_KernelIdeal m) (c : Dev Cert.KernelIdeal.nD) :
    (∀ i : Cert.KernelIdeal.S2x2048x1024.Idx, ∃ r : ℝ, m ((c.tc : Thread Cert.KernelIdeal.nD Cert.KernelIdeal.τ).loc Cert.KernelIdeal.main_arg0) i = (r : EReal))
    ∧ (∀ i : Cert.KernelIdeal.S3072x1024.Idx, ∃ r : ℝ, m ((c.tc : Thread Cert.KernelIdeal.nD Cert.KernelIdeal.τ).loc Cert.KernelIdeal.main_arg2) i = (r : EReal))
    ∧ (∀ i : Cert.KernelIdeal.S1024x1024.Idx, ∃ r : ℝ, m ((c.tc : Thread Cert.KernelIdeal.nD Cert.KernelIdeal.τ).loc Cert.KernelIdeal.main_arg3) i = (r : EReal))
    ∧ (∀ i : Cert.KernelIdeal.S1024.Idx, ∃ r : ℝ, m ((c.tc : Thread Cert.KernelIdeal.nD Cert.KernelIdeal.τ).loc Cert.KernelIdeal.main_arg4) i = (r : EReal))
    ∧ (∀ i : Cert.KernelIdeal.S2x2048.Idx, (m ((c.tc : Thread Cert.KernelIdeal.nD Cert.KernelIdeal.τ).loc Cert.KernelIdeal.main_arg1) i).toNat < 8) :=
  decode _ _ _ _ _ (h c)

/-- The precondition of `ReferenceIdeal`'s launch memory, decoded on every device. -/
theorem of_pre_ReferenceIdeal (m : (ℓ : Loc Cert.ReferenceIdeal.nD Cert.ReferenceIdeal.τ Cert.ReferenceIdeal.sig) → Buf (Elt Ideal) ℓ) (h : Cert.Pre_ReferenceIdeal m) (c : Dev Cert.ReferenceIdeal.nD) :
    (∀ i : Cert.ReferenceIdeal.S2x2048x1024.Idx, ∃ r : ℝ, m ((c.tc : Thread Cert.ReferenceIdeal.nD Cert.ReferenceIdeal.τ).loc Cert.ReferenceIdeal.main_arg0) i = (r : EReal))
    ∧ (∀ i : Cert.ReferenceIdeal.S3072x1024.Idx, ∃ r : ℝ, m ((c.tc : Thread Cert.ReferenceIdeal.nD Cert.ReferenceIdeal.τ).loc Cert.ReferenceIdeal.main_arg2) i = (r : EReal))
    ∧ (∀ i : Cert.ReferenceIdeal.S1024x1024.Idx, ∃ r : ℝ, m ((c.tc : Thread Cert.ReferenceIdeal.nD Cert.ReferenceIdeal.τ).loc Cert.ReferenceIdeal.main_arg3) i = (r : EReal))
    ∧ (∀ i : Cert.ReferenceIdeal.S1024.Idx, ∃ r : ℝ, m ((c.tc : Thread Cert.ReferenceIdeal.nD Cert.ReferenceIdeal.τ).loc Cert.ReferenceIdeal.main_arg4) i = (r : EReal))
    ∧ (∀ i : Cert.ReferenceIdeal.S2x2048.Idx, (m ((c.tc : Thread Cert.ReferenceIdeal.nD Cert.ReferenceIdeal.τ).loc Cert.ReferenceIdeal.main_arg1) i).toNat < 8) :=
  decode _ _ _ _ _ (h c)

end Cert.PreDecode

end
-- ==== Proof.LibMatAssoc.lean ====
/-
  Reassociating a product of three matrices over the extended reals.

  Over the extended reals multiplication does not distribute over addition at the infinities, so the two
  groupings `(A · X) · W` and `A · (X · W)` of a triple product need not agree entry by entry.  When every entry
  is a real number both groupings are the same real: the sums and products are computed in `ℝ`, where the
  identity is distributivity and an exchange of the two finite sums.
-/
import Mathlib

namespace MatAssoc

open Finset

/-- The coercion `ℝ → EReal` of a finite sum of reals is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Over the reals: `∑ₖ (∑ᵢ aᵢ xᵢₖ) wₖ = ∑ᵢ aᵢ ∑ₖ xᵢₖ wₖ`. -/
theorem real_assoc {ι κ : Type*} [Fintype ι] [Fintype κ] (a : ι → ℝ) (x : ι → κ → ℝ) (w : κ → ℝ) :
    ∑ k, (∑ i, a i * x i k) * w k = ∑ i, a i * ∑ k, x i k * w k := by
  simp only [Finset.sum_mul, Finset.mul_sum]
  rw [Finset.sum_comm]
  exact Finset.sum_congr rfl fun i _ => Finset.sum_congr rfl fun k _ => mul_assoc _ _ _

/-- One row of `(A · X) · W` against the same row of `A · (X · W)` over the extended reals, every entry a real:
    `∑ₖ (∑ᵢ aᵢ xᵢₖ) wₖ = ∑ᵢ aᵢ ∑ₖ xᵢₖ wₖ`. -/
theorem ereal_assoc {ι κ : Type*} [Fintype ι] [Fintype κ] (a : ι → EReal) (x : ι → κ → EReal) (w : κ → EReal)
    (ha : ∀ i, a i ≠ ⊤ ∧ a i ≠ ⊥) (hx : ∀ i k, x i k ≠ ⊤ ∧ x i k ≠ ⊥) (hw : ∀ k, w k ≠ ⊤ ∧ w k ≠ ⊥) :
    ∑ k, (∑ i, a i * x i k) * w k = ∑ i, a i * ∑ k, x i k * w k := by
  lift a to ι → ℝ using ha
  lift w to κ → ℝ using hw
  obtain ⟨x', hx'⟩ : ∃ x' : ι → κ → ℝ, ∀ i k, x i k = (x' i k : EReal) :=
    ⟨fun i k => (x i k).toReal, fun i k => (EReal.coe_toReal (hx i k).1 (hx i k).2).symm⟩
  simp only [hx', ← EReal.coe_mul, ← coe_sum]
  exact congrArg _ (real_assoc a x' w)

end MatAssoc
-- ==== Proof.AttnAlgebra1.lean ====
/-
  Real-valued twins of the folded arrangement of nested attention, and the proof that, on inputs that are
  coercions of reals, every quantity of the folded arrangement is the coercion of its twin.

  Over the extended reals multiplication does not distribute over addition at the infinities, so the algebra that
  joins the two arrangements is carried out in `ℝ`.  This file provides the bridge for the folded arrangement:
  the coercion `ℝ → EReal` commutes with finite sums, products, differences, the supremum of a nonempty finite
  family, the exponential, and the quotient by a nonzero real.
-/
import proofs.«166787_g36747740185073_cont_sun_m_199_12_alg».proof.Proof.Spec
import proofs.«166787_g36747740185073_cont_sun_m_199_12_alg».proof.Proof.LibMatAssoc

noncomputable section

namespace Cert.AttnAlg

open Idealize.ShloMosaic Cert.AttnSpec

/-! ## The coercion and the supremum -/

/-- The coercion of the supremum of a nonempty finite family of reals is the supremum, in the extended reals, of
    the coercions. -/
theorem coe_sup' {ι : Type*} (s : Finset ι) (H : s.Nonempty) (f : ι → ℝ) :
    ((s.sup' H f : ℝ) : EReal) = s.sup fun i => (f i : EReal) := by
  rw [← Finset.sup'_eq_sup H]
  exact Finset.comp_sup'_eq_sup'_comp H (fun r : ℝ => (r : EReal)) (fun a b => EReal.coe_strictMono.monotone.map_max)

/-- A real quotient, coerced, is the coerced numerator times the coerced reciprocal. -/
theorem coe_div_eq (s l : ℝ) : ((s / l : ℝ) : EReal) = (s : EReal) * ((1 / l : ℝ) : EReal) := by
  rw [← EReal.coe_mul, ← div_eq_mul_one_div]

/-! ## Coerced inputs -/

/-- A real array of one, two or three coordinates read as an array of extended reals. -/
abbrev up1 {α : Type*} (v : α → ℝ) : α → EReal := fun a => (v a : EReal)
abbrev up2 {α β : Type*} (w : α → β → ℝ) : α → β → EReal := fun a b => (w a b : EReal)
abbrev up3 {α β γ : Type*} (x : α → β → γ → ℝ) : α → β → γ → EReal := fun a b c => (x a b c : EReal)

variable (x : Fin 2 → Fin 2048 → Fin 1024 → ℝ) (M : Fin 2 → Fin 2048 → Fin 1024 → Bool)
  (wq : Fin 3072 → Fin 1024 → ℝ) (wp : Fin 1024 → Fin 1024 → ℝ) (bp : Fin 1024 → ℝ)

/-! ## The folded arrangement over the reals -/

def kxmR (b : Fin 2) (n : Fin 2048) (d : Fin 1024) : ℝ := if M b n d then x b n d else 0
def kwR (f : Fin 3072) (d : Fin 1024) : ℝ := if f.val < 1024 then wq f d * 0.125 else wq f d
def kqkvR (f : Fin 3072) (b : Fin 2) (n : Fin 2048) : ℝ := ∑ d : Fin 1024, kwR wq f d * kxmR x M b n d
def ksR (b : Fin 2) (h : Fin 16) (q k : Fin 2048) : ℝ :=
  ∑ d : Fin 64, kqkvR x M wq (feat 0 h d) b q * kqkvR x M wq (feat 1 h d) b k
def kmaxR (b : Fin 2) (h : Fin 16) (q : Fin 2048) : ℝ :=
  Finset.univ.sup' Finset.univ_nonempty fun k : Fin 2048 => ksR x M wq b h q k
def kpR (b : Fin 2) (h : Fin 16) (q k : Fin 2048) : ℝ := Real.exp (ksR x M wq b h q k - kmaxR x M wq b h q)
def klR (b : Fin 2) (h : Fin 16) (q : Fin 2048) : ℝ := ∑ k : Fin 2048, kpR x M wq b h q k
def koR (b : Fin 2) (h : Fin 16) (q : Fin 2048) (d : Fin 64) : ℝ :=
  (∑ k : Fin 2048, kpR x M wq b h q k * kqkvR x M wq (feat 2 h d) b k) / klR x M wq b h q
def kcR (b : Fin 2) (h : Fin 16) (q : Fin 2048) (o : Fin 1024) : ℝ :=
  ∑ d : Fin 64, koR x M wq b h q d * wp o (col h d)
def KGR (b : Fin 2) (q : Fin 2048) (o : Fin 1024) : ℝ :=
  if M b q o then (∑ h : Fin 16, kcR x M wq wp b h q o) + bp o else 0

/-! ## Each quantity of the folded arrangement is the coercion of its twin -/

theorem kxm_coe (b : Fin 2) (n : Fin 2048) (d : Fin 1024) :
    kxm (up3 x) M b n d = (kxmR x M b n d : EReal) := by
  unfold kxm kxmR
  split_ifs
  · rfl
  · rfl

theorem kw_coe (f : Fin 3072) (d : Fin 1024) : kw (up2 wq) f d = (kwR wq f d : EReal) := by
  unfold kw kwR eighth
  split_ifs
  · exact (EReal.coe_mul _ _).symm
  · rfl

theorem kqkv_coe (f : Fin 3072) (b : Fin 2) (n : Fin 2048) :
    kqkv (up3 x) M (up2 wq) f b n = (kqkvR x M wq f b n : EReal) := by
  unfold kqkv kqkvR
  rw [MatAssoc.coe_sum]
  refine Finset.sum_congr rfl fun d _ => ?_
  rw [kw_coe, kxm_coe, EReal.coe_mul]

theorem ks_coe (b : Fin 2) (h : Fin 16) (q k : Fin 2048) :
    ks (up3 x) M (up2 wq) b h q k = (ksR x M wq b h q k : EReal) := by
  unfold ks ksR
  rw [MatAssoc.coe_sum]
  refine Finset.sum_congr rfl fun d _ => ?_
  rw [kqkv_coe, kqkv_coe, EReal.coe_mul]

theorem kmax_coe (b : Fin 2) (h : Fin 16) (q : Fin 2048) :
    kmax (up3 x) M (up2 wq) b h q = (kmaxR x M wq b h q : EReal) := by
  unfold kmax kmaxR
  simp only [ks_coe]
  exact (coe_sup' _ _ _).symm

theorem kp_coe (b : Fin 2) (h : Fin 16) (q k : Fin 2048) :
    kp (up3 x) M (up2 wq) b h q k = (kpR x M wq b h q k : EReal) := by
  unfold kp kpR
  rw [ks_coe, kmax_coe, ← EReal.coe_sub, Ideal.exp_coe]

theorem kl_coe (b : Fin 2) (h : Fin 16) (q : Fin 2048) :
    kl (up3 x) M (up2 wq) b h q = (klR x M wq b h q : EReal) := by
  unfold kl klR
  rw [MatAssoc.coe_sum]
  exact Finset.sum_congr rfl fun k _ => kp_coe x M wq b h q k

/-- The softmax denominator is a sum of 2048 exponentials, hence positive. -/
theorem klR_pos (b : Fin 2) (h : Fin 16) (q : Fin 2048) : 0 < klR x M wq b h q := by
  unfold klR
  exact Finset.sum_pos (fun k _ => by unfold kpR; exact Real.exp_pos _) Finset.univ_nonempty

theorem ko_coe (b : Fin 2) (h : Fin 16) (q : Fin 2048) (d : Fin 64) :
    ko (up3 x) M (up2 wq) b h q d = (koR x M wq b h q d : EReal) := by
  unfold ko koR
  rw [kl_coe, Ideal.div_coe (klR_pos x M wq b h q).ne']
  refine Eq.trans ?_ (coe_div_eq _ _).symm
  rw [MatAssoc.coe_sum]
  refine congrArg (fun t : EReal => t * ((1 / klR x M wq b h q : ℝ) : EReal)) ?_
  refine Finset.sum_congr rfl fun k _ => ?_
  rw [kp_coe, kqkv_coe, EReal.coe_mul]

theorem kc_coe (b : Fin 2) (h : Fin 16) (q : Fin 2048) (o : Fin 1024) :
    kc (up3 x) M (up2 wq) (up2 wp) b h q o = (kcR x M wq wp b h q o : EReal) := by
  unfold kc kcR
  rw [MatAssoc.coe_sum]
  refine Finset.sum_congr rfl fun d _ => ?_
  rw [ko_coe, EReal.coe_mul]

theorem KG_coe (b : Fin 2) (q : Fin 2048) (o : Fin 1024) :
    KG (up3 x) M (up2 wq) (up2 wp) (up1 bp) b q o = (KGR x M wq wp bp b q o : EReal) := by
  unfold KG KGR
  split_ifs
  · rw [EReal.coe_add, MatAssoc.coe_sum]
    refine congrArg (fun t : EReal => t + (bp o : EReal)) ?_
    exact Finset.sum_congr rfl fun h _ => kc_coe x M wq wp b h q o
  · rfl

end Cert.AttnAlg

end
-- ==== Proof.AttnAlgebra2.lean ====
/-
  Real-valued twins of the textbook arrangement of nested attention, and the proof that, on inputs that are
  coercions of reals, every quantity of the textbook arrangement is the coercion of its twin.
-/
import proofs.«166787_g36747740185073_cont_sun_m_199_12_alg».proof.Proof.AttnAlgebra1

noncomputable section

namespace Cert.AttnAlg

open Idealize.ShloMosaic Cert.AttnSpec

variable (x : Fin 2 → Fin 2048 → Fin 1024 → ℝ) (M : Fin 2 → Fin 2048 → Fin 1024 → Bool)
  (wq : Fin 3072 → Fin 1024 → ℝ) (wp : Fin 1024 → Fin 1024 → ℝ) (bp : Fin 1024 → ℝ)

/-! ## The textbook arrangement over the reals -/

def fmR (b : Fin 2) (n : Fin 2048) (d : Fin 1024) : ℝ := if M b n d then 1 else 0
def rxmR (b : Fin 2) (n : Fin 2048) (d : Fin 1024) : ℝ := x b n d * fmR M b n d
def rqkvR (b : Fin 2) (n : Fin 2048) (f : Fin 3072) : ℝ := ∑ d : Fin 1024, rxmR x M b n d * wq f d
def raR (b : Fin 2) (h : Fin 16) (q k : Fin 2048) : ℝ :=
  (∑ d : Fin 64, rqkvR x M wq b q (feat 0 h d) * rqkvR x M wq b k (feat 1 h d)) * 0.125
def rmaxR (b : Fin 2) (h : Fin 16) (q : Fin 2048) : ℝ :=
  Finset.univ.sup' Finset.univ_nonempty fun k : Fin 2048 => raR x M wq b h q k
def ruR (b : Fin 2) (h : Fin 16) (q k : Fin 2048) : ℝ := Real.exp (raR x M wq b h q k - rmaxR x M wq b h q)
def rzR (b : Fin 2) (h : Fin 16) (q : Fin 2048) : ℝ := ∑ k : Fin 2048, ruR x M wq b h q k
def rsmR (b : Fin 2) (h : Fin 16) (q k : Fin 2048) : ℝ := ruR x M wq b h q k / rzR x M wq b h q
def rxR (b : Fin 2) (h : Fin 16) (q : Fin 2048) (d : Fin 64) : ℝ :=
  ∑ k : Fin 2048, rsmR x M wq b h q k * rqkvR x M wq b k (feat 2 h d)
def rcatR (b : Fin 2) (n : Fin 2048) (c : Fin 1024) : ℝ :=
  rxR x M wq b ⟨c.val / 64, by omega⟩ n ⟨c.val % 64, by omega⟩
def ryR (b : Fin 2) (n : Fin 2048) (o : Fin 1024) : ℝ := (∑ c : Fin 1024, rcatR x M wq b n c * wp o c) + bp o
def RGR (b : Fin 2) (n : Fin 2048) (o : Fin 1024) : ℝ := ryR x M wq wp bp b n o * fmR M b n o

/-! ## Each quantity of the textbook arrangement is the coercion of its twin -/

theorem fm_coe (b : Fin 2) (n : Fin 2048) (d : Fin 1024) : fm M b n d = (fmR M b n d : EReal) := by
  unfold fm fmR
  split_ifs
  · rfl
  · rfl

theorem rxm_coe (b : Fin 2) (n : Fin 2048) (d : Fin 1024) :
    rxm (up3 x) M b n d = (rxmR x M b n d : EReal) := by
  unfold rxm rxmR
  rw [fm_coe, EReal.coe_mul]

theorem rqkv_coe (b : Fin 2) (n : Fin 2048) (f : Fin 3072) :
    rqkv (up3 x) M (up2 wq) b n f = (rqkvR x M wq b n f : EReal) := by
  unfold rqkv rqkvR
  rw [MatAssoc.coe_sum]
  refine Finset.sum_congr rfl fun d _ => ?_
  rw [rxm_coe, EReal.coe_mul]

theorem ra_coe (b : Fin 2) (h : Fin 16) (q k : Fin 2048) :
    ra (up3 x) M (up2 wq) b h q k = (raR x M wq b h q k : EReal) := by
  unfold ra raR eighth
  rw [EReal.coe_mul, MatAssoc.coe_sum]
  refine congrArg (fun t : EReal => t * ((0.125 : ℝ) : EReal)) ?_
  refine Finset.sum_congr rfl fun d _ => ?_
  rw [rqkv_coe, rqkv_coe, EReal.coe_mul]

theorem rmax_coe (b : Fin 2) (h : Fin 16) (q : Fin 2048) :
    rmax (up3 x) M (up2 wq) b h q = (rmaxR x M wq b h q : EReal) := by
  unfold rmax rmaxR
  simp only [ra_coe]
  exact (coe_sup' _ _ _).symm

theorem ru_coe (b : Fin 2) (h : Fin 16) (q k : Fin 2048) :
    ru (up3 x) M (up2 wq) b h q k = (ruR x M wq b h q k : EReal) := by
  unfold ru ruR
  rw [ra_coe, rmax_coe, ← EReal.coe_sub, Ideal.exp_coe]

theorem rz_coe (b : Fin 2) (h : Fin 16) (q : Fin 2048) :
    rz (up3 x) M (up2 wq) b h q = (rzR x M wq b h q : EReal) := by
  unfold rz rzR
  rw [MatAssoc.coe_sum]
  exact Finset.sum_congr rfl fun k _ => ru_coe x M wq b h q k

/-- The softmax denominator is a sum of 2048 exponentials, hence positive. -/
theorem rzR_pos (b : Fin 2) (h : Fin 16) (q : Fin 2048) : 0 < rzR x M wq b h q := by
  unfold rzR
  exact Finset.sum_pos (fun k _ => by unfold ruR; exact Real.exp_pos _) Finset.univ_nonempty

theorem rsm_coe (b : Fin 2) (h : Fin 16) (q k : Fin 2048) :
    rsm (up3 x) M (up2 wq) b h q k = (rsmR x M wq b h q k : EReal) := by
  unfold rsm rsmR
  rw [rz_coe, Ideal.div_coe (rzR_pos x M wq b h q).ne', ru_coe]
  exact (coe_div_eq _ _).symm

theorem rx_coe (b : Fin 2) (h : Fin 16) (q : Fin 2048) (d : Fin 64) :
    rx (up3 x) M (up2 wq) b h q d = (rxR x M wq b h q d : EReal) := by
  unfold rx rxR
  rw [MatAssoc.coe_sum]
  refine Finset.sum_congr rfl fun k _ => ?_
  rw [rsm_coe, rqkv_coe, EReal.coe_mul]

theorem rcat_coe (b : Fin 2) (n : Fin 2048) (c : Fin 1024) :
    rcat (up3 x) M (up2 wq) b n c = (rcatR x M wq b n c : EReal) := by
  unfold rcat rcatR
  exact rx_coe x M wq b _ n _

theorem ry_coe (b : Fin 2) (n : Fin 2048) (o : Fin 1024) :
    ry (up3 x) M (up2 wq) (up2 wp) (up1 bp) b n o = (ryR x M wq wp bp b n o : EReal) := by
  unfold ry ryR
  rw [EReal.coe_add, MatAssoc.coe_sum]
  refine congrArg (fun t : EReal => t + (bp o : EReal)) ?_
  refine Finset.sum_congr rfl fun c _ => ?_
  rw [rcat_coe, EReal.coe_mul]

theorem RG_coe (b : Fin 2) (n : Fin 2048) (o : Fin 1024) :
    RG (up3 x) M (up2 wq) (up2 wp) (up1 bp) b n o = (RGR x M wq wp bp b n o : EReal) := by
  unfold RG RGR
  rw [ry_coe, fm_coe, EReal.coe_mul]

end Cert.AttnAlg

end
-- ==== Proof.LibSumDigits.lean ====
/-
  Re-indexing a finite sum by mixed-radix digits, in any additive commutative monoid.

  Every `r < m * n` is `a * n + b` for exactly one pair of digits `a < m`, `b < n`, so a sum over
  `Fin (m * n)` is the double sum over the two digits (`sum_fin_mul`).  Applying this three times, a
  sum over `Fin (n₁ * n₂ * n₃ * n₄)` is the fourfold sum over the digits of
  `r = ((a * n₂ + b) * n₃ + c) * n₄ + d` (`sum_fin_mul4`).  Last, four nested sums may be reordered
  by moving the outer pair of summation variables inside the inner pair (`sum_comm4`).
-/
import Mathlib.Algebra.BigOperators.Fin
import Mathlib.Logic.Equiv.Fin.Basic
import Mathlib.Tactic.Ring

open scoped BigOperators

namespace Cert.SumDigits

variable {M : Type*} [AddCommMonoid M]

/-- A two-digit numeral with digits `a < m` and `b < n` is below `m * n`. -/
theorem digits_lt {m n : ℕ} (a : Fin m) (b : Fin n) : a.val * n + b.val < m * n :=
  calc a.val * n + b.val < a.val * n + n := Nat.add_lt_add_left b.isLt _
    _ = (a.val + 1) * n := by ring
    _ ≤ m * n := Nat.mul_le_mul_right n a.isLt

/-- A sum over `Fin N` with `N = m * n` is the double sum over the digits `a < m`, `b < n` of
    `r = a * n + b`. -/
theorem sum_fin_mul {m n N : ℕ} (hN : m * n = N) (f : Fin N → M) :
    ∑ r : Fin N, f r = ∑ a : Fin m, ∑ b : Fin n, f ⟨a.val * n + b.val, hN ▸ digits_lt a b⟩ := by
  subst hN
  rw [← Equiv.sum_comp finProdFinEquiv f, Fintype.sum_prod_type]
  refine Finset.sum_congr rfl fun a _ => Finset.sum_congr rfl fun b _ => ?_
  congr 1
  ext
  simp only [finProdFinEquiv_apply_val]
  ring

/-- A four-digit numeral with digits `a < n₁`, `b < n₂`, `c < n₃`, `d < n₄` is below
    `n₁ * n₂ * n₃ * n₄`. -/
theorem digits4_lt {n₁ n₂ n₃ n₄ : ℕ} (a : Fin n₁) (b : Fin n₂) (c : Fin n₃) (d : Fin n₄) :
    ((a.val * n₂ + b.val) * n₃ + c.val) * n₄ + d.val < n₁ * n₂ * n₃ * n₄ :=
  digits_lt (⟨_, digits_lt (⟨_, digits_lt a b⟩ : Fin (n₁ * n₂)) c⟩ : Fin (n₁ * n₂ * n₃)) d

/-- A sum over `Fin N` with `N = n₁ * n₂ * n₃ * n₄` is the fourfold sum over the digits of
    `r = ((a * n₂ + b) * n₃ + c) * n₄ + d`. -/
theorem sum_fin_mul4 {n₁ n₂ n₃ n₄ N : ℕ} (hN : n₁ * n₂ * n₃ * n₄ = N) (f : Fin N → M) :
    ∑ r : Fin N, f r = ∑ a : Fin n₁, ∑ b : Fin n₂, ∑ c : Fin n₃, ∑ d : Fin n₄,
      f ⟨((a.val * n₂ + b.val) * n₃ + c.val) * n₄ + d.val, hN ▸ digits4_lt a b c d⟩ := by
  subst hN
  rw [sum_fin_mul (m := n₁ * n₂ * n₃) (n := n₄) rfl f,
    sum_fin_mul (m := n₁ * n₂) (n := n₃) rfl
      (fun p : Fin (n₁ * n₂ * n₃) => ∑ d : Fin n₄, f ⟨p.val * n₄ + d.val, digits_lt p d⟩),
    sum_fin_mul (m := n₁) (n := n₂) rfl
      (fun q : Fin (n₁ * n₂) => ∑ c : Fin n₃, ∑ d : Fin n₄,
        f ⟨(q.val * n₃ + c.val) * n₄ + d.val,
          digits_lt (⟨_, digits_lt q c⟩ : Fin (n₁ * n₂ * n₃)) d⟩)]

/-- Four nested finite sums: the outer two summation variables may be moved inside the inner two. -/
theorem sum_comm4 {α β γ δ : Type*} [Fintype α] [Fintype β] [Fintype γ] [Fintype δ]
    (g : α → β → γ → δ → M) :
    ∑ a, ∑ b, ∑ c, ∑ d, g a b c d = ∑ c, ∑ d, ∑ a, ∑ b, g a b c d :=
  calc ∑ a, ∑ b, ∑ c, ∑ d, g a b c d
      = ∑ a, ∑ c, ∑ b, ∑ d, g a b c d := Finset.sum_congr rfl fun _ _ => Finset.sum_comm
    _ = ∑ c, ∑ a, ∑ b, ∑ d, g a b c d := Finset.sum_comm
    _ = ∑ c, ∑ a, ∑ d, ∑ b, g a b c d :=
        Finset.sum_congr rfl fun _ _ => Finset.sum_congr rfl fun _ _ => Finset.sum_comm
    _ = ∑ c, ∑ d, ∑ a, ∑ b, g a b c d := Finset.sum_congr rfl fun _ _ => Finset.sum_comm

end Cert.SumDigits
-- ==== Proof.AttnAlgebra3.lean ====
/-
  The two arrangements of nested attention agree over the reals.

  The folded arrangement multiplies the query rows of the projection by 1/8 before projecting, the textbook one
  multiplies the scores by 1/8: the factor moves out of the two finite sums.  The folded arrangement divides the
  weighted sum of the values by the softmax denominator, the textbook one divides each weight first: a quotient of
  a finite sum is the sum of the quotients.  The folded arrangement adds up the output projection head by head
  over 16 blocks of 64 columns, the textbook one sums over the 1024 columns: every column is `h·64 + d` for one
  pair `(h, d)`.  The masks agree because `y·1 = y` and `y·0 = 0`.
-/
import proofs.«166787_g36747740185073_cont_sun_m_199_12_alg».proof.Proof.AttnAlgebra2
import proofs.«166787_g36747740185073_cont_sun_m_199_12_alg».proof.Proof.LibSumDigits

noncomputable section

namespace Cert.AttnAlg

open Idealize.ShloMosaic Cert.AttnSpec

variable (x : Fin 2 → Fin 2048 → Fin 1024 → ℝ) (M : Fin 2 → Fin 2048 → Fin 1024 → Bool)
  (wq : Fin 3072 → Fin 1024 → ℝ) (wp : Fin 1024 → Fin 1024 → ℝ) (bp : Fin 1024 → ℝ)

/-! ## The masked tokens and the projection -/

theorem kxmR_eq (b : Fin 2) (n : Fin 2048) (d : Fin 1024) : kxmR x M b n d = rxmR x M b n d := by
  unfold kxmR rxmR fmR
  split_ifs
  · rw [mul_one]
  · rw [mul_zero]

theorem feat0_val (h : Fin 16) (d : Fin 64) : (feat 0 h d).val = h.val * 64 + d.val := by
  show (0 : Fin 3).val * 1024 + h.val * 64 + d.val = _
  rw [show (0 : Fin 3).val = 0 from rfl]; omega

theorem feat1_val (h : Fin 16) (d : Fin 64) : (feat 1 h d).val = 1024 + h.val * 64 + d.val := by
  show (1 : Fin 3).val * 1024 + h.val * 64 + d.val = _
  rw [show (1 : Fin 3).val = 1 from rfl]

theorem feat2_val (h : Fin 16) (d : Fin 64) : (feat 2 h d).val = 2048 + h.val * 64 + d.val := by
  show (2 : Fin 3).val * 1024 + h.val * 64 + d.val = _
  rw [show (2 : Fin 3).val = 2 from rfl]

/-- On the query slab the folded projection carries the scale. -/
theorem kwR_q (h : Fin 16) (d : Fin 64) (e : Fin 1024) :
    kwR wq (feat 0 h d) e = wq (feat 0 h d) e * 0.125 := by
  unfold kwR
  rw [if_pos (by rw [feat0_val]; omega)]

theorem kwR_k (h : Fin 16) (d : Fin 64) (e : Fin 1024) : kwR wq (feat 1 h d) e = wq (feat 1 h d) e := by
  unfold kwR
  rw [if_neg (by rw [feat1_val]; omega)]

theorem kwR_v (h : Fin 16) (d : Fin 64) (e : Fin 1024) : kwR wq (feat 2 h d) e = wq (feat 2 h d) e := by
  unfold kwR
  rw [if_neg (by rw [feat2_val]; omega)]

theorem kqkvR_q (h : Fin 16) (d : Fin 64) (b : Fin 2) (n : Fin 2048) :
    kqkvR x M wq (feat 0 h d) b n = rqkvR x M wq b n (feat 0 h d) * 0.125 := by
  unfold kqkvR rqkvR
  rw [Finset.sum_mul]
  refine Finset.sum_congr rfl fun e _ => ?_
  rw [kwR_q, kxmR_eq]; ring

theorem kqkvR_k (h : Fin 16) (d : Fin 64) (b : Fin 2) (n : Fin 2048) :
    kqkvR x M wq (feat 1 h d) b n = rqkvR x M wq b n (feat 1 h d) := by
  unfold kqkvR rqkvR
  refine Finset.sum_congr rfl fun e _ => ?_
  rw [kwR_k, kxmR_eq, mul_comm]

theorem kqkvR_v (h : Fin 16) (d : Fin 64) (b : Fin 2) (n : Fin 2048) :
    kqkvR x M wq (feat 2 h d) b n = rqkvR x M wq b n (feat 2 h d) := by
  unfold kqkvR rqkvR
  refine Finset.sum_congr rfl fun e _ => ?_
  rw [kwR_v, kxmR_eq, mul_comm]

/-! ## Scores, softmax numerator and denominator -/

theorem ksR_eq (b : Fin 2) (h : Fin 16) (q k : Fin 2048) : ksR x M wq b h q k = raR x M wq b h q k := by
  unfold ksR raR
  rw [Finset.sum_mul]
  refine Finset.sum_congr rfl fun d _ => ?_
  rw [kqkvR_q, kqkvR_k]; ring

theorem kmaxR_eq (b : Fin 2) (h : Fin 16) (q : Fin 2048) : kmaxR x M wq b h q = rmaxR x M wq b h q := by
  unfold kmaxR rmaxR
  simp only [ksR_eq]

theorem kpR_eq (b : Fin 2) (h : Fin 16) (q k : Fin 2048) : kpR x M wq b h q k = ruR x M wq b h q k := by
  unfold kpR ruR
  rw [ksR_eq, kmaxR_eq]

theorem klR_eq (b : Fin 2) (h : Fin 16) (q : Fin 2048) : klR x M wq b h q = rzR x M wq b h q := by
  unfold klR rzR
  exact Finset.sum_congr rfl fun k _ => kpR_eq x M wq b h q k

/-! ## The weighted values -/

theorem koR_eq (b : Fin 2) (h : Fin 16) (q : Fin 2048) (d : Fin 64) :
    koR x M wq b h q d = rxR x M wq b h q d := by
  unfold koR rxR rsmR
  rw [Finset.sum_div]
  refine Finset.sum_congr rfl fun k _ => ?_
  rw [kpR_eq, klR_eq, kqkvR_v]; ring

/-! ## The output projection: 1024 columns as 16 blocks of 64 -/

theorem rxR_congr {h h' : Fin 16} {d d' : Fin 64} (eh : h = h') (ed : d = d') (b : Fin 2) (q : Fin 2048) :
    rxR x M wq b h q d = rxR x M wq b h' q d' := by
  subst eh; subst ed; rfl

/-- Column `h·64 + d` of the concatenation is lane `d` of head `h`. -/
theorem rcatR_col (b : Fin 2) (q : Fin 2048) (h : Fin 16) (d : Fin 64) :
    rcatR x M wq b q (col h d) = rxR x M wq b h q d := by
  unfold rcatR
  refine rxR_congr x M wq (Fin.ext ?_) (Fin.ext ?_) b q
  · show (h.val * 64 + d.val) / 64 = h.val
    omega
  · show (h.val * 64 + d.val) % 64 = d.val
    omega

theorem proj_eq (b : Fin 2) (q : Fin 2048) (o : Fin 1024) :
    ∑ h : Fin 16, kcR x M wq wp b h q o = ∑ c : Fin 1024, rcatR x M wq b q c * wp o c := by
  refine Eq.trans ?_ (Cert.SumDigits.sum_fin_mul (m := 16) (n := 64) (N := 1024) (by norm_num)
    (fun c : Fin 1024 => rcatR x M wq b q c * wp o c)).symm
  refine Finset.sum_congr rfl fun h _ => ?_
  unfold kcR
  refine Finset.sum_congr rfl fun d _ => ?_
  show koR x M wq b h q d * wp o (col h d) = rcatR x M wq b q (col h d) * wp o (col h d)
  rw [rcatR_col, koR_eq]

/-! ## The two arrangements over the reals -/

theorem KGR_eq (b : Fin 2) (q : Fin 2048) (o : Fin 1024) :
    KGR x M wq wp bp b q o = RGR x M wq wp bp b q o := by
  unfold KGR RGR ryR fmR
  rw [proj_eq]
  split_ifs
  · rw [mul_one]
  · rw [mul_zero]

end Cert.AttnAlg

end
-- ==== Proof.AttnAlgebra.lean ====
/-
  The folded and the textbook arrangement of nested attention agree on real inputs.

  Every input is the coercion of a real; then every quantity of either arrangement is the coercion of its
  real-valued twin, the twins agree over the reals, and so the two arrangements agree over the extended reals.
-/
import proofs.«166787_g36747740185073_cont_sun_m_199_12_alg».proof.Proof.AttnAlgebra3

namespace Cert.AttnSpec

open Cert.AttnAlg

theorem KG_eq_RG
    (X : Fin 2 → Fin 2048 → Fin 1024 → EReal) (M : Fin 2 → Fin 2048 → Fin 1024 → Bool)
    (Wq : Fin 3072 → Fin 1024 → EReal) (Wp : Fin 1024 → Fin 1024 → EReal) (Bp : Fin 1024 → EReal)
    (hX : ∀ b n d, ∃ r : ℝ, X b n d = (r : EReal)) (hWq : ∀ f d, ∃ r : ℝ, Wq f d = (r : EReal))
    (hWp : ∀ o c, ∃ r : ℝ, Wp o c = (r : EReal)) (hBp : ∀ o, ∃ r : ℝ, Bp o = (r : EReal)) :
    ∀ b n o, KG X M Wq Wp Bp b n o = RG X M Wq Wp Bp b n o := by
  choose x hx using hX
  choose wq hwq using hWq
  choose wp hwp using hWp
  choose bp hbp using hBp
  obtain rfl : X = up3 x := funext fun b => funext fun n => funext fun d => hx b n d
  obtain rfl : Wq = up2 wq := funext fun f => funext fun d => hwq f d
  obtain rfl : Wp = up2 wp := funext fun o => funext fun c => hwp o c
  obtain rfl : Bp = up1 bp := funext fun o => hbp o
  intro b n o
  rw [KG_coe, RG_coe, KGR_eq]

end Cert.AttnSpec
-- ==== Proof.LibMatmulNT.lean ====
/-
  The product of an M × K matrix with the TRANSPOSE of an N × K matrix (both operands contracted over their second
  axis) into the zero accumulator, read at an entry at the ideal values: the sum over the contracted coordinate of the
  products of the two rows' entries.
-/
import Idealize.ShloMosaic.Lib.ValueIdx
import Idealize.ShloMosaic.PureOps.Ideal.Laws

noncomputable section

open scoped BigOperators

namespace Cert.LibMatmulNT

open Idealize.ShloMosaic Idealize.ShloMosaic.ValueIdx

/-- Entry (a, b) of A·Bᵀ for A of M rows and B of N rows, both of K columns: the sum over c of A (a, c) · B (b, c).
    The contraction index has one axis, of extent K; the sum over it is re-indexed by that axis's coordinate, and
    the two operand indices are read coordinate by coordinate. -/
theorem matmul_nt_zero_apply {M K N : ℕ} {φ₁ φ₂ : FTy}
    (w : DotDims.WF ⟨2, ![M, K]⟩ ⟨2, ![N, K]⟩ ⟨2, ![M, N]⟩ [1] [1] [0] [0] [] [])
    (prec : Option ContractPrecision) (A : FVec Ideal ⟨2, ![M, K]⟩ φ₁) (B : FVec Ideal ⟨2, ![N, K]⟩ φ₂)
    (a : Fin M) (b : Fin N) :
    matmul (⟨[1], [1], [0], [0], [], [], w⟩ : DotDims _ _ _) prec A B
        (constant (F := Ideal) ⟨2, ![M, N]⟩ .f32 0x00000000#32) (ix2 a b)
      = ∑ c : Fin K, A (ix2 a c) * B (ix2 b c) := by
  show FloatOps.matmul _ prec A B _ (ix2 a b) = _
  rw [Ideal.matmul_constant_zero_apply,
    ← Equiv.sum_comp (contrEquiv1 (⟨[1], [1], [0], [0], [], [], w⟩ : DotDims _ _ _) K rfl rfl).symm]
  refine Finset.sum_congr rfl fun c _ => ?_
  have c2 := contrEquiv1_symm_val
    (⟨[1], [1], [0], [0], [], [], w⟩ : DotDims ⟨2, ![M, K]⟩ ⟨2, ![N, K]⟩ ⟨2, ![M, N]⟩) K rfl rfl c
  have l2 : (⟨[1], [1], [0], [0], [], [], w⟩ : DotDims ⟨2, ![M, K]⟩ ⟨2, ![N, K]⟩ ⟨2, ![M, N]⟩).lhsIdx (ix2 a b)
      ((contrEquiv1 _ K rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![M, K]⟩ ⟨2, ![N, K]⟩ ⟨2, ![M, N]⟩).rhsIdx (ix2 a b)
      ((contrEquiv1 _ K rfl rfl).symm c) = ix2 b c := by
    funext ax; apply Fin.ext
    match ax with
    | ⟨0, _⟩ => simp [DotDims.rhsIdx]; rfl
    | ⟨1, _⟩ => simp [DotDims.rhsIdx]; exact c2
  rw [l2, r2]

end Cert.LibMatmulNT

end
-- ==== Proof.LibKeepdims.lean ====
/-
  Column ("keepdims") layout forms, one-axis reductions of a matrix and the one-hot mask, read at an index.

  A reduction that keeps its axis as a unit axis leaves a column `[a, 1]`; the next operation broadcasts the column along
  the rows' entries. Lib/ValueLayout.lean has the leading-unit-axis casts and the row broadcast `[1, b] → [a, b]`; here are
  the column cast `[a] → [a, 1]` and the column broadcast `[a, 1] → [a, b]`, in the same style.

  At the ideal values a `vector.multi_reduction` of a matrix over one of its two axes is the sum (or the fold of `max`)
  over that axis's coordinates with the other coordinate fixed: PureOps/Ideal/Laws.lean's one-axis readings with the
  inserted index written by coordinates.

  The one-hot mask `(iota along d == w)` converted to a float is `1` where the coordinate's word is `w` and `0` elsewhere; a
  sum of products with it keeps the one selected term, whatever the other factor is (on the extended reals `x * 0 = 0` and
  `x * 1 = x` for every `x`, infinite or not).
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.LibKeepdims

open Idealize.ShloMosaic Idealize.ShloMosaic.ValueIdx

/-! ## The column cast and the column broadcast -/

section Layout
variable {α : Type}

/-- An `[a]` array cast to the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## A matrix reduced over one axis, at the ideal values -/

section Reduce
variable {φ : FTy}

/-- The sum over the entries of each row: `[a, b]` reduced over axis 1, read at row `i`. -/
theorem multiReduction_add_axis1 {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ k : Fin b, src (ix2 i k) :=
  (Ideal.multiReduction_add_single src acc h hφ hacc (ix1 i)).trans
    (Finset.sum_congr rfl fun k _ => congrArg src (funext fun c => Fin.ext (by
      match c with
      | ⟨0, _⟩ => rfl
      | ⟨1, _⟩ => rfl)))

/-- The sum over the rows of each column: `[a, b]` reduced over axis 0, read at column `k`. -/
theorem multiReduction_add_axis0 {a b : ℕ} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (k : Fin b) :
    multiReduction .add [0] ⟨1, ![b]⟩ src acc h hφ hacc (ix1 k) = ∑ i : Fin a, src (ix2 i k) :=
  (Ideal.multiReduction_add_single src acc h hφ hacc (ix1 k)).trans
    (Finset.sum_congr rfl fun i _ => congrArg src (funext fun c => Fin.ext (by
      match c with
      | ⟨0, _⟩ => rfl
      | ⟨1, _⟩ => rfl)))

/-- The maximum over the entries of each row, from the accumulator's value: `[a, b]` reduced by `max` over axis 1. -/
theorem multiReduction_maximumf_axis1 {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (i : Fin a) :
    multiReduction .maximumf [1] ⟨1, ![a]⟩ src acc h hφ hacc (ix1 i)
      = (Finset.univ : Finset (Fin b)).fold max (Ideal.ofBits φ acc) (fun k => src (ix2 i k)) :=
  (Ideal.multiReduction_maximumf_single src acc h hφ hacc (ix1 i)).trans
    (congrArg ((Finset.univ : Finset (Fin b)).fold max (Ideal.ofBits φ acc)) (funext fun k => congrArg src (funext fun c => Fin.ext (by
      match c with
      | ⟨0, _⟩ => rfl
      | ⟨1, _⟩ => rfl))))

end Reduce

/-! ## The one-hot mask -/

section Mask

/-- Two naturals below `2 ^ 32` have the same 32-bit word exactly when they are equal. -/
theorem ofNat32_eq_iff {n b : ℕ} (hn : n < 2 ^ 32) (hb : b < 2 ^ 32) : BitVec.ofNat 32 n = BitVec.ofNat 32 b ↔ n = b := by
  constructor
  · intro e
    have := congrArg BitVec.toNat e
    rwa [BitVec.toNat_ofNat, BitVec.toNat_ofNat, Nat.mod_eq_of_lt hn, Nat.mod_eq_of_lt hb] at this
  · intro e; rw [e]

/-- A comparison bit, widened to a word and read as a signed integer at the ideal values, is `1` or `0`. -/
theorem sitofp_extui_cmpi_eq (x y : BitVec 32) (h : 1 < 32) :
    (FloatOps.sitofp (F := Ideal) .f32 ((IntOp.cmpi .eq x y).setWidth 32) : EReal) = if x = y then 1 else 0 := by
  show (((((BitVec.ofBool (x == y)).setWidth 32).toInt : ℝ)) : EReal) = _
  by_cases e : x = y
  · have h1 : ((BitVec.ofBool true).setWidth 32).toInt = 1 := by decide
    rw [if_pos e, beq_iff_eq.2 e, h1, Int.cast_one, EReal.coe_one]
  · have h0 : ((BitVec.ofBool false).setWidth 32).toInt = 0 := by decide
    rw [if_neg e, beq_eq_false_iff_ne.2 e, h0, Int.cast_zero, EReal.coe_zero]

/-- The mask `(iota along d == w)` as a float: `1` where the coordinate's word is `w`, `0` elsewhere. -/
theorem mask_apply (s : Shape) (d : Fin s.rank) (h : s.Iotas .tc 32 [d]) (w : BitVec 32) (hlt : 1 < 32) (i : s.Idx) :
    (sitofp .f32 (extui 32 (cmpi .eq (iota .tc s 32 [d] h) (broadcast s w)) hlt) : FVec Ideal s .f32) i
      = if BitVec.ofNat 32 (i d).val = w then (1 : EReal) else 0 := by
  rw [sitofp_apply, extui_apply]
  show (FloatOps.sitofp (F := Ideal) .f32 ((IntOp.cmpi .eq (iota .tc s 32 [d] h i) w).setWidth 32) : EReal) = _
  rw [iota_single_apply, sitofp_extui_cmpi_eq _ _ hlt]

/-- The same against the word of a natural `b`: the mask picks the coordinate `b`. -/
theorem mask_ofNat_apply (s : Shape) (d : Fin s.rank) (h : s.Iotas .tc 32 [d]) (b : ℕ) (hlt : 1 < 32) (i : s.Idx)
    (hi : (i d).val < 2 ^ 32) (hb : b < 2 ^ 32) :
    (sitofp .f32 (extui 32 (cmpi .eq (iota .tc s 32 [d] h) (broadcast s (BitVec.ofNat 32 b))) hlt) : FVec Ideal s .f32) i
      = if (i d).val = b then (1 : EReal) else 0 := by
  rw [mask_apply]
  by_cases e : (i d).val = b
  · rw [if_pos e, if_pos ((ofNat32_eq_iff hi hb).2 e)]
  · rw [if_neg e, if_neg (fun e' => e ((ofNat32_eq_iff hi hb).1 e'))]

/-- A sum of products with a one-hot factor keeps the selected term. No finiteness is asked: on the extended reals
    `x * 0 = 0` and `x * 1 = x` for every `x`. -/
theorem sum_mul_onehot {n : ℕ} (f : Fin n → EReal) (b : Fin n) :
    ∑ l : Fin n, f l * (if l.val = b.val then (1 : EReal) else 0) = f b := by
  rw [Finset.sum_eq_single b]
  · rw [if_pos rfl, mul_one]
  · intro l _ hl
    rw [if_neg (fun e => hl (Fin.ext e)), mul_zero]
  · intro hb; exact absurd (Finset.mem_univ b) hb

end Mask

end Cert.LibKeepdims

end
-- ==== Proof.KBody0.lean ====
/-
  What the projection kernel's body stores, index by index, at the ideal values: entry (f, r) of its output block is
  the product of row f of the weights with the masked row r of the tokens, the mask keeping the first 128·(e + 1)
  features of a token whose expert id is e.
-/
import proofs.«166787_g36747740185073_cont_sun_m_199_12_alg».proof.Proof.Gen.KernelIdeal.Skeleton
import proofs.«166787_g36747740185073_cont_sun_m_199_12_alg».proof.Proof.LibMatmulNT
import proofs.«166787_g36747740185073_cont_sun_m_199_12_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.BodyVal

open Idealize.ShloMosaic Idealize.ShloMosaic.ValueIdx

/-- The body's word-level test for feature `d` of a token whose expert id is the word `e`: the signed comparison of
    the word of `d` with `(e + 1) · 128`, both in 32-bit arithmetic. -/
def kmaskW (e : BitVec 32) (d : Fin 1024) : Bool :=
  decide (IntOp.cmpi .slt (BitVec.ofNat 32 d.val) (IntOp.muli (IntOp.addi e 1#32) 128#32) = 1#1)

/-- For an expert id below 8 nothing wraps and both words are non-negative as signed words: the test is
    `d < 128 · (e + 1)` on the naturals. -/
theorem kmaskW_eq (e : BitVec 32) (d : Fin 1024) (he : e.toNat < 8) :
    kmaskW e d = decide (d.val < 128 * (e.toNat + 1)) := by
  have hd := d.isLt
  unfold kmaskW IntOp.cmpi IntOp.muli IntOp.addi
  have h1 : ((e + 1#32) * 128#32).toNat = 128 * (e.toNat + 1) := by
    rw [BitVec.toNat_mul, BitVec.toNat_add]
    simp
    omega
  have h2 : (BitVec.ofNat 32 d.val).toNat = d.val := by
    rw [BitVec.toNat_ofNat]; omega
  have h3 : (BitVec.ofNat 32 d.val).slt ((e + 1#32) * 128#32) = decide (d.val < 128 * (e.toNat + 1)) := by
    rw [BitVec.slt_eq_decide, BitVec.toInt_eq_toNat_of_lt (by omega), BitVec.toInt_eq_toNat_of_lt (by omega), h1, h2]
    simp
    omega
  rw [h3]
  by_cases h : d.val < 128 * (e.toNat + 1)
  · simp [h]
  · simp [h]

/-- The select on the test's bit is the `if` on the test. -/
theorem select_kmask {α : Type} (e : BitVec 32) (d : Fin 1024) (a b : α) :
    Scalar.select (IntOp.cmpi .slt (BitVec.ofNat 32 d.val) (IntOp.muli (IntOp.addi e 1#32) 128#32)) a b
      = if kmaskW e d then a else b := by
  unfold Scalar.select kmaskW
  by_cases h : IntOp.cmpi .slt (BitVec.ofNat 32 d.val) (IntOp.muli (IntOp.addi e 1#32) 128#32) = 1#1
  · exact (if_pos h).trans (if_pos (decide_eq_true h)).symm
  · exact (if_neg h).trans (if_neg fun hd => h (of_decide_eq_true hd)).symm

/-- The expert ids `[1, 1, n]` viewed `[n]` read, at `r`, the block at `(0, 0, r)`. -/
theorem shapeCast_11a_a_apply {α : Type} {a : ℕ} (x : (⟨3, ![1, 1, a]⟩ : Shape).Idx → α)
    (h : (⟨3, ![1, 1, a]⟩ : Shape).ShapeCasts ⟨1, ![a]⟩) (r : Fin a) :
    shapeCast ⟨1, ![a]⟩ x h (ix1 r) = x (ix3 0 0 r) :=
  shapeCast_apply x h _ _ (by
    rw [Shape.rowMajor_val_three, Shape.rowMajor_val_one]
    show ((0 : ℕ) * 1 + 0) * a + r.val = r.val
    omega)

/-- The masked token row the product reads: the mask column of row `r` broadcast along the features, compared with the
    feature's word. -/
theorem mask0_apply (v2 : Vec Ideal S1x1x512 .i32) (r : Fin 512) (d : Fin 1024) :
    cmpi .slt (iota .tc S512x1024 32 [1] Gen.iota_S512x1024_d1_w32)
        (broadcastTo S512x1024
          (shapeCast S512x1
            (muli (addi (shapeCast S512 v2 Gen.shapeCasts_S1x1x512_S512) (broadcast S512 1#32)) (broadcast S512 128#32))
            Gen.shapeCasts_S512_S512x1)
          Gen.broadcasts_S512x1_S512x1024) (ix2 r d)
      = IntOp.cmpi .slt (BitVec.ofNat 32 d.val) (IntOp.muli (IntOp.addi (v2 (ix3 0 0 r)) 1#32) 128#32) := by
  show IntOp.cmpi .slt (iota .tc S512x1024 32 [1] Gen.iota_S512x1024_d1_w32 (ix2 r d)) (broadcastTo S512x1024 _ _ (ix2 r d)) = _
  rw [iota_single_apply, Cert.LibKeepdims.broadcastTo_a1_ab_apply, Cert.LibKeepdims.shapeCast_a_a1_apply]
  show IntOp.cmpi .slt _ (IntOp.muli (IntOp.addi (shapeCast S512 v2 Gen.shapeCasts_S1x1x512_S512 (ix1 r)) 1#32) 128#32) = _
  rw [shapeCast_11a_a_apply]

/-- Entry `(f, r)` of the stored block: row `f` of the weights times the masked row `r` of the tokens. -/
theorem pay0_apply (v0 : Vec Ideal S512x1024 .f32) (v2 : Vec Ideal S1x1x512 .i32) (v15 : Vec Ideal S3072x1024 .bf16)
    (f : Fin 3072) (r : Fin 512) :
    Gen.k0_pay1 v0 v2 v15 (ix2 f r)
      = ∑ d : Fin 1024, v15 (ix2 f d) * (if kmaskW (v2 (ix3 0 0 r)) d then v0 (ix2 r d) else 0) := by
  unfold Gen.k0_pay1
  dsimp only
  rw [truncf_apply]
  refine (Cert.LibMatmulNT.matmul_nt_zero_apply (M := 3072) (K := 1024) (N := 512)
    Gen.dot_S3072x1024_S512x1024_S3072x512_1_1_0_0_n_n_wf none _ _ f r).trans ?_
  refine Finset.sum_congr rfl fun d _ => ?_
  rw [shapeCast_self, truncf_apply, select_apply, mask0_apply, select_kmask, shapeCast_self, broadcast_apply]
  exact congrArg (fun z : EReal => v15 (ix2 f d) * if kmaskW (v2 (ix3 0 0 r)) d = true then v0 (ix2 r d) else z)
    Ideal.ofBits_zero_f32

end Cert.KernelIdeal.BodyVal

end
-- ==== Proof.KBFrame0.lean ====
/-
  The first kernel region (the masked projection to 3072 feature rows), at a parameter `V`: the buffers' contents
  when the region is entered. A grid point reads a block of 512 token rows, their 512 expert ids and the whole weight
  matrix, and writes the 3072 × 512 block of feature-major projections; each input's staging buffer holds the block
  the point reads, the output's buffer ends at the body's one store.
-/
import proofs.«166787_g36747740185073_cont_sun_m_199_12_alg».proof.Proof.Gen.Kernel.Launch
import proofs.«166787_g36747740185073_cont_sun_m_199_12_alg».proof.Proof.Gen.Kernel.Skeleton
import proofs.«166787_g36747740185073_cont_sun_m_199_12_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen Cert.Kernel.Facts₀ Cert.Kernel.Facts
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S512x1024 := Rect.unit (s := S512x1024) ![0, 0] S512x1024.size Facts₀.inb_S512x1024_S512x1024_0_0
abbrev r0_1 : Rect S1x1x512 := Rect.unit (s := S1x1x512) ![0, 0, 0] S1x1x512.size Facts₀.inb_S1x1x512_S1x1x512_0_0_0
abbrev r0_2 : Rect S3072x1024 := Rect.unit (s := S3072x1024) ![0, 0] S3072x1024.size Facts₀.inb_S3072x1024_S3072x1024_0_0
abbrev r0_3 : Rect S3072x512 := Rect.unit (s := S3072x512) ![0, 0] S3072x512.size Facts₀.inb_S3072x512_S3072x512_0_0

/-- The output block after the body, from the input blocks: the body's one store. -/
def out0_3 (x0 : Vec F S512x1024 .f32) (x1 : Vec F S1x1x512 .i32) (x2 : Vec F S3072x1024 .bf16) : Vec F S3072x512 .bf16 :=
  View.canon [⟨r0_3, k0_pay1 (View.ld x0 r0_0) (View.ld x1 r0_1) (View.ld x2 r0_2)⟩]

/-- The store covers the buffer. -/
theorem cover0_3 (p0 : Vec F S3072x512 .bf16) (y : S3072x512.Idx) :
    ∃ pc ∈ ([⟨r0_3, p0⟩] : List (View.Piece (Elt F) S3072x512 .bf16)), y ∈ pc.1.set :=
  View.cover_of_tiled [⟨r0_3, p0⟩] S3072x512.size (by rfl) y

set_option maxHeartbeats 1000000 in
/-- The body on whole staging memrefs: the inputs stay, the output ends at `out0_3` of the inputs. -/
theorem sound_kernel0 (c : Dev nD) (E : Set ℕ) (i : grid0.Coords)
    (arg1 : Memref sig .tc .vmem S512x1024 .f32) (harg1 : arg1.IsWhole) (arg2 : Memref sig .tc .vmem S1x1x512 .i32) (harg2 : arg2.IsWhole)
    (arg3 : Memref sig .tc .vmem S3072x1024 .bf16) (harg3 : arg3.IsWhole) (arg4 : Memref sig .tc .vmem S3072x512 .bf16) (harg4 : arg4.IsWhole)
    (x0 : Vec F S512x1024 .f32) (x1 : Vec F S1x1x512 .i32) (x2 : Vec F S3072x1024 .bf16) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__qkv_kernel i arg1 harg1 arg2 harg2 arg3 harg3 arg4 harg4) K := by
  simp only [cc0__qkv_kernel_eq_skeleton]; unfold cc0__qkv_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The proof data of the first pipeline on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KBBody1Def.lean ====
/-
  The value the second kernel's body stores to its output block, as the composition of the generated payload
  terms over what the body loads: the key and value blocks whole, per head a 64-row slab of the query block and a
  one-head slab of the projection weights, the bias and the expert ids whole.
-/
import proofs.«166787_g36747740185073_cont_sun_m_199_12_alg».proof.Proof.Gen.Kernel.Skeleton
import Idealize.ShloMosaic.Lib.Pipeline.Value

noncomputable section

namespace Cert.Kernel.BodyVal

open Idealize.ShloMosaic Idealize.SL.Sem

variable {F : FTy → Type} [FloatOps F]

/-- The stored value of the attention-and-projection body over its six input blocks: query block `xq`
    [feature, query], key and value blocks `xk`, `xv` [feature, key], expert ids `xe`, per-head projection weights
    `xw` [head, lane, output feature], bias `xb`. Each binding is one load or one payload of the generated skeleton,
    in the body's order. -/
def pay1 (xq : Vec F S1024x1024 .bf16) (xk xv : Vec F S1024x2048 .bf16) (xe : Vec F S1x1x1024 .i32)
    (xw : Vec F S16x64x1024 .bf16) (xb : Vec F S1024 .f32) : FVec F S1024x1024 .f32 :=
  let v0 : Vec F S1024x2048 .bf16 := View.ld (Val := Elt F) (e' := .bf16) xk (Rect.unit (s := S1024x2048) ![0, 0] S1024x2048.size Gen.inb_S1024x2048_S1024x2048_0_0)
  let v2 : Vec F S1024x2048 .bf16 := View.ld (Val := Elt F) (e' := .bf16) xv (Rect.unit (s := S1024x2048) ![0, 0] S1024x2048.size Gen.inb_S1024x2048_S1024x2048_0_0)
  let v4 : Vec F S64x1024 .bf16 := View.ld (Val := Elt F) (e' := .bf16) xq (Rect.unit (s := S1024x1024) ![0, 0] S64x1024.size Gen.inb_S1024x1024_S64x1024_0_0)
  let v21 : Vec F S1x64x1024 .bf16 := View.ld (Val := Elt F) (e' := .bf16) xw (Rect.unit (s := S16x64x1024) ![0, 0, 0] S1x64x1024.size Gen.inb_S16x64x1024_S1x64x1024_0_0_0)
  let v24 : Vec F S64x1024 .bf16 := View.ld (Val := Elt F) (e' := .bf16) xq (Rect.unit (s := S1024x1024) ![64, 0] S64x1024.size Gen.inb_S1024x1024_S64x1024_64_0)
  let v41 : Vec F S1x64x1024 .bf16 := View.ld (Val := Elt F) (e' := .bf16) xw (Rect.unit (s := S16x64x1024) ![1, 0, 0] S1x64x1024.size Gen.inb_S16x64x1024_S1x64x1024_1_0_0)
  let v45 : Vec F S64x1024 .bf16 := View.ld (Val := Elt F) (e' := .bf16) xq (Rect.unit (s := S1024x1024) ![128, 0] S64x1024.size Gen.inb_S1024x1024_S64x1024_128_0)
  let v62 : Vec F S1x64x1024 .bf16 := View.ld (Val := Elt F) (e' := .bf16) xw (Rect.unit (s := S16x64x1024) ![2, 0, 0] S1x64x1024.size Gen.inb_S16x64x1024_S1x64x1024_2_0_0)
  let v66 : Vec F S64x1024 .bf16 := View.ld (Val := Elt F) (e' := .bf16) xq (Rect.unit (s := S1024x1024) ![192, 0] S64x1024.size Gen.inb_S1024x1024_S64x1024_192_0)
  let v83 : Vec F S1x64x1024 .bf16 := View.ld (Val := Elt F) (e' := .bf16) xw (Rect.unit (s := S16x64x1024) ![3, 0, 0] S1x64x1024.size Gen.inb_S16x64x1024_S1x64x1024_3_0_0)
  let v87 : Vec F S64x1024 .bf16 := View.ld (Val := Elt F) (e' := .bf16) xq (Rect.unit (s := S1024x1024) ![256, 0] S64x1024.size Gen.inb_S1024x1024_S64x1024_256_0)
  let v104 : Vec F S1x64x1024 .bf16 := View.ld (Val := Elt F) (e' := .bf16) xw (Rect.unit (s := S16x64x1024) ![4, 0, 0] S1x64x1024.size Gen.inb_S16x64x1024_S1x64x1024_4_0_0)
  let v108 : Vec F S64x1024 .bf16 := View.ld (Val := Elt F) (e' := .bf16) xq (Rect.unit (s := S1024x1024) ![320, 0] S64x1024.size Gen.inb_S1024x1024_S64x1024_320_0)
  let v125 : Vec F S1x64x1024 .bf16 := View.ld (Val := Elt F) (e' := .bf16) xw (Rect.unit (s := S16x64x1024) ![5, 0, 0] S1x64x1024.size Gen.inb_S16x64x1024_S1x64x1024_5_0_0)
  let v129 : Vec F S64x1024 .bf16 := View.ld (Val := Elt F) (e' := .bf16) xq (Rect.unit (s := S1024x1024) ![384, 0] S64x1024.size Gen.inb_S1024x1024_S64x1024_384_0)
  let v146 : Vec F S1x64x1024 .bf16 := View.ld (Val := Elt F) (e' := .bf16) xw (Rect.unit (s := S16x64x1024) ![6, 0, 0] S1x64x1024.size Gen.inb_S16x64x1024_S1x64x1024_6_0_0)
  let v150 : Vec F S64x1024 .bf16 := View.ld (Val := Elt F) (e' := .bf16) xq (Rect.unit (s := S1024x1024) ![448, 0] S64x1024.size Gen.inb_S1024x1024_S64x1024_448_0)
  let v167 : Vec F S1x64x1024 .bf16 := View.ld (Val := Elt F) (e' := .bf16) xw (Rect.unit (s := S16x64x1024) ![7, 0, 0] S1x64x1024.size Gen.inb_S16x64x1024_S1x64x1024_7_0_0)
  let v171 : Vec F S64x1024 .bf16 := View.ld (Val := Elt F) (e' := .bf16) xq (Rect.unit (s := S1024x1024) ![512, 0] S64x1024.size Gen.inb_S1024x1024_S64x1024_512_0)
  let v188 : Vec F S1x64x1024 .bf16 := View.ld (Val := Elt F) (e' := .bf16) xw (Rect.unit (s := S16x64x1024) ![8, 0, 0] S1x64x1024.size Gen.inb_S16x64x1024_S1x64x1024_8_0_0)
  let v192 : Vec F S64x1024 .bf16 := View.ld (Val := Elt F) (e' := .bf16) xq (Rect.unit (s := S1024x1024) ![576, 0] S64x1024.size Gen.inb_S1024x1024_S64x1024_576_0)
  let v209 : Vec F S1x64x1024 .bf16 := View.ld (Val := Elt F) (e' := .bf16) xw (Rect.unit (s := S16x64x1024) ![9, 0, 0] S1x64x1024.size Gen.inb_S16x64x1024_S1x64x1024_9_0_0)
  let v213 : Vec F S64x1024 .bf16 := View.ld (Val := Elt F) (e' := .bf16) xq (Rect.unit (s := S1024x1024) ![640, 0] S64x1024.size Gen.inb_S1024x1024_S64x1024_640_0)
  let v230 : Vec F S1x64x1024 .bf16 := View.ld (Val := Elt F) (e' := .bf16) xw (Rect.unit (s := S16x64x1024) ![10, 0, 0] S1x64x1024.size Gen.inb_S16x64x1024_S1x64x1024_10_0_0)
  let v234 : Vec F S64x1024 .bf16 := View.ld (Val := Elt F) (e' := .bf16) xq (Rect.unit (s := S1024x1024) ![704, 0] S64x1024.size Gen.inb_S1024x1024_S64x1024_704_0)
  let v251 : Vec F S1x64x1024 .bf16 := View.ld (Val := Elt F) (e' := .bf16) xw (Rect.unit (s := S16x64x1024) ![11, 0, 0] S1x64x1024.size Gen.inb_S16x64x1024_S1x64x1024_11_0_0)
  let v255 : Vec F S64x1024 .bf16 := View.ld (Val := Elt F) (e' := .bf16) xq (Rect.unit (s := S1024x1024) ![768, 0] S64x1024.size Gen.inb_S1024x1024_S64x1024_768_0)
  let v272 : Vec F S1x64x1024 .bf16 := View.ld (Val := Elt F) (e' := .bf16) xw (Rect.unit (s := S16x64x1024) ![12, 0, 0] S1x64x1024.size Gen.inb_S16x64x1024_S1x64x1024_12_0_0)
  let v276 : Vec F S64x1024 .bf16 := View.ld (Val := Elt F) (e' := .bf16) xq (Rect.unit (s := S1024x1024) ![832, 0] S64x1024.size Gen.inb_S1024x1024_S64x1024_832_0)
  let v293 : Vec F S1x64x1024 .bf16 := View.ld (Val := Elt F) (e' := .bf16) xw (Rect.unit (s := S16x64x1024) ![13, 0, 0] S1x64x1024.size Gen.inb_S16x64x1024_S1x64x1024_13_0_0)
  let v297 : Vec F S64x1024 .bf16 := View.ld (Val := Elt F) (e' := .bf16) xq (Rect.unit (s := S1024x1024) ![896, 0] S64x1024.size Gen.inb_S1024x1024_S64x1024_896_0)
  let v314 : Vec F S1x64x1024 .bf16 := View.ld (Val := Elt F) (e' := .bf16) xw (Rect.unit (s := S16x64x1024) ![14, 0, 0] S1x64x1024.size Gen.inb_S16x64x1024_S1x64x1024_14_0_0)
  let v318 : Vec F S64x1024 .bf16 := View.ld (Val := Elt F) (e' := .bf16) xq (Rect.unit (s := S1024x1024) ![960, 0] S64x1024.size Gen.inb_S1024x1024_S64x1024_960_0)
  let v335 : Vec F S1x64x1024 .bf16 := View.ld (Val := Elt F) (e' := .bf16) xw (Rect.unit (s := S16x64x1024) ![15, 0, 0] S1x64x1024.size Gen.inb_S16x64x1024_S1x64x1024_15_0_0)
  let v339 : Vec F S1024 .f32 := View.ld (Val := Elt F) (e' := .f32) xb (Rect.unit (s := S1024) ![0] S1024.size Gen.inb_S1024_S1024_0)
  let v343 : Vec F S1x1x1024 .i32 := View.ld (Val := Elt F) (e' := .i32) xe (Rect.unit (s := S1x1x1024) ![0, 0, 0] S1x1x1024.size Gen.inb_S1x1x1024_S1x1x1024_0_0_0)
  let v1 := Gen.k1_pay1 v0
  let v3 := Gen.k1_pay2 v2
  let v23 := Gen.k1_pay3 v0 v2 v4 v21
  let v35 := Gen.k1_pay5 v0 v24
  let v37 := Gen.k1_pay6 v0 v2 v24
  let v65 := Gen.k1_pay7 v1 v3 v23 v35 v37 v41 v45 v62
  let v69 := Gen.k1_pay8 v3
  let v77 := Gen.k1_pay10 v1 v66
  let v78 := Gen.k1_pay11 v1 v66
  let v107 := Gen.k1_pay12 v1 v3 v65 v69 v77 v78 v83 v87 v104
  let v111 := Gen.k1_pay13 v3
  let v117 := Gen.k1_pay14 v1 v108
  let v118 := Gen.k1_pay15 v1 v108
  let v149 := Gen.k1_pay16 v1 v3 v107 v111 v117 v118 v125 v129 v146
  let v153 := Gen.k1_pay17 v3
  let v159 := Gen.k1_pay18 v1 v150
  let v191 := Gen.k1_pay19 v1 v3 v149 v153 v159 v167 v171 v188
  let v195 := Gen.k1_pay20 v3
  let v196 := Gen.k1_pay21 v1 v192
  let v199 := Gen.k1_pay22 v1 v192
  let v233 := Gen.k1_pay23 v1 v3 v191 v195 v196 v199 v209 v213 v230
  let v237 := Gen.k1_pay24 v3
  let v238 := Gen.k1_pay25 v1 v234
  let v239 := Gen.k1_pay26 v1 v234
  let v275 := Gen.k1_pay27 v1 v3 v233 v237 v238 v239 v251 v255 v272
  let v279 := Gen.k1_pay28 v3
  let v280 := Gen.k1_pay29 v1 v276
  let v317 := Gen.k1_pay30 v1 v3 v275 v279 v280 v293 v297 v314
  let v319 := Gen.k1_pay31 v318
  let v320 := Gen.k1_pay32 v1
  let v321 := Gen.k1_pay33 v3
  Gen.k1_pay34 v317 v319 v320 v321 v335 v339 v343

end Cert.Kernel.BodyVal

end
-- ==== Proof.KBFrame1.lean ====
/-
  The second kernel region (attention over the feature-major projections, fused with the output projection), at a
  parameter `V`: the buffers' contents when the region is entered. A grid point (batch entry, query block) reads a
  1024-query block of the query rows, the batch entry's key rows and value rows — three windows on ONE array —, the
  block's expert ids, the per-head output weights and the bias, and writes a 1024 × 1024 block of the result. The
  three windows on the shared array each hold a fraction of it: a half, a quarter and a quarter.
-/
import proofs.«166787_g36747740185073_cont_sun_m_199_12_alg».proof.Proof.Gen.Kernel.Launch
import proofs.«166787_g36747740185073_cont_sun_m_199_12_alg».proof.Proof.Gen.Kernel.Skeleton
import proofs.«166787_g36747740185073_cont_sun_m_199_12_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«166787_g36747740185073_cont_sun_m_199_12_alg».proof.Proof.KBBody1Def

set_option maxRecDepth 16384

noncomputable section

namespace Cert.Kernel.Hand

open Cert.Kernel Cert.Kernel.Gen Cert.Kernel.Facts₀ Cert.Kernel.Facts
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

abbrev r1_6 : Rect S1024x1024 := Rect.unit (s := S1024x1024) ![0, 0] S1024x1024.size Facts₀.inb_S1024x1024_S1024x1024_0_0

/-- The output block after the body, from the six input blocks: the body's one store. -/
def out1_6 (x0 : Vec F S1024x1024 .bf16) (x1 x2 : Vec F S1024x2048 .bf16) (x3 : Vec F S1x1x1024 .i32) (x4 : Vec F S16x64x1024 .bf16) (x5 : Vec F S1024 .f32) : Vec F S1024x1024 .f32 :=
  View.canon [⟨r1_6, BodyVal.pay1 x0 x1 x2 x3 x4 x5⟩]

theorem cover1_6 (p0 : Vec F S1024x1024 .f32) (y : S1024x1024.Idx) :
    ∃ pc ∈ ([⟨r1_6, p0⟩] : List (View.Piece (Elt F) S1024x1024 .f32)), y ∈ pc.1.set :=
  View.cover_of_tiled [⟨r1_6, p0⟩] S1024x1024.size (by rfl) y

set_option maxHeartbeats 4000000 in
/-- The body on whole staging memrefs: the inputs stay, the output ends at `out1_6` of the inputs. -/
theorem sound_kernel1 (c : Dev nD) (E : Set ℕ) (i : grid1.Coords)
    (arg2 : Memref sig .tc .vmem S1024x1024 .bf16) (harg2 : arg2.IsWhole) (arg3 : Memref sig .tc .vmem S1024x2048 .bf16) (harg3 : arg3.IsWhole)
    (arg4 : Memref sig .tc .vmem S1024x2048 .bf16) (harg4 : arg4.IsWhole) (arg5 : Memref sig .tc .vmem S1x1x1024 .i32) (harg5 : arg5.IsWhole)
    (arg6 : Memref sig .tc .vmem S16x64x1024 .bf16) (harg6 : arg6.IsWhole) (arg7 : Memref sig .tc .vmem S1024 .f32) (harg7 : arg7.IsWhole)
    (arg8 : Memref sig .tc .vmem S1024x1024 .f32) (harg8 : arg8.IsWhole)
    (x0 : Vec F S1024x1024 .bf16) (x1 x2 : Vec F S1024x2048 .bf16) (x3 : Vec F S1x1x1024 .i32) (x4 : Vec F S16x64x1024 .bf16) (x5 : Vec F S1024 .f32)
    (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
        ∗ (∃ d, owns (c : Thread nD τ) arg8 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
            ∗ owns (c : Thread nD τ) arg8 fullShare (out1_6 x0 x1 x2 x3 x4 x5)) -∗ K ⟨⟩))
      ⊢ wp frame (wpE (defs₀ (F := F)) Variants.none c none) E (cc1__attn_proj_kernel i arg2 harg2 arg3 harg3 arg4 harg4 arg5 harg5 arg6 harg6 arg7 harg7 arg8 harg8) K := by
  simp only [cc1__attn_proj_kernel_eq_skeleton]; unfold cc1__attn_proj_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover1_6 _)

/-- The proof data of the second pipeline on core `c`: the three windows on the shared array hold a half, a quarter
    and a quarter of it. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q w := match w with
    | ⟨0, _⟩ => fullShare.left
    | ⟨1, _⟩ => fullShare.right.left
    | ⟨2, _⟩ => fullShare.right.right
    | ⟨3, _⟩ => fullShare
    | ⟨4, _⟩ => fullShare
    | ⟨5, _⟩ => fullShare
    | ⟨6, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) :
    (dat1 V c).after 6 t = out1_6 (iblk1 V c 0 t) (iblk1 V c 1 t) (iblk1 V c 2 t) (iblk1 V c 3 t) (iblk1 V c 4 t) (iblk1 V c 5 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KBRunA.lean ====
/-
  The buffers' contents at the boundaries of the program's four items (a host stretch, the two kernel regions back to
  back, a closing reshape), and the bookkeeping of the second region's shared array: the buffer behind the three
  windows that read the projections is held whole when the region is entered, dealt to the windows as a half and two
  quarters, and put together again when the region is left.
-/
import proofs.«166787_g36747740185073_cont_sun_m_199_12_alg».proof.Proof.KBFrame0
import proofs.«166787_g36747740185073_cont_sun_m_199_12_alg».proof.Proof.KBFrame1
import proofs.«166787_g36747740185073_cont_sun_m_199_12_alg».proof.Proof.Gen.Kernel.Regions

set_option maxRecDepth 16384

noncomputable section

namespace Cert.Kernel.Hand

open Cert.Kernel Cert.Kernel.Gen Cert.Kernel.Facts₀ Cert.Kernel.Facts
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents at each boundary -/

/-- At launch. -/
abbrev W0 : Dev nD → Valuation τ sig (Elt F) := fun c b => (s₀ m ρ).mem ((c : Dev nD), b)
/-- After the opening host stretch: the first region's entry. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the first region: its arrays at what its write-backs leave. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- What the second region leaves in its output array. -/
def o3 (c : Dev nD) : Buf (Elt F) ((c : Thread nD τ).loc main_v13) := (dat1 (V2 m ρ) c).arrAt 6 cfg1.N
/-- After the second region: its output array at what its write-backs leave, every other buffer as entered. -/
def W3 (c : Dev nD) : Valuation τ sig (Elt F) := Function.update (W2 m ρ c) main_v13 (o3 m ρ c)
abbrev V3 : (c : Dev nD) → (b : Ref sig .tc) → Buf (Elt F) ((c : Thread nD τ).loc b) := fun c b => W3 m ρ c b
theorem V3_v13 (c : Dev nD) : V3 m ρ c main_v13 = o3 m ρ c := by
  show Function.update (W2 m ρ c) main_v13 (o3 m ρ c) main_v13 = _
  exact Function.update_self ..
theorem V3_of_ne (c : Dev nD) (b : Ref sig .tc) (h : b ≠ main_v13) : V3 m ρ c b = V2 m ρ c b := by
  show Function.update (W2 m ρ c) main_v13 (o3 m ρ c) b = _
  exact Function.update_of_ne (StableHlo.devRef_ne_of_ne h) ..
/-- After the closing reshape. -/
abbrev W4 : Dev nD → Valuation τ sig (Elt F) := fun c => StableHlo.after hostOps2 (W3 m ρ c)

/-! ## The second region's shared array -/

section Shared

variable (V : (c : Dev nD) → (b : Ref sig .tc) → Buf (Elt F) ((c : Thread nD τ).loc b))

/-- A core's unscoped buffers are the buffers behind the second region's windows and the rest. -/
theorem ub_split1 (c : Dev nD) (Vc : (b : Ref sig .tc) → Buf (Elt F) ((c : Thread nD τ).loc b)) :
    (unscopedBufs c Vc : sProp 𝕄) = iprop(Pipeline.arrBufs spec1 c Vc ∗ Pipeline.unscopedRest spec1 c Vc) := by
  classical
  have hA : Finset.univ.image (Pipeline.arrRef spec1) ⊆ Finset.univ.filter fun b : Ref sig .tc => ¬ b.isScoped := by decide
  unfold unscopedBufs Pipeline.unscopedRest Pipeline.arrBufs
  rw [bigSep_sdiff_split hA]
  rfl

/-- The five distinct buffers behind the seven windows, listed. -/
theorem arrBufs1_eq (c : Dev nD) (Vc : (b : Ref sig .tc) → Buf (Elt F) ((c : Thread nD τ).loc b)) :
    (Pipeline.arrBufs spec1 c Vc : sProp 𝕄)
      = iprop((((c : Thread nD τ).loc main_v12) ↦{fullShare} Vc main_v12) ∗ (((c : Thread nD τ).loc main_v2) ↦{fullShare} Vc main_v2)
          ∗ (((c : Thread nD τ).loc main_v11) ↦{fullShare} Vc main_v11) ∗ (((c : Thread nD τ).loc main_arg4) ↦{fullShare} Vc main_arg4)
          ∗ (((c : Thread nD τ).loc main_v13) ↦{fullShare} Vc main_v13)) := by
  unfold Pipeline.arrBufs
  exact bigSep_eq_bigSepL_of_eq [main_v12, main_v2, main_v11, main_arg4, main_v13] (by decide) (by decide) _

/-- The shares the windows hold their arrays at. -/
def share1 : Fin 7 → PosShare TreeShare
  | ⟨0, _⟩ => fullShare.left
  | ⟨1, _⟩ => fullShare.right.left
  | ⟨2, _⟩ => fullShare.right.right
  | ⟨3, _⟩ => fullShare
  | ⟨4, _⟩ => fullShare
  | ⟨5, _⟩ => fullShare
  | ⟨6, _⟩ => fullShare

theorem share1_eq (c : Dev nD) (w : Fin cfg1.W) : (dat1 V c).share w = share1 w := by
  match w with
  | ⟨0, _⟩ => rfl
  | ⟨1, _⟩ => rfl
  | ⟨2, _⟩ => rfl
  | ⟨3, _⟩ => rfl
  | ⟨4, _⟩ => rfl
  | ⟨5, _⟩ => rfl
  | ⟨6, _⟩ => rfl

/-- The second pipeline's arrays, window by window: three fractions of the shared buffer, then the four others. -/
theorem arrays1_eq (c : Dev nD) (G : (w : Fin cfg1.W) → Buf (Elt F) ((cfg1.win w).arr.view.loc (c : Thread nD τ))) :
    ((dat1 V c).arrays G : sProp 𝕄)
      = iprop((((c : Thread nD τ).loc main_v12) ↦{fullShare.left} G 0) ∗ (((c : Thread nD τ).loc main_v12) ↦{fullShare.right.left} G 1)
          ∗ (((c : Thread nD τ).loc main_v12) ↦{fullShare.right.right} G 2) ∗ (((c : Thread nD τ).loc main_v2) ↦{fullShare} G 3)
          ∗ (((c : Thread nD τ).loc main_v11) ↦{fullShare} G 4) ∗ (((c : Thread nD τ).loc main_arg4) ↦{fullShare} G 5)
          ∗ (((c : Thread nD τ).loc main_v13) ↦{fullShare} G 6)) := by
  unfold Dat.arrays
  rw [bigSep_congr (Ψ := fun w : Fin cfg1.W => ((c : Thread nD τ).loc (Pipeline.arrRef spec1 w)) ↦{share1 w} G w)
    (fun w _ => by rw [(arr_whole1 w).set_eq_univ, share1_eq]), bigSep_W1]
  rfl

end Shared

end Cert.Kernel.Hand

end
-- ==== Proof.KBRunB.lean ====
/-
  The program's run: the two kernel regions as segments between the host stretches, entered from and left at the
  boundary contents, and the final state read back — every argument array as launched, the result array at the closing
  reshape of what the second region leaves.
-/
import proofs.«166787_g36747740185073_cont_sun_m_199_12_alg».proof.Proof.KBRunA

set_option maxRecDepth 16384

noncomputable section

namespace Cert.Kernel.Hand

open Cert.Kernel Cert.Kernel.Gen Cert.Kernel.Facts₀ Cert.Kernel.Facts
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## No item writes an argument -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := StableHlo.after_of_writes_sub hostOps2 _ hostOps2_writes (by decide)
    _ = W2 m ρ c (Proc.devRef .tc main_arg0) := V3_of_ne m ρ c main_arg0 (by decide)
    _ = W1 m ρ c (Proc.devRef .tc main_arg0) := W2_of_ne m ρ c main_arg0 (by decide)
    _ = W0 m ρ c (Proc.devRef .tc main_arg0) := StableHlo.after_of_writes_sub hostOps0 _ hostOps0_writes (by decide)
    _ = m ((c : Thread nD τ).loc main_arg0) := rfl
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := StableHlo.after_of_writes_sub hostOps2 _ hostOps2_writes (by decide)
    _ = W2 m ρ c (Proc.devRef .tc main_arg1) := V3_of_ne m ρ c main_arg1 (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := StableHlo.after_of_writes_sub hostOps2 _ hostOps2_writes (by decide)
    _ = W2 m ρ c (Proc.devRef .tc main_arg2) := V3_of_ne m ρ c main_arg2 (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := StableHlo.after_of_writes_sub hostOps2 _ hostOps2_writes (by decide)
    _ = W2 m ρ c (Proc.devRef .tc main_arg3) := V3_of_ne m ρ c main_arg3 (by decide)
    _ = W1 m ρ c (Proc.devRef .tc main_arg3) := W2_of_ne m ρ c main_arg3 (by decide)
    _ = W0 m ρ c (Proc.devRef .tc main_arg3) := StableHlo.after_of_writes_sub hostOps0 _ hostOps0_writes (by decide)
    _ = m ((c : Thread nD τ).loc main_arg3) := rfl
theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := StableHlo.after_of_writes_sub hostOps2 _ hostOps2_writes (by decide)
    _ = W2 m ρ c (Proc.devRef .tc main_arg4) := V3_of_ne m ρ c main_arg4 (by decide)
    _ = W1 m ρ c (Proc.devRef .tc main_arg4) := W2_of_ne m ρ c main_arg4 (by decide)
    _ = W0 m ρ c (Proc.devRef .tc main_arg4) := StableHlo.after_of_writes_sub hostOps0 _ hostOps0_writes (by decide)
    _ = m ((c : Thread nD τ).loc main_arg4) := rfl

/-! ## The second region's arrays out of the unscoped buffers and back -/

/-- ENTRY: the unscoped buffers at the second region's entry contents are its arrays at entry — the shared buffer dealt
    as a half and two quarters — and the rest. -/
theorem hsplit1 (c : Dev nD) :
    (unscopedBufs c (V2 m ρ c) : sProp 𝕄)
      ⊢ iprop((dat1 (V2 m ρ) c).arrays ((dat1 (V2 m ρ) c).arrAt · 0) ∗ Pipeline.unscopedRest spec1 c (V2 m ρ c)) := by
  rw [ub_split1]
  refine sep_mono ?_ .rfl
  rw [arrBufs1_eq, arrays1_eq]
  have hG : ∀ w, (dat1 (V2 m ρ) c).arrAt w 0 = V2 m ρ c (Pipeline.arrRef spec1 w) := fun w => A_eq1 (V2 m ρ) c w
  simp only [hG]
  iintro ⟨H12, H2, H11, H4, H13⟩
  ihave H12' := (pointsTo_share (PosShare.mem_left_op_right fullShare)).1 $$ H12
  icases H12' with ⟨Ha, Hbc⟩
  ihave Hbc' := (pointsTo_share (PosShare.mem_left_op_right fullShare.right)).1 $$ Hbc
  icases Hbc' with ⟨Hb, Hc⟩
  isplitl [Ha]; · iexact Ha
  isplitl [Hb]; · iexact Hb
  isplitl [Hc]; · iexact Hc
  isplitl [H2]; · iexact H2
  isplitl [H11]; · iexact H11
  isplitl [H4]; · iexact H4
  iexact H13

/-- EXIT: the second region's arrays at what it leaves — the three fractions of the shared buffer as entered, the
    output array at its write-backs — and the rest are the unscoped buffers at the exit contents. -/
theorem hjoin1 (c : Dev nD) :
    iprop((dat1 (V2 m ρ) c).arrays ((dat1 (V2 m ρ) c).arrAt · cfg1.N) ∗ Pipeline.unscopedRest spec1 c (V2 m ρ c))
      ⊢ (unscopedBufs c (V3 m ρ c) : sProp 𝕄) := by
  rw [ub_split1 c (V3 m ρ c)]
  refine sep_mono ?_ (Entails.of_eq ?_)
  · rw [arrBufs1_eq, arrays1_eq]
    have hG : ∀ w : Fin cfg1.W, (cfg1.win w).isOut = false → (dat1 (V2 m ρ) c).arrAt w cfg1.N = V2 m ρ c (Pipeline.arrRef spec1 w) :=
      fun w hw => ((dat1 (V2 m ρ) c).arrAt_in w hw _).trans (A_eq1 (V2 m ρ) c w)
    rw [hG 0 rfl, hG 1 rfl, hG 2 rfl, hG 3 rfl, hG 4 rfl, hG 5 rfl,
      V3_of_ne m ρ c main_v12 (by decide), V3_of_ne m ρ c main_v2 (by decide), V3_of_ne m ρ c main_v11 (by decide),
      V3_of_ne m ρ c main_arg4 (by decide), V3_v13]
    iintro ⟨Ha, Hb, Hc, H2, H11, H4, H13⟩
    ihave Hbc := (pointsTo_share (PosShare.mem_left_op_right fullShare.right)).2 $$ [Hb Hc]
    · isplitl [Hb]; · iexact Hb
      iexact Hc
    ihave H12 := (pointsTo_share (PosShare.mem_left_op_right fullShare)).2 $$ [Ha Hbc]
    · isplitl [Ha]; · iexact Ha
      iexact Hbc
    isplitl [H12]; · iexact H12
    isplitl [H2]; · iexact H2
    isplitl [H11]; · iexact H11
    isplitl [H4]; · iexact H4
    iexact H13
  · unfold Pipeline.unscopedRest
    exact bigSep_congr fun b hb => by
      rw [V3_of_ne m ρ c b (fun e => (Finset.mem_sdiff.mp hb).2 (Finset.mem_image.mpr ⟨6, Finset.mem_univ _, e.symm⟩))]

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- The first region: its arrays split out of the unscoped buffers and put back at the exit contents. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region: the buffer its three reading windows share is dealt among them at entry and put together at
    exit; its output array ends at its write-backs. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit : (unscopedBufs c (V2 m ρ c) : sProp 𝕄) ⊢ iprop((pdats m ρ 1 c).arrays ((pdats m ρ 1 c).arrAt · 0) ∗ Pipeline.unscopedRest spec1 c (V2 m ρ c)) := hsplit1 m ρ c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m ρ 1 c).arrays ((pdats m ρ 1 c).arrAt · cfg1.N) ∗ Pipeline.unscopedRest spec1 c (V2 m ρ c)) ⊢ (unscopedBufs c (V3 m ρ c) : sProp 𝕄) := hjoin1 m ρ c
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)) ]
theorem main_run (c : Dev nD) : main (F := F) c = Pipeline.Seg.run (segs m ρ) := (main_chain c).trans (by chain_rfl)

set_option backward.isDefEq.respectTransparency.types false in
/-- Every weakly fair execution of the program terminates, nothing faulting, and the final state holds every unscoped
    buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      show iprop(StableHlo.held (c : Thread nD τ) (Pipeline.ucRefs τ sig) (StableHlo.after hostOps2 (W3 m ρ c)) ∗ R c) ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c)⟩) (run_all m ρ)

end Cert.Kernel.Hand

end
-- ==== Proof.KIFrame0.lean ====
/-
  The first kernel region (the masked projection to 3072 feature rows), at a parameter `V`: the buffers' contents
  when the region is entered. A grid point reads a block of 512 token rows, their 512 expert ids and the whole weight
  matrix, and writes the 3072 × 512 block of feature-major projections; each input's staging buffer holds the block
  the point reads, the output's buffer ends at the body's one store.
-/
import proofs.«166787_g36747740185073_cont_sun_m_199_12_alg».proof.Proof.Gen.KernelIdeal.Launch
import proofs.«166787_g36747740185073_cont_sun_m_199_12_alg».proof.Proof.Gen.KernelIdeal.Skeleton
import proofs.«166787_g36747740185073_cont_sun_m_199_12_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen Cert.KernelIdeal.Facts₀ Cert.KernelIdeal.Facts
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S512x1024 := Rect.unit (s := S512x1024) ![0, 0] S512x1024.size Facts₀.inb_S512x1024_S512x1024_0_0
abbrev r0_1 : Rect S1x1x512 := Rect.unit (s := S1x1x512) ![0, 0, 0] S1x1x512.size Facts₀.inb_S1x1x512_S1x1x512_0_0_0
abbrev r0_2 : Rect S3072x1024 := Rect.unit (s := S3072x1024) ![0, 0] S3072x1024.size Facts₀.inb_S3072x1024_S3072x1024_0_0
abbrev r0_3 : Rect S3072x512 := Rect.unit (s := S3072x512) ![0, 0] S3072x512.size Facts₀.inb_S3072x512_S3072x512_0_0

/-- The output block after the body, from the input blocks: the body's one store. -/
def out0_3 (x0 : Vec F S512x1024 .f32) (x1 : Vec F S1x1x512 .i32) (x2 : Vec F S3072x1024 .bf16) : Vec F S3072x512 .bf16 :=
  View.canon [⟨r0_3, k0_pay1 (View.ld x0 r0_0) (View.ld x1 r0_1) (View.ld x2 r0_2)⟩]

/-- The store covers the buffer. -/
theorem cover0_3 (p0 : Vec F S3072x512 .bf16) (y : S3072x512.Idx) :
    ∃ pc ∈ ([⟨r0_3, p0⟩] : List (View.Piece (Elt F) S3072x512 .bf16)), y ∈ pc.1.set :=
  View.cover_of_tiled [⟨r0_3, p0⟩] S3072x512.size (by rfl) y

set_option maxHeartbeats 1000000 in
/-- The body on whole staging memrefs: the inputs stay, the output ends at `out0_3` of the inputs. -/
theorem sound_kernel0 (c : Dev nD) (E : Set ℕ) (i : grid0.Coords)
    (arg1 : Memref sig .tc .vmem S512x1024 .f32) (harg1 : arg1.IsWhole) (arg2 : Memref sig .tc .vmem S1x1x512 .i32) (harg2 : arg2.IsWhole)
    (arg3 : Memref sig .tc .vmem S3072x1024 .bf16) (harg3 : arg3.IsWhole) (arg4 : Memref sig .tc .vmem S3072x512 .bf16) (harg4 : arg4.IsWhole)
    (x0 : Vec F S512x1024 .f32) (x1 : Vec F S1x1x512 .i32) (x2 : Vec F S3072x1024 .bf16) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__qkv_kernel i arg1 harg1 arg2 harg2 arg3 harg3 arg4 harg4) K := by
  simp only [cc0__qkv_kernel_eq_skeleton]; unfold cc0__qkv_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The proof data of the first pipeline on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KBody1Def.lean ====
/-
  The value the second kernel's body stores to its output block, as the composition of the generated payload
  terms over what the body loads: the key and value blocks whole, per head a 64-row slab of the query block and a
  one-head slab of the projection weights, the bias and the expert ids whole.
-/
import proofs.«166787_g36747740185073_cont_sun_m_199_12_alg».proof.Proof.Gen.KernelIdeal.Skeleton
import Idealize.ShloMosaic.Lib.Pipeline.Value

noncomputable section

namespace Cert.KernelIdeal.BodyVal

open Idealize.ShloMosaic Idealize.SL.Sem

variable {F : FTy → Type} [FloatOps F]

/-- The stored value of the attention-and-projection body over its six input blocks: query block `xq`
    [feature, query], key and value blocks `xk`, `xv` [feature, key], expert ids `xe`, per-head projection weights
    `xw` [head, lane, output feature], bias `xb`. Each binding is one load or one payload of the generated skeleton,
    in the body's order. -/
def pay1 (xq : Vec F S1024x1024 .bf16) (xk xv : Vec F S1024x2048 .bf16) (xe : Vec F S1x1x1024 .i32)
    (xw : Vec F S16x64x1024 .bf16) (xb : Vec F S1024 .f32) : FVec F S1024x1024 .f32 :=
  let v0 : Vec F S1024x2048 .bf16 := View.ld (Val := Elt F) (e' := .bf16) xk (Rect.unit (s := S1024x2048) ![0, 0] S1024x2048.size Gen.inb_S1024x2048_S1024x2048_0_0)
  let v2 : Vec F S1024x2048 .bf16 := View.ld (Val := Elt F) (e' := .bf16) xv (Rect.unit (s := S1024x2048) ![0, 0] S1024x2048.size Gen.inb_S1024x2048_S1024x2048_0_0)
  let v4 : Vec F S64x1024 .bf16 := View.ld (Val := Elt F) (e' := .bf16) xq (Rect.unit (s := S1024x1024) ![0, 0] S64x1024.size Gen.inb_S1024x1024_S64x1024_0_0)
  let v21 : Vec F S1x64x1024 .bf16 := View.ld (Val := Elt F) (e' := .bf16) xw (Rect.unit (s := S16x64x1024) ![0, 0, 0] S1x64x1024.size Gen.inb_S16x64x1024_S1x64x1024_0_0_0)
  let v24 : Vec F S64x1024 .bf16 := View.ld (Val := Elt F) (e' := .bf16) xq (Rect.unit (s := S1024x1024) ![64, 0] S64x1024.size Gen.inb_S1024x1024_S64x1024_64_0)
  let v41 : Vec F S1x64x1024 .bf16 := View.ld (Val := Elt F) (e' := .bf16) xw (Rect.unit (s := S16x64x1024) ![1, 0, 0] S1x64x1024.size Gen.inb_S16x64x1024_S1x64x1024_1_0_0)
  let v45 : Vec F S64x1024 .bf16 := View.ld (Val := Elt F) (e' := .bf16) xq (Rect.unit (s := S1024x1024) ![128, 0] S64x1024.size Gen.inb_S1024x1024_S64x1024_128_0)
  let v62 : Vec F S1x64x1024 .bf16 := View.ld (Val := Elt F) (e' := .bf16) xw (Rect.unit (s := S16x64x1024) ![2, 0, 0] S1x64x1024.size Gen.inb_S16x64x1024_S1x64x1024_2_0_0)
  let v66 : Vec F S64x1024 .bf16 := View.ld (Val := Elt F) (e' := .bf16) xq (Rect.unit (s := S1024x1024) ![192, 0] S64x1024.size Gen.inb_S1024x1024_S64x1024_192_0)
  let v83 : Vec F S1x64x1024 .bf16 := View.ld (Val := Elt F) (e' := .bf16) xw (Rect.unit (s := S16x64x1024) ![3, 0, 0] S1x64x1024.size Gen.inb_S16x64x1024_S1x64x1024_3_0_0)
  let v87 : Vec F S64x1024 .bf16 := View.ld (Val := Elt F) (e' := .bf16) xq (Rect.unit (s := S1024x1024) ![256, 0] S64x1024.size Gen.inb_S1024x1024_S64x1024_256_0)
  let v104 : Vec F S1x64x1024 .bf16 := View.ld (Val := Elt F) (e' := .bf16) xw (Rect.unit (s := S16x64x1024) ![4, 0, 0] S1x64x1024.size Gen.inb_S16x64x1024_S1x64x1024_4_0_0)
  let v108 : Vec F S64x1024 .bf16 := View.ld (Val := Elt F) (e' := .bf16) xq (Rect.unit (s := S1024x1024) ![320, 0] S64x1024.size Gen.inb_S1024x1024_S64x1024_320_0)
  let v125 : Vec F S1x64x1024 .bf16 := View.ld (Val := Elt F) (e' := .bf16) xw (Rect.unit (s := S16x64x1024) ![5, 0, 0] S1x64x1024.size Gen.inb_S16x64x1024_S1x64x1024_5_0_0)
  let v129 : Vec F S64x1024 .bf16 := View.ld (Val := Elt F) (e' := .bf16) xq (Rect.unit (s := S1024x1024) ![384, 0] S64x1024.size Gen.inb_S1024x1024_S64x1024_384_0)
  let v146 : Vec F S1x64x1024 .bf16 := View.ld (Val := Elt F) (e' := .bf16) xw (Rect.unit (s := S16x64x1024) ![6, 0, 0] S1x64x1024.size Gen.inb_S16x64x1024_S1x64x1024_6_0_0)
  let v150 : Vec F S64x1024 .bf16 := View.ld (Val := Elt F) (e' := .bf16) xq (Rect.unit (s := S1024x1024) ![448, 0] S64x1024.size Gen.inb_S1024x1024_S64x1024_448_0)
  let v167 : Vec F S1x64x1024 .bf16 := View.ld (Val := Elt F) (e' := .bf16) xw (Rect.unit (s := S16x64x1024) ![7, 0, 0] S1x64x1024.size Gen.inb_S16x64x1024_S1x64x1024_7_0_0)
  let v171 : Vec F S64x1024 .bf16 := View.ld (Val := Elt F) (e' := .bf16) xq (Rect.unit (s := S1024x1024) ![512, 0] S64x1024.size Gen.inb_S1024x1024_S64x1024_512_0)
  let v188 : Vec F S1x64x1024 .bf16 := View.ld (Val := Elt F) (e' := .bf16) xw (Rect.unit (s := S16x64x1024) ![8, 0, 0] S1x64x1024.size Gen.inb_S16x64x1024_S1x64x1024_8_0_0)
  let v192 : Vec F S64x1024 .bf16 := View.ld (Val := Elt F) (e' := .bf16) xq (Rect.unit (s := S1024x1024) ![576, 0] S64x1024.size Gen.inb_S1024x1024_S64x1024_576_0)
  let v209 : Vec F S1x64x1024 .bf16 := View.ld (Val := Elt F) (e' := .bf16) xw (Rect.unit (s := S16x64x1024) ![9, 0, 0] S1x64x1024.size Gen.inb_S16x64x1024_S1x64x1024_9_0_0)
  let v213 : Vec F S64x1024 .bf16 := View.ld (Val := Elt F) (e' := .bf16) xq (Rect.unit (s := S1024x1024) ![640, 0] S64x1024.size Gen.inb_S1024x1024_S64x1024_640_0)
  let v230 : Vec F S1x64x1024 .bf16 := View.ld (Val := Elt F) (e' := .bf16) xw (Rect.unit (s := S16x64x1024) ![10, 0, 0] S1x64x1024.size Gen.inb_S16x64x1024_S1x64x1024_10_0_0)
  let v234 : Vec F S64x1024 .bf16 := View.ld (Val := Elt F) (e' := .bf16) xq (Rect.unit (s := S1024x1024) ![704, 0] S64x1024.size Gen.inb_S1024x1024_S64x1024_704_0)
  let v251 : Vec F S1x64x1024 .bf16 := View.ld (Val := Elt F) (e' := .bf16) xw (Rect.unit (s := S16x64x1024) ![11, 0, 0] S1x64x1024.size Gen.inb_S16x64x1024_S1x64x1024_11_0_0)
  let v255 : Vec F S64x1024 .bf16 := View.ld (Val := Elt F) (e' := .bf16) xq (Rect.unit (s := S1024x1024) ![768, 0] S64x1024.size Gen.inb_S1024x1024_S64x1024_768_0)
  let v272 : Vec F S1x64x1024 .bf16 := View.ld (Val := Elt F) (e' := .bf16) xw (Rect.unit (s := S16x64x1024) ![12, 0, 0] S1x64x1024.size Gen.inb_S16x64x1024_S1x64x1024_12_0_0)
  let v276 : Vec F S64x1024 .bf16 := View.ld (Val := Elt F) (e' := .bf16) xq (Rect.unit (s := S1024x1024) ![832, 0] S64x1024.size Gen.inb_S1024x1024_S64x1024_832_0)
  let v293 : Vec F S1x64x1024 .bf16 := View.ld (Val := Elt F) (e' := .bf16) xw (Rect.unit (s := S16x64x1024) ![13, 0, 0] S1x64x1024.size Gen.inb_S16x64x1024_S1x64x1024_13_0_0)
  let v297 : Vec F S64x1024 .bf16 := View.ld (Val := Elt F) (e' := .bf16) xq (Rect.unit (s := S1024x1024) ![896, 0] S64x1024.size Gen.inb_S1024x1024_S64x1024_896_0)
  let v314 : Vec F S1x64x1024 .bf16 := View.ld (Val := Elt F) (e' := .bf16) xw (Rect.unit (s := S16x64x1024) ![14, 0, 0] S1x64x1024.size Gen.inb_S16x64x1024_S1x64x1024_14_0_0)
  let v318 : Vec F S64x1024 .bf16 := View.ld (Val := Elt F) (e' := .bf16) xq (Rect.unit (s := S1024x1024) ![960, 0] S64x1024.size Gen.inb_S1024x1024_S64x1024_960_0)
  let v335 : Vec F S1x64x1024 .bf16 := View.ld (Val := Elt F) (e' := .bf16) xw (Rect.unit (s := S16x64x1024) ![15, 0, 0] S1x64x1024.size Gen.inb_S16x64x1024_S1x64x1024_15_0_0)
  let v339 : Vec F S1024 .f32 := View.ld (Val := Elt F) (e' := .f32) xb (Rect.unit (s := S1024) ![0] S1024.size Gen.inb_S1024_S1024_0)
  let v343 : Vec F S1x1x1024 .i32 := View.ld (Val := Elt F) (e' := .i32) xe (Rect.unit (s := S1x1x1024) ![0, 0, 0] S1x1x1024.size Gen.inb_S1x1x1024_S1x1x1024_0_0_0)
  let v1 := Gen.k1_pay1 v0
  let v3 := Gen.k1_pay2 v2
  let v23 := Gen.k1_pay3 v0 v2 v4 v21
  let v35 := Gen.k1_pay5 v0 v24
  let v37 := Gen.k1_pay6 v0 v2 v24
  let v65 := Gen.k1_pay7 v1 v3 v23 v35 v37 v41 v45 v62
  let v69 := Gen.k1_pay8 v3
  let v77 := Gen.k1_pay10 v1 v66
  let v78 := Gen.k1_pay11 v1 v66
  let v107 := Gen.k1_pay12 v1 v3 v65 v69 v77 v78 v83 v87 v104
  let v111 := Gen.k1_pay13 v3
  let v117 := Gen.k1_pay14 v1 v108
  let v118 := Gen.k1_pay15 v1 v108
  let v149 := Gen.k1_pay16 v1 v3 v107 v111 v117 v118 v125 v129 v146
  let v153 := Gen.k1_pay17 v3
  let v159 := Gen.k1_pay18 v1 v150
  let v191 := Gen.k1_pay19 v1 v3 v149 v153 v159 v167 v171 v188
  let v195 := Gen.k1_pay20 v3
  let v196 := Gen.k1_pay21 v1 v192
  let v199 := Gen.k1_pay22 v1 v192
  let v233 := Gen.k1_pay23 v1 v3 v191 v195 v196 v199 v209 v213 v230
  let v237 := Gen.k1_pay24 v3
  let v238 := Gen.k1_pay25 v1 v234
  let v239 := Gen.k1_pay26 v1 v234
  let v275 := Gen.k1_pay27 v1 v3 v233 v237 v238 v239 v251 v255 v272
  let v279 := Gen.k1_pay28 v3
  let v280 := Gen.k1_pay29 v1 v276
  let v317 := Gen.k1_pay30 v1 v3 v275 v279 v280 v293 v297 v314
  let v319 := Gen.k1_pay31 v318
  let v320 := Gen.k1_pay32 v1
  let v321 := Gen.k1_pay33 v3
  Gen.k1_pay34 v317 v319 v320 v321 v335 v339 v343

end Cert.KernelIdeal.BodyVal

end
-- ==== Proof.KIFrame1.lean ====
/-
  The second kernel region (attention over the feature-major projections, fused with the output projection), at a
  parameter `V`: the buffers' contents when the region is entered. A grid point (batch entry, query block) reads a
  1024-query block of the query rows, the batch entry's key rows and value rows — three windows on ONE array —, the
  block's expert ids, the per-head output weights and the bias, and writes a 1024 × 1024 block of the result. The
  three windows on the shared array each hold a fraction of it: a half, a quarter and a quarter.
-/
import proofs.«166787_g36747740185073_cont_sun_m_199_12_alg».proof.Proof.Gen.KernelIdeal.Launch
import proofs.«166787_g36747740185073_cont_sun_m_199_12_alg».proof.Proof.Gen.KernelIdeal.Skeleton
import proofs.«166787_g36747740185073_cont_sun_m_199_12_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«166787_g36747740185073_cont_sun_m_199_12_alg».proof.Proof.KBody1Def

set_option maxRecDepth 16384

noncomputable section

namespace Cert.KernelIdeal.Hand

open Cert.KernelIdeal Cert.KernelIdeal.Gen Cert.KernelIdeal.Facts₀ Cert.KernelIdeal.Facts
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

abbrev r1_6 : Rect S1024x1024 := Rect.unit (s := S1024x1024) ![0, 0] S1024x1024.size Facts₀.inb_S1024x1024_S1024x1024_0_0

/-- The output block after the body, from the six input blocks: the body's one store. -/
def out1_6 (x0 : Vec F S1024x1024 .bf16) (x1 x2 : Vec F S1024x2048 .bf16) (x3 : Vec F S1x1x1024 .i32) (x4 : Vec F S16x64x1024 .bf16) (x5 : Vec F S1024 .f32) : Vec F S1024x1024 .f32 :=
  View.canon [⟨r1_6, BodyVal.pay1 x0 x1 x2 x3 x4 x5⟩]

theorem cover1_6 (p0 : Vec F S1024x1024 .f32) (y : S1024x1024.Idx) :
    ∃ pc ∈ ([⟨r1_6, p0⟩] : List (View.Piece (Elt F) S1024x1024 .f32)), y ∈ pc.1.set :=
  View.cover_of_tiled [⟨r1_6, p0⟩] S1024x1024.size (by rfl) y

set_option maxHeartbeats 4000000 in
/-- The body on whole staging memrefs: the inputs stay, the output ends at `out1_6` of the inputs. -/
theorem sound_kernel1 (c : Dev nD) (E : Set ℕ) (i : grid1.Coords)
    (arg2 : Memref sig .tc .vmem S1024x1024 .bf16) (harg2 : arg2.IsWhole) (arg3 : Memref sig .tc .vmem S1024x2048 .bf16) (harg3 : arg3.IsWhole)
    (arg4 : Memref sig .tc .vmem S1024x2048 .bf16) (harg4 : arg4.IsWhole) (arg5 : Memref sig .tc .vmem S1x1x1024 .i32) (harg5 : arg5.IsWhole)
    (arg6 : Memref sig .tc .vmem S16x64x1024 .bf16) (harg6 : arg6.IsWhole) (arg7 : Memref sig .tc .vmem S1024 .f32) (harg7 : arg7.IsWhole)
    (arg8 : Memref sig .tc .vmem S1024x1024 .f32) (harg8 : arg8.IsWhole)
    (x0 : Vec F S1024x1024 .bf16) (x1 x2 : Vec F S1024x2048 .bf16) (x3 : Vec F S1x1x1024 .i32) (x4 : Vec F S16x64x1024 .bf16) (x5 : Vec F S1024 .f32)
    (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
        ∗ (∃ d, owns (c : Thread nD τ) arg8 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
            ∗ owns (c : Thread nD τ) arg8 fullShare (out1_6 x0 x1 x2 x3 x4 x5)) -∗ K ⟨⟩))
      ⊢ wp frame (wpE (defs₀ (F := F)) Variants.none c none) E (cc1__attn_proj_kernel i arg2 harg2 arg3 harg3 arg4 harg4 arg5 harg5 arg6 harg6 arg7 harg7 arg8 harg8) K := by
  simp only [cc1__attn_proj_kernel_eq_skeleton]; unfold cc1__attn_proj_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover1_6 _)

/-- The proof data of the second pipeline on core `c`: the three windows on the shared array hold a half, a quarter
    and a quarter of it. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q w := match w with
    | ⟨0, _⟩ => fullShare.left
    | ⟨1, _⟩ => fullShare.right.left
    | ⟨2, _⟩ => fullShare.right.right
    | ⟨3, _⟩ => fullShare
    | ⟨4, _⟩ => fullShare
    | ⟨5, _⟩ => fullShare
    | ⟨6, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) :
    (dat1 V c).after 6 t = out1_6 (iblk1 V c 0 t) (iblk1 V c 1 t) (iblk1 V c 2 t) (iblk1 V c 3 t) (iblk1 V c 4 t) (iblk1 V c 5 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KIRunA.lean ====
/-
  The buffers' contents at the boundaries of the program's four items (a host stretch, the two kernel regions back to
  back, a closing reshape), and the bookkeeping of the second region's shared array: the buffer behind the three
  windows that read the projections is held whole when the region is entered, dealt to the windows as a half and two
  quarters, and put together again when the region is left.
-/
import proofs.«166787_g36747740185073_cont_sun_m_199_12_alg».proof.Proof.KIFrame0
import proofs.«166787_g36747740185073_cont_sun_m_199_12_alg».proof.Proof.KIFrame1
import proofs.«166787_g36747740185073_cont_sun_m_199_12_alg».proof.Proof.Gen.KernelIdeal.Regions

set_option maxRecDepth 16384

noncomputable section

namespace Cert.KernelIdeal.Hand

open Cert.KernelIdeal Cert.KernelIdeal.Gen Cert.KernelIdeal.Facts₀ Cert.KernelIdeal.Facts
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents at each boundary -/

/-- At launch. -/
abbrev W0 : Dev nD → Valuation τ sig (Elt F) := fun c b => (s₀ m ρ).mem ((c : Dev nD), b)
/-- After the opening host stretch: the first region's entry. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the first region: its arrays at what its write-backs leave. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- What the second region leaves in its output array. -/
def o3 (c : Dev nD) : Buf (Elt F) ((c : Thread nD τ).loc main_v13) := (dat1 (V2 m ρ) c).arrAt 6 cfg1.N
/-- After the second region: its output array at what its write-backs leave, every other buffer as entered. -/
def W3 (c : Dev nD) : Valuation τ sig (Elt F) := Function.update (W2 m ρ c) main_v13 (o3 m ρ c)
abbrev V3 : (c : Dev nD) → (b : Ref sig .tc) → Buf (Elt F) ((c : Thread nD τ).loc b) := fun c b => W3 m ρ c b
theorem V3_v13 (c : Dev nD) : V3 m ρ c main_v13 = o3 m ρ c := by
  show Function.update (W2 m ρ c) main_v13 (o3 m ρ c) main_v13 = _
  exact Function.update_self ..
theorem V3_of_ne (c : Dev nD) (b : Ref sig .tc) (h : b ≠ main_v13) : V3 m ρ c b = V2 m ρ c b := by
  show Function.update (W2 m ρ c) main_v13 (o3 m ρ c) b = _
  exact Function.update_of_ne (StableHlo.devRef_ne_of_ne h) ..
/-- After the closing reshape. -/
abbrev W4 : Dev nD → Valuation τ sig (Elt F) := fun c => StableHlo.after hostOps2 (W3 m ρ c)

/-! ## The second region's shared array -/

section Shared

variable (V : (c : Dev nD) → (b : Ref sig .tc) → Buf (Elt F) ((c : Thread nD τ).loc b))

/-- A core's unscoped buffers are the buffers behind the second region's windows and the rest. -/
theorem ub_split1 (c : Dev nD) (Vc : (b : Ref sig .tc) → Buf (Elt F) ((c : Thread nD τ).loc b)) :
    (unscopedBufs c Vc : sProp 𝕄) = iprop(Pipeline.arrBufs spec1 c Vc ∗ Pipeline.unscopedRest spec1 c Vc) := by
  classical
  have hA : Finset.univ.image (Pipeline.arrRef spec1) ⊆ Finset.univ.filter fun b : Ref sig .tc => ¬ b.isScoped := by decide
  unfold unscopedBufs Pipeline.unscopedRest Pipeline.arrBufs
  rw [bigSep_sdiff_split hA]
  rfl

/-- The five distinct buffers behind the seven windows, listed. -/
theorem arrBufs1_eq (c : Dev nD) (Vc : (b : Ref sig .tc) → Buf (Elt F) ((c : Thread nD τ).loc b)) :
    (Pipeline.arrBufs spec1 c Vc : sProp 𝕄)
      = iprop((((c : Thread nD τ).loc main_v12) ↦{fullShare} Vc main_v12) ∗ (((c : Thread nD τ).loc main_v2) ↦{fullShare} Vc main_v2)
          ∗ (((c : Thread nD τ).loc main_v11) ↦{fullShare} Vc main_v11) ∗ (((c : Thread nD τ).loc main_arg4) ↦{fullShare} Vc main_arg4)
          ∗ (((c : Thread nD τ).loc main_v13) ↦{fullShare} Vc main_v13)) := by
  unfold Pipeline.arrBufs
  exact bigSep_eq_bigSepL_of_eq [main_v12, main_v2, main_v11, main_arg4, main_v13] (by decide) (by decide) _

/-- The shares the windows hold their arrays at. -/
def share1 : Fin 7 → PosShare TreeShare
  | ⟨0, _⟩ => fullShare.left
  | ⟨1, _⟩ => fullShare.right.left
  | ⟨2, _⟩ => fullShare.right.right
  | ⟨3, _⟩ => fullShare
  | ⟨4, _⟩ => fullShare
  | ⟨5, _⟩ => fullShare
  | ⟨6, _⟩ => fullShare

theorem share1_eq (c : Dev nD) (w : Fin cfg1.W) : (dat1 V c).share w = share1 w := by
  match w with
  | ⟨0, _⟩ => rfl
  | ⟨1, _⟩ => rfl
  | ⟨2, _⟩ => rfl
  | ⟨3, _⟩ => rfl
  | ⟨4, _⟩ => rfl
  | ⟨5, _⟩ => rfl
  | ⟨6, _⟩ => rfl

/-- The second pipeline's arrays, window by window: three fractions of the shared buffer, then the four others. -/
theorem arrays1_eq (c : Dev nD) (G : (w : Fin cfg1.W) → Buf (Elt F) ((cfg1.win w).arr.view.loc (c : Thread nD τ))) :
    ((dat1 V c).arrays G : sProp 𝕄)
      = iprop((((c : Thread nD τ).loc main_v12) ↦{fullShare.left} G 0) ∗ (((c : Thread nD τ).loc main_v12) ↦{fullShare.right.left} G 1)
          ∗ (((c : Thread nD τ).loc main_v12) ↦{fullShare.right.right} G 2) ∗ (((c : Thread nD τ).loc main_v2) ↦{fullShare} G 3)
          ∗ (((c : Thread nD τ).loc main_v11) ↦{fullShare} G 4) ∗ (((c : Thread nD τ).loc main_arg4) ↦{fullShare} G 5)
          ∗ (((c : Thread nD τ).loc main_v13) ↦{fullShare} G 6)) := by
  unfold Dat.arrays
  rw [bigSep_congr (Ψ := fun w : Fin cfg1.W => ((c : Thread nD τ).loc (Pipeline.arrRef spec1 w)) ↦{share1 w} G w)
    (fun w _ => by rw [(arr_whole1 w).set_eq_univ, share1_eq]), bigSep_W1]
  rfl

end Shared

end Cert.KernelIdeal.Hand

end
-- ==== Proof.KIRunB.lean ====
/-
  The program's run: the two kernel regions as segments between the host stretches, entered from and left at the
  boundary contents, and the final state read back — every argument array as launched, the result array at the closing
  reshape of what the second region leaves.
-/
import proofs.«166787_g36747740185073_cont_sun_m_199_12_alg».proof.Proof.KIRunA

set_option maxRecDepth 16384

noncomputable section

namespace Cert.KernelIdeal.Hand

open Cert.KernelIdeal Cert.KernelIdeal.Gen Cert.KernelIdeal.Facts₀ Cert.KernelIdeal.Facts
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## No item writes an argument -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := StableHlo.after_of_writes_sub hostOps2 _ hostOps2_writes (by decide)
    _ = W2 m ρ c (Proc.devRef .tc main_arg0) := V3_of_ne m ρ c main_arg0 (by decide)
    _ = W1 m ρ c (Proc.devRef .tc main_arg0) := W2_of_ne m ρ c main_arg0 (by decide)
    _ = W0 m ρ c (Proc.devRef .tc main_arg0) := StableHlo.after_of_writes_sub hostOps0 _ hostOps0_writes (by decide)
    _ = m ((c : Thread nD τ).loc main_arg0) := rfl
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := StableHlo.after_of_writes_sub hostOps2 _ hostOps2_writes (by decide)
    _ = W2 m ρ c (Proc.devRef .tc main_arg1) := V3_of_ne m ρ c main_arg1 (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := StableHlo.after_of_writes_sub hostOps2 _ hostOps2_writes (by decide)
    _ = W2 m ρ c (Proc.devRef .tc main_arg2) := V3_of_ne m ρ c main_arg2 (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := StableHlo.after_of_writes_sub hostOps2 _ hostOps2_writes (by decide)
    _ = W2 m ρ c (Proc.devRef .tc main_arg3) := V3_of_ne m ρ c main_arg3 (by decide)
    _ = W1 m ρ c (Proc.devRef .tc main_arg3) := W2_of_ne m ρ c main_arg3 (by decide)
    _ = W0 m ρ c (Proc.devRef .tc main_arg3) := StableHlo.after_of_writes_sub hostOps0 _ hostOps0_writes (by decide)
    _ = m ((c : Thread nD τ).loc main_arg3) := rfl
theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := StableHlo.after_of_writes_sub hostOps2 _ hostOps2_writes (by decide)
    _ = W2 m ρ c (Proc.devRef .tc main_arg4) := V3_of_ne m ρ c main_arg4 (by decide)
    _ = W1 m ρ c (Proc.devRef .tc main_arg4) := W2_of_ne m ρ c main_arg4 (by decide)
    _ = W0 m ρ c (Proc.devRef .tc main_arg4) := StableHlo.after_of_writes_sub hostOps0 _ hostOps0_writes (by decide)
    _ = m ((c : Thread nD τ).loc main_arg4) := rfl

/-! ## The second region's arrays out of the unscoped buffers and back -/

/-- ENTRY: the unscoped buffers at the second region's entry contents are its arrays at entry — the shared buffer dealt
    as a half and two quarters — and the rest. -/
theorem hsplit1 (c : Dev nD) :
    (unscopedBufs c (V2 m ρ c) : sProp 𝕄)
      ⊢ iprop((dat1 (V2 m ρ) c).arrays ((dat1 (V2 m ρ) c).arrAt · 0) ∗ Pipeline.unscopedRest spec1 c (V2 m ρ c)) := by
  rw [ub_split1]
  refine sep_mono ?_ .rfl
  rw [arrBufs1_eq, arrays1_eq]
  have hG : ∀ w, (dat1 (V2 m ρ) c).arrAt w 0 = V2 m ρ c (Pipeline.arrRef spec1 w) := fun w => A_eq1 (V2 m ρ) c w
  simp only [hG]
  iintro ⟨H12, H2, H11, H4, H13⟩
  ihave H12' := (pointsTo_share (PosShare.mem_left_op_right fullShare)).1 $$ H12
  icases H12' with ⟨Ha, Hbc⟩
  ihave Hbc' := (pointsTo_share (PosShare.mem_left_op_right fullShare.right)).1 $$ Hbc
  icases Hbc' with ⟨Hb, Hc⟩
  isplitl [Ha]; · iexact Ha
  isplitl [Hb]; · iexact Hb
  isplitl [Hc]; · iexact Hc
  isplitl [H2]; · iexact H2
  isplitl [H11]; · iexact H11
  isplitl [H4]; · iexact H4
  iexact H13

/-- EXIT: the second region's arrays at what it leaves — the three fractions of the shared buffer as entered, the
    output array at its write-backs — and the rest are the unscoped buffers at the exit contents. -/
theorem hjoin1 (c : Dev nD) :
    iprop((dat1 (V2 m ρ) c).arrays ((dat1 (V2 m ρ) c).arrAt · cfg1.N) ∗ Pipeline.unscopedRest spec1 c (V2 m ρ c))
      ⊢ (unscopedBufs c (V3 m ρ c) : sProp 𝕄) := by
  rw [ub_split1 c (V3 m ρ c)]
  refine sep_mono ?_ (Entails.of_eq ?_)
  · rw [arrBufs1_eq, arrays1_eq]
    have hG : ∀ w : Fin cfg1.W, (cfg1.win w).isOut = false → (dat1 (V2 m ρ) c).arrAt w cfg1.N = V2 m ρ c (Pipeline.arrRef spec1 w) :=
      fun w hw => ((dat1 (V2 m ρ) c).arrAt_in w hw _).trans (A_eq1 (V2 m ρ) c w)
    rw [hG 0 rfl, hG 1 rfl, hG 2 rfl, hG 3 rfl, hG 4 rfl, hG 5 rfl,
      V3_of_ne m ρ c main_v12 (by decide), V3_of_ne m ρ c main_v2 (by decide), V3_of_ne m ρ c main_v11 (by decide),
      V3_of_ne m ρ c main_arg4 (by decide), V3_v13]
    iintro ⟨Ha, Hb, Hc, H2, H11, H4, H13⟩
    ihave Hbc := (pointsTo_share (PosShare.mem_left_op_right fullShare.right)).2 $$ [Hb Hc]
    · isplitl [Hb]; · iexact Hb
      iexact Hc
    ihave H12 := (pointsTo_share (PosShare.mem_left_op_right fullShare)).2 $$ [Ha Hbc]
    · isplitl [Ha]; · iexact Ha
      iexact Hbc
    isplitl [H12]; · iexact H12
    isplitl [H2]; · iexact H2
    isplitl [H11]; · iexact H11
    isplitl [H4]; · iexact H4
    iexact H13
  · unfold Pipeline.unscopedRest
    exact bigSep_congr fun b hb => by
      rw [V3_of_ne m ρ c b (fun e => (Finset.mem_sdiff.mp hb).2 (Finset.mem_image.mpr ⟨6, Finset.mem_univ _, e.symm⟩))]

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- The first region: its arrays split out of the unscoped buffers and put back at the exit contents. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region: the buffer its three reading windows share is dealt among them at entry and put together at
    exit; its output array ends at its write-backs. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit : (unscopedBufs c (V2 m ρ c) : sProp 𝕄) ⊢ iprop((pdats m ρ 1 c).arrays ((pdats m ρ 1 c).arrAt · 0) ∗ Pipeline.unscopedRest spec1 c (V2 m ρ c)) := hsplit1 m ρ c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m ρ 1 c).arrays ((pdats m ρ 1 c).arrAt · cfg1.N) ∗ Pipeline.unscopedRest spec1 c (V2 m ρ c)) ⊢ (unscopedBufs c (V3 m ρ c) : sProp 𝕄) := hjoin1 m ρ c
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)) ]
theorem main_run (c : Dev nD) : main (F := F) c = Pipeline.Seg.run (segs m ρ) := (main_chain c).trans (by chain_rfl)

set_option backward.isDefEq.respectTransparency.types false in
/-- Every weakly fair execution of the program terminates, nothing faulting, and the final state holds every unscoped
    buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      show iprop(StableHlo.held (c : Thread nD τ) (Pipeline.ucRefs τ sig) (StableHlo.after hostOps2 (W3 m ρ c)) ∗ R c) ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c)⟩) (run_all m ρ)

end Cert.KernelIdeal.Hand

end
-- ==== Proof.Assembly.lean ====
/-
  The certificate's five conjuncts put together. The kernel's result is the folded arrangement `KG` of the
  specification over the launch contents, the reference's result the textbook arrangement `RG`; under the
  precondition every float entry is a real number and every expert id is below 8, so the two feature masks are the
  same test `d < 128·(e + 1)` and the two arrangements agree entry by entry.
-/
import proofs.«166787_g36747740185073_cont_sun_m_199_12_alg».proof.Defs
import proofs.«166787_g36747740185073_cont_sun_m_199_12_alg».proof.Proof.Gen.Kernel
import proofs.«166787_g36747740185073_cont_sun_m_199_12_alg».proof.Proof.Gen.KernelIdeal
import proofs.«166787_g36747740185073_cont_sun_m_199_12_alg».proof.Proof.Gen.ReferenceIdeal
import proofs.«166787_g36747740185073_cont_sun_m_199_12_alg».proof.Proof.Gen.Pre_finite_inputs
import proofs.«166787_g36747740185073_cont_sun_m_199_12_alg».proof.Proof.Spec
import proofs.«166787_g36747740185073_cont_sun_m_199_12_alg».proof.Proof.RefRun
import proofs.«166787_g36747740185073_cont_sun_m_199_12_alg».proof.Proof.RefRead
import proofs.«166787_g36747740185073_cont_sun_m_199_12_alg».proof.Proof.PreDecode
import proofs.«166787_g36747740185073_cont_sun_m_199_12_alg».proof.Proof.AttnAlgebra
import proofs.«166787_g36747740185073_cont_sun_m_199_12_alg».proof.Proof.KBody0
import proofs.«166787_g36747740185073_cont_sun_m_199_12_alg».proof.Proof.KBRunB
import proofs.«166787_g36747740185073_cont_sun_m_199_12_alg».proof.Proof.KIRunB
import Idealize.ShloMosaic.Lib.ValueIdx

noncomputable section

namespace Cert.Proof.Assembly

open Idealize.ShloMosaic Idealize.SL.Sem Idealize.ShloMosaic.ValueIdx

/-- The kernel's result on device `c`: the folded arrangement over the launch contents of the five arguments, the
    mask the body's word-level test on the token's expert id. -/
def kval (m : (ℓ : Loc Cert.KernelIdeal.nD Cert.KernelIdeal.τ Cert.KernelIdeal.sig) → Buf (Elt Ideal) ℓ) (c : Dev Cert.KernelIdeal.nD) :
    Cert.KernelIdeal.S2x2048x1024.Idx → EReal := fun i =>
  Cert.AttnSpec.KG (fun b n d => m ((c.tc : Thread Cert.KernelIdeal.nD Cert.KernelIdeal.τ).loc Cert.KernelIdeal.main_arg0) (ix3 b n d))
    (fun b n d => Cert.KernelIdeal.BodyVal.kmaskW (m ((c.tc : Thread Cert.KernelIdeal.nD Cert.KernelIdeal.τ).loc Cert.KernelIdeal.main_arg1) (ix2 b n)) d)
    (fun f d => m ((c.tc : Thread Cert.KernelIdeal.nD Cert.KernelIdeal.τ).loc Cert.KernelIdeal.main_arg2) (ix2 f d))
    (fun o k => m ((c.tc : Thread Cert.KernelIdeal.nD Cert.KernelIdeal.τ).loc Cert.KernelIdeal.main_arg3) (ix2 o k))
    (fun o => m ((c.tc : Thread Cert.KernelIdeal.nD Cert.KernelIdeal.τ).loc Cert.KernelIdeal.main_arg4) (ix1 o)) (i 0) (i 1) (i 2)

/-- The kernel's run, as the value part of the certificate needs it: every weakly fair execution terminates with the
    result array at `kval` and the five argument arrays unchanged. -/
def KernelRun : Prop :=
  ∀ (m : (ℓ : Loc Cert.KernelIdeal.nD Cert.KernelIdeal.τ Cert.KernelIdeal.sig) → Buf (Elt Ideal) ℓ) (ρ : Dev Cert.KernelIdeal.nD → PrngReg),
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v14) = kval m c
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

/-- Over real entries and expert ids below 8 the reference's result is the folded arrangement with the body's mask:
    the reference computes the textbook arrangement with its own mask, both masks are the test `d < 128·(e + 1)`,
    and the two arrangements agree. -/
theorem ref_eq_folded (a0 : FVec Ideal Cert.ReferenceIdeal.S2x2048x1024 .f32) (a1 : IVec Cert.ReferenceIdeal.S2x2048 32)
    (a2 : FVec Ideal Cert.ReferenceIdeal.S3072x1024 .f32) (a3 : FVec Ideal Cert.ReferenceIdeal.S1024x1024 .f32) (a4 : FVec Ideal Cert.ReferenceIdeal.S1024 .f32)
    (h0 : ∀ i, ∃ r : ℝ, a0 i = (r : EReal)) (h2 : ∀ i, ∃ r : ℝ, a2 i = (r : EReal))
    (h3 : ∀ i, ∃ r : ℝ, a3 i = (r : EReal)) (h4 : ∀ i, ∃ r : ℝ, a4 i = (r : EReal)) (h1 : ∀ i, (a1 i).toNat < 8) :
    Cert.ReferenceIdeal.RefFn.refFn a0 a1 a2 a3 a4 = fun i =>
      Cert.AttnSpec.KG (fun b n d => a0 (ix3 b n d)) (fun b n d => Cert.KernelIdeal.BodyVal.kmaskW (a1 (ix2 b n)) d)
        (fun f d => a2 (ix2 f d)) (fun o k => a3 (ix2 o k)) (fun o => a4 (ix1 o)) (i 0) (i 1) (i 2) := by
  have hM : Cert.ReferenceIdeal.RefRead.rmask a1 = fun b n d => Cert.KernelIdeal.BodyVal.kmaskW (a1 (ix2 b n)) d := by
    funext b n d
    rw [Cert.ReferenceIdeal.RefRead.rmask_eq a1 (fun b n => h1 (ix2 b n)) b n d,
      Cert.KernelIdeal.BodyVal.kmaskW_eq _ d (h1 (ix2 b n))]
  rw [Cert.ReferenceIdeal.RefRead.refFn_eq, hM]
  funext i
  exact (Cert.AttnSpec.KG_eq_RG _ _ _ _ _ (fun b n d => h0 (ix3 b n d)) (fun f d => h2 (ix2 f d))
    (fun o k => h3 (ix2 o k)) (fun o => h4 (ix1 o)) (i 0) (i 1) (i 2)).symm

/-- The two idealized programs, run from memories agreeing on the arguments, end with equal results. -/
theorem algebraic_of (hK : KernelRun) : Cert.algebraic_KernelIdeal_ReferenceIdeal := by
  intro m ρ m' ρ' hpre hagree
  refine ⟨fun c => kval m c, hK m ρ, ?_⟩
  refine (θ_run (Cert.ReferenceIdeal.defs (F := Ideal)) _ _).mono (fun _ h c => ⟨(h c).1.trans ?_, (h c).2⟩)
    (Cert.ReferenceIdeal.RefRun.run m' ρ')
  obtain ⟨e0, e1, e2, e3, e4⟩ := hagree c
  obtain ⟨r0, r2, r3, r4, r1⟩ := Cert.PreDecode.of_pre_KernelIdeal m hpre c
  rw [e0, e1, e2, e3, e4]
  exact ref_eq_folded _ _ _ _ _ r0 r2 r3 r4 r1

/-- The word-level kernel runs and its argument arrays end unchanged. -/
theorem frame_k : Cert.frame_Kernel := fun m ρ _ => Cert.Kernel.Hand.frame m ρ

/-- The idealized kernel runs and its argument arrays end unchanged. -/
theorem frame_ki : Cert.frame_KernelIdeal := fun m ρ _ => Cert.KernelIdeal.Hand.frame m ρ

/-- The idealization rewrote no operation. -/
theorem preserves : Cert.preserves_Kernel_KernelIdeal := trivial

/-- The whole claim, given the kernel's run. -/
theorem claim_of (hK : KernelRun) : Cert.Claim :=
  ⟨Cert.Kernel.Gen.facts, Cert.KernelIdeal.Gen.facts, Cert.ReferenceIdeal.Gen.facts, Cert.Pre_finite_inputs.Gen.facts,
    frame_k, frame_ki, Cert.ReferenceIdeal.RefRun.frame_ri, preserves, algebraic_of hK⟩

end Cert.Proof.Assembly

end
-- ==== Proof.KIBlocks.lean ====
/-
  The windows' blocks read by coordinates, and the covers. In the first region point `t` of the 8 reads token rows
  `t·512 …`, expert-id row `t` and the whole weight matrix, and writes columns `t·512 …` of the 3072 × 4096
  projections. In the second region point `t` of the 4 (batch entry `t / 2`, query block `t`) reads query rows
  0–1023 at columns `t·1024 …`, key rows 1024–2047 and value rows 2048–3071 at columns `(t/2)·2048 …`, expert-id row
  `t`, the whole per-head weights and bias, and writes rows `t·1024 …` of the 4096 × 1024 result.
-/
import proofs.«166787_g36747740185073_cont_sun_m_199_12_alg».proof.Proof.KIFrame0
import proofs.«166787_g36747740185073_cont_sun_m_199_12_alg».proof.Proof.KIFrame1
import Idealize.ShloMosaic.Lib.ValueIdx
import Idealize.ShloMosaic.Lib.Pipeline.Value

set_option maxRecDepth 16384

noncomputable section

namespace Cert.KernelIdeal.Hand

open Cert.KernelIdeal Cert.KernelIdeal.Gen Cert.KernelIdeal.Facts₀ Cert.KernelIdeal.Facts
open Idealize.ShloMosaic Idealize.ShloMosaic.TcCoe Idealize.ShloMosaic.ValueIdx
open Idealize.SL Idealize.SL.Sem
open Idealize.ShloMosaic.Pipeline (Dat Cfg Window)

variable {F : FTy → Type} [FloatOps F]

variable (V : (c : Dev nD) → (b : Ref sig .tc) → Buf (Elt F) ((c : Thread nD τ).loc b))

/-! ## The first region -/

/-- The printed index maps over the 8 points. -/
theorem idx0 : ∀ t : Fin cfg0.N, win0_0.index t (0 : Fin 2) = t.val ∧ win0_0.index t (1 : Fin 2) = 0
    ∧ win0_1.index t (0 : Fin 3) = t.val ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = t.val ∧ t.val < 8 :=
  (by decide +kernel : ∀ t : Fin grid0.N, _)

theorem iblk0_0_apply (c : Dev nD) (t : Fin cfg0.N) (r : Fin 512) (d : Fin 1024) :
    iblk0 V c 0 t (ix2 r d) = V c main_v0 (ix2 (⟨t.val * 512 + r.val, by have := (idx0 t).2.2.2.2.2.2.2.2.2; omega⟩ : Fin 4096) d) := by
  show V c main_v0 (((cfg0.win 0).blk t).view.emb (ix2 r d)) = _
  refine congrArg _ ?_
  obtain ⟨e0, e1, -⟩ := idx0 t
  funext a; apply Fin.ext
  match a with
  | ⟨0, _⟩ => show win0_0.index t (0 : Fin 2) * 512 + 1 * r.val = t.val * 512 + r.val; omega
  | ⟨1, _⟩ => show win0_0.index t (1 : Fin 2) * 1024 + 1 * d.val = d.val; omega

theorem iblk0_1_apply (c : Dev nD) (t : Fin cfg0.N) (r : Fin 512) :
    iblk0 V c 1 t (ix3 (0 : Fin 1) (0 : Fin 1) r) = V c main_v1 (ix3 (⟨t.val, (idx0 t).2.2.2.2.2.2.2.2.2⟩ : Fin 8) (0 : Fin 1) r) := by
  show V c main_v1 (((cfg0.win 1).blk t).view.emb (ix3 (0 : Fin 1) (0 : Fin 1) r)) = _
  refine congrArg _ ?_
  obtain ⟨-, -, e0, e1, e2, -⟩ := idx0 t
  funext a; apply Fin.ext
  match a with
  | ⟨0, _⟩ => show win0_1.index t (0 : Fin 3) * 1 + 1 * 0 = t.val; omega
  | ⟨1, _⟩ => show win0_1.index t (1 : Fin 3) * 1 + 1 * 0 = 0; omega
  | ⟨2, _⟩ => show win0_1.index t (2 : Fin 3) * 512 + 1 * r.val = r.val; omega

theorem iblk0_2_apply (c : Dev nD) (t : Fin cfg0.N) (f : Fin 3072) (d : Fin 1024) :
    iblk0 V c 2 t (ix2 f d) = V c main_v8 (ix2 f d) := by
  show V c main_v8 (((cfg0.win 2).blk t).view.emb (ix2 f d)) = _
  refine congrArg _ ?_
  obtain ⟨-, -, -, -, -, e0, e1, -⟩ := idx0 t
  funext a; apply Fin.ext
  match a with
  | ⟨0, _⟩ => show win0_2.index t (0 : Fin 2) * 3072 + 1 * f.val = f.val; omega
  | ⟨1, _⟩ => show win0_2.index t (1 : Fin 2) * 1024 + 1 * d.val = d.val; omega

/-- The output window's block of a whole-array function. -/
theorem oblk0_apply (c : Dev nD) (t : Fin cfg0.N) (G : S3072x4096.Idx → Elt F .bf16) (f : Fin 3072) (r : Fin 512) :
    ((cfg0.win 3).blk t).view.read (Elt F) G (ix2 f r) = G (ix2 f (⟨t.val * 512 + r.val, by have := (idx0 t).2.2.2.2.2.2.2.2.2; omega⟩ : Fin 4096)) := by
  show G (((cfg0.win 3).blk t).view.emb (ix2 f r)) = _
  refine congrArg _ ?_
  obtain ⟨-, -, -, -, -, -, -, e0, e1, -⟩ := idx0 t
  funext a; apply Fin.ext
  match a with
  | ⟨0, _⟩ => show win0_3.index t (0 : Fin 2) * 3072 + 1 * f.val = f.val; omega
  | ⟨1, _⟩ => show win0_3.index t (1 : Fin 2) * 512 + 1 * r.val = t.val * 512 + r.val; omega

theorem mem_oblk0 (t : Fin cfg0.N) (i : S3072x4096.Idx) :
    i ∈ ((cfg0.win 3).blk t).view.set ↔ ∀ a : Fin 2, win0_3.index t a * S3072x512.size a ≤ (i a).val ∧ (i a).val < win0_3.index t a * S3072x512.size a + S3072x512.size a := by
  show i ∈ ((View.whole main_v12).slice (win0_3.rect t)).set ↔ _
  rw [View.set_slice_whole, Rect.mem_set_unit]
  exact Iff.rfl

/-- Every column of the projections is in some point's block. -/
theorem cover0 (i : S3072x4096.Idx) : ∃ t : Fin cfg0.N, (cfg0.win 3).flush t = true ∧ i ∈ ((cfg0.win 3).blk t).view.set := by
  have hi0 : (i 0).val < 3072 := (i 0).isLt
  have hi1 : (i 1).val < 4096 := (i 1).isLt
  let t : Fin cfg0.N := ⟨(i 1).val / 512, by rw [show cfg0.N = 8 from N_0]; omega⟩
  refine ⟨t, flush0_3 t, ?_⟩
  rw [mem_oblk0]
  obtain ⟨-, -, -, -, -, -, -, e0, e1, -⟩ := idx0 t
  have ht : t.val = (i 1).val / 512 := rfl
  intro a
  match a with
  | ⟨0, _⟩ => show win0_3.index t (0 : Fin 2) * 3072 ≤ (i 0).val ∧ (i 0).val < win0_3.index t (0 : Fin 2) * 3072 + 3072; omega
  | ⟨1, _⟩ => show win0_3.index t (1 : Fin 2) * 512 ≤ (i 1).val ∧ (i 1).val < win0_3.index t (1 : Fin 2) * 512 + 512; omega

/-! ## The second region -/

/-- The printed index maps over the 4 points. -/
theorem idx1 : ∀ t : Fin cfg1.N, win1_0.index t (0 : Fin 2) = 0 ∧ win1_0.index t (1 : Fin 2) = t.val
    ∧ win1_1.index t (0 : Fin 2) = 1 ∧ win1_1.index t (1 : Fin 2) = t.val / 2
    ∧ win1_2.index t (0 : Fin 2) = 2 ∧ win1_2.index t (1 : Fin 2) = t.val / 2
    ∧ win1_3.index t (0 : Fin 3) = t.val ∧ win1_3.index t (1 : Fin 3) = 0 ∧ win1_3.index t (2 : Fin 3) = 0
    ∧ win1_4.index t (0 : Fin 3) = 0 ∧ win1_4.index t (1 : Fin 3) = 0 ∧ win1_4.index t (2 : Fin 3) = 0
    ∧ win1_5.index t (0 : Fin 1) = 0
    ∧ win1_6.index t (0 : Fin 2) = t.val ∧ win1_6.index t (1 : Fin 2) = 0 ∧ t.val < 4 :=
  (by decide +kernel : ∀ t : Fin grid1.N, _)

theorem tlt1 (t : Fin cfg1.N) : t.val < 4 := (idx1 t).2.2.2.2.2.2.2.2.2.2.2.2.2.2.2

theorem iblk1_0_apply (c : Dev nD) (t : Fin cfg1.N) (f : Fin 1024) (q : Fin 1024) :
    iblk1 V c 0 t (ix2 f q) = V c main_v12 (ix2 (⟨f.val, by omega⟩ : Fin 3072) (⟨t.val * 1024 + q.val, by have := tlt1 t; omega⟩ : Fin 4096)) := by
  show V c main_v12 (((cfg1.win 0).blk t).view.emb (ix2 f q)) = _
  refine congrArg _ ?_
  obtain ⟨e0, e1, -⟩ := idx1 t
  funext a; apply Fin.ext
  match a with
  | ⟨0, _⟩ => show win1_0.index t (0 : Fin 2) * 1024 + 1 * f.val = f.val; omega
  | ⟨1, _⟩ => show win1_0.index t (1 : Fin 2) * 1024 + 1 * q.val = t.val * 1024 + q.val; omega

theorem iblk1_1_apply (c : Dev nD) (t : Fin cfg1.N) (f : Fin 1024) (k : Fin 2048) :
    iblk1 V c 1 t (ix2 f k) = V c main_v12 (ix2 (⟨1024 + f.val, by omega⟩ : Fin 3072) (⟨(t.val / 2) * 2048 + k.val, by have := tlt1 t; omega⟩ : Fin 4096)) := by
  show V c main_v12 (((cfg1.win 1).blk t).view.emb (ix2 f k)) = _
  refine congrArg _ ?_
  obtain ⟨-, -, e0, e1, -⟩ := idx1 t
  funext a; apply Fin.ext
  match a with
  | ⟨0, _⟩ => show win1_1.index t (0 : Fin 2) * 1024 + 1 * f.val = 1024 + f.val; omega
  | ⟨1, _⟩ => show win1_1.index t (1 : Fin 2) * 2048 + 1 * k.val = (t.val / 2) * 2048 + k.val; omega

theorem iblk1_2_apply (c : Dev nD) (t : Fin cfg1.N) (f : Fin 1024) (k : Fin 2048) :
    iblk1 V c 2 t (ix2 f k) = V c main_v12 (ix2 (⟨2048 + f.val, by omega⟩ : Fin 3072) (⟨(t.val / 2) * 2048 + k.val, by have := tlt1 t; omega⟩ : Fin 4096)) := by
  show V c main_v12 (((cfg1.win 2).blk t).view.emb (ix2 f k)) = _
  refine congrArg _ ?_
  obtain ⟨-, -, -, -, e0, e1, -⟩ := idx1 t
  funext a; apply Fin.ext
  match a with
  | ⟨0, _⟩ => show win1_2.index t (0 : Fin 2) * 1024 + 1 * f.val = 2048 + f.val; omega
  | ⟨1, _⟩ => show win1_2.index t (1 : Fin 2) * 2048 + 1 * k.val = (t.val / 2) * 2048 + k.val; omega

theorem iblk1_3_apply (c : Dev nD) (t : Fin cfg1.N) (q : Fin 1024) :
    iblk1 V c 3 t (ix3 (0 : Fin 1) (0 : Fin 1) q) = V c main_v2 (ix3 (⟨t.val, tlt1 t⟩ : Fin 4) (0 : Fin 1) q) := by
  show V c main_v2 (((cfg1.win 3).blk t).view.emb (ix3 (0 : Fin 1) (0 : Fin 1) q)) = _
  refine congrArg _ ?_
  obtain ⟨-, -, -, -, -, -, e0, e1, e2, -⟩ := idx1 t
  funext a; apply Fin.ext
  match a with
  | ⟨0, _⟩ => show win1_3.index t (0 : Fin 3) * 1 + 1 * 0 = t.val; omega
  | ⟨1, _⟩ => show win1_3.index t (1 : Fin 3) * 1 + 1 * 0 = 0; omega
  | ⟨2, _⟩ => show win1_3.index t (2 : Fin 3) * 1024 + 1 * q.val = q.val; omega

theorem iblk1_4_apply (c : Dev nD) (t : Fin cfg1.N) (h : Fin 16) (d : Fin 64) (o : Fin 1024) :
    iblk1 V c 4 t (ix3 h d o) = V c main_v11 (ix3 h d o) := by
  show V c main_v11 (((cfg1.win 4).blk t).view.emb (ix3 h d o)) = _
  refine congrArg _ ?_
  obtain ⟨-, -, -, -, -, -, -, -, -, e0, e1, e2, -⟩ := idx1 t
  funext a; apply Fin.ext
  match a with
  | ⟨0, _⟩ => show win1_4.index t (0 : Fin 3) * 16 + 1 * h.val = h.val; omega
  | ⟨1, _⟩ => show win1_4.index t (1 : Fin 3) * 64 + 1 * d.val = d.val; omega
  | ⟨2, _⟩ => show win1_4.index t (2 : Fin 3) * 1024 + 1 * o.val = o.val; omega

theorem iblk1_5_apply (c : Dev nD) (t : Fin cfg1.N) (o : Fin 1024) :
    iblk1 V c 5 t (ix1 o) = V c main_arg4 (ix1 o) := by
  show V c main_arg4 (((cfg1.win 5).blk t).view.emb (ix1 o)) = _
  refine congrArg _ ?_
  obtain ⟨-, -, -, -, -, -, -, -, -, -, -, -, e0, -⟩ := idx1 t
  funext a; apply Fin.ext
  match a with
  | ⟨0, _⟩ => show win1_5.index t (0 : Fin 1) * 1024 + 1 * o.val = o.val; omega

theorem oblk1_apply (c : Dev nD) (t : Fin cfg1.N) (G : S4096x1024.Idx → Elt F .f32) (q : Fin 1024) (o : Fin 1024) :
    ((cfg1.win 6).blk t).view.read (Elt F) G (ix2 q o) = G (ix2 (⟨t.val * 1024 + q.val, by have := tlt1 t; omega⟩ : Fin 4096) o) := by
  show G (((cfg1.win 6).blk t).view.emb (ix2 q o)) = _
  refine congrArg _ ?_
  obtain ⟨-, -, -, -, -, -, -, -, -, -, -, -, -, e0, e1, -⟩ := idx1 t
  funext a; apply Fin.ext
  match a with
  | ⟨0, _⟩ => show win1_6.index t (0 : Fin 2) * 1024 + 1 * q.val = t.val * 1024 + q.val; omega
  | ⟨1, _⟩ => show win1_6.index t (1 : Fin 2) * 1024 + 1 * o.val = o.val; omega

theorem mem_oblk1 (t : Fin cfg1.N) (i : S4096x1024.Idx) :
    i ∈ ((cfg1.win 6).blk t).view.set ↔ ∀ a : Fin 2, win1_6.index t a * S1024x1024.size a ≤ (i a).val ∧ (i a).val < win1_6.index t a * S1024x1024.size a + S1024x1024.size a := by
  show i ∈ ((View.whole main_v13).slice (win1_6.rect t)).set ↔ _
  rw [View.set_slice_whole, Rect.mem_set_unit]
  exact Iff.rfl

/-- Every row of the result is in some point's block. -/
theorem cover1 (i : S4096x1024.Idx) : ∃ t : Fin cfg1.N, (cfg1.win 6).flush t = true ∧ i ∈ ((cfg1.win 6).blk t).view.set := by
  have hi0 : (i 0).val < 4096 := (i 0).isLt
  have hi1 : (i 1).val < 1024 := (i 1).isLt
  let t : Fin cfg1.N := ⟨(i 0).val / 1024, by rw [show cfg1.N = 4 from N_1]; omega⟩
  refine ⟨t, flush1_6 t, ?_⟩
  rw [mem_oblk1]
  obtain ⟨-, -, -, -, -, -, -, -, -, -, -, -, -, e0, e1, -⟩ := idx1 t
  have ht : t.val = (i 0).val / 1024 := rfl
  intro a
  match a with
  | ⟨0, _⟩ => show win1_6.index t (0 : Fin 2) * 1024 ≤ (i 0).val ∧ (i 0).val < win1_6.index t (0 : Fin 2) * 1024 + 1024; omega
  | ⟨1, _⟩ => show win1_6.index t (1 : Fin 2) * 1024 ≤ (i 1).val ∧ (i 1).val < win1_6.index t (1 : Fin 2) * 1024 + 1024; omega

end Cert.KernelIdeal.Hand

end
-- ==== Proof.KIVal0.lean ====
/-
  What the first region leaves in the projections' array: entry (f, r) of the 3072 × 4096 array is the sum over the
  1024 input features d of the weight (f, d) times the masked token entry (r, d), the token's expert id read at row
  r / 512, position r % 512 of the id blocks.
-/
import proofs.«166787_g36747740185073_cont_sun_m_199_12_alg».proof.Proof.KIBlocks
import proofs.«166787_g36747740185073_cont_sun_m_199_12_alg».proof.Proof.KBody0

set_option maxRecDepth 16384

noncomputable section

namespace Cert.KernelIdeal.Hand

open Cert.KernelIdeal Cert.KernelIdeal.Gen Cert.KernelIdeal.Facts₀ Cert.KernelIdeal.Facts Cert.KernelIdeal.BodyVal
open Idealize.ShloMosaic Idealize.ShloMosaic.TcCoe Idealize.ShloMosaic.ValueIdx
open Idealize.SL Idealize.SL.Sem
open Idealize.ShloMosaic.Pipeline (Dat Cfg Window)
open scoped BigOperators

variable (V : (c : Dev nD) → (b : Ref sig .tc) → Buf (Elt Ideal) ((c : Thread nD τ).loc b))

theorem hz2 : (![0, 0] : Fin 2 → Nat) = fun _ => 0 := funext fun a => by fin_cases a <;> rfl
theorem hz3 : (![0, 0, 0] : Fin 3 → Nat) = fun _ => 0 := funext fun a => by fin_cases a <;> rfl
theorem hz1 : (![0] : Fin 1 → Nat) = fun _ => 0 := funext fun a => by fin_cases a <;> rfl

/-- Entry (f, r) of the projections, from the token rows, the expert-id blocks and the weights. -/
def G0c (x : S4096x1024.Idx → Elt Ideal .f32) (em : S8x1x512.Idx → Elt Ideal .i32) (w : S3072x1024.Idx → Elt Ideal .bf16)
    (f : Fin 3072) (r : Fin 4096) : Elt Ideal .bf16 :=
  ∑ d : Fin 1024, w (ix2 f d) * (if kmaskW (em (ix3 (⟨r.val / 512, by omega⟩ : Fin 8) (0 : Fin 1) (⟨r.val % 512, by omega⟩ : Fin 512))) d then x (ix2 r d) else 0)

def G0 (x : S4096x1024.Idx → Elt Ideal .f32) (em : S8x1x512.Idx → Elt Ideal .i32) (w : S3072x1024.Idx → Elt Ideal .bf16) :
    S3072x4096.Idx → Elt Ideal .bf16 := fun i => G0c x em w (i 0) (i 1)

/-- What point `t` writes back is block `t` of `G0`. -/
theorem flushed0_eq (c : Dev nD) (t : Fin cfg0.N) :
    (dat0 V c).flushed 3 t = ((cfg0.win 3).blk t).view.read (Elt Ideal) (G0 (V c main_v0) (V c main_v1) (V c main_v8)) := by
  show (cfg0.win 3).cut (grid0.coords t) ((dat0 V c).after 3 t) = _
  rw [after0_3]
  unfold out0_3
  rw [View.canon_unit_zero hz2]
  simp only [View.ld_unit_zero (S := S512x1024) hz2, View.ld_unit_zero (S := S1x1x512) hz3, View.ld_unit_zero (S := S3072x1024) hz2]
  funext j
  obtain ⟨f, r, rfl⟩ : ∃ (f : Fin 3072) (r : Fin 512), j = ix2 f r := ⟨j 0, j 1, eq_ix2 j⟩
  rw [oblk0_apply c]
  show Gen.k0_pay1 (iblk0 V c 0 t) (iblk0 V c 1 t) (iblk0 V c 2 t) (ix2 f r) = _
  refine (pay0_apply _ _ _ f r).trans ?_
  have ht : t.val < 8 := (idx0 t).2.2.2.2.2.2.2.2.2
  show _ = G0c (V c main_v0) (V c main_v1) (V c main_v8) f ⟨t.val * 512 + r.val, _⟩
  unfold G0c
  refine Finset.sum_congr rfl fun d _ => ?_
  rw [iblk0_0_apply, iblk0_1_apply, iblk0_2_apply]
  have e1 : (⟨(t.val * 512 + r.val) / 512, by omega⟩ : Fin 8) = ⟨t.val, ht⟩ := Fin.ext (by show (t.val * 512 + r.val) / 512 = t.val; omega)
  have e2 : (⟨(t.val * 512 + r.val) % 512, by omega⟩ : Fin 512) = r := Fin.ext (by show (t.val * 512 + r.val) % 512 = r.val; omega)
  rw [e1, e2]

/-- The projections' array after the first region. -/
theorem final0 (c : Dev nD) : (dat0 V c).arrAt 3 cfg0.N = G0 (V c main_v0) (V c main_v1) (V c main_v8) :=
  (dat0 V c).arrAt_eq_of_cover 3 _ (fun t _ => flushed0_eq V c t) cover0

end Cert.KernelIdeal.Hand

end
-- ==== Proof.KIValA.lean ====
/-
  The buffers the second region reads, in terms of the program's arguments: the projections' array is what the first
  region leaves of the reshaped tokens, the expert-id blocks and the scaled weights; the other arrays are the host
  stretch's reshapes of the expert ids and of the transposed output weights, and the bias itself. The result is the
  closing reshape of what the second region leaves.
-/
import proofs.«166787_g36747740185073_cont_sun_m_199_12_alg».proof.Proof.KIRunB
import proofs.«166787_g36747740185073_cont_sun_m_199_12_alg».proof.Proof.KIVal0
import Idealize.ShloMosaic.Lib.StableHlo.Run

set_option maxRecDepth 16384

noncomputable section

namespace Cert.KernelIdeal.Hand

open Cert.KernelIdeal Cert.KernelIdeal.Gen Cert.KernelIdeal.Facts₀ Cert.KernelIdeal.Facts Cert.KernelIdeal.BodyVal
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

theorem V1_v0 (c : Dev nD) : (Hand.V1 m ρ c main_v0 : S4096x1024.Idx → Elt Ideal .f32)
    = shapeCast S4096x1024 (m ((c : Thread nD τ).loc main_arg0)) Gen.shapeCasts_S2x2048x1024_S4096x1024 := by
  dsimp only [Hand.V1, W1, W0]; after_results <;> (try rfl)
theorem V1_v1 (c : Dev nD) : (Hand.V1 m ρ c main_v1 : S8x1x512.Idx → Elt Ideal .i32)
    = shapeCast S8x1x512 (m ((c : Thread nD τ).loc main_arg1)) Gen.shapeCasts_S2x2048_S8x1x512 := by
  dsimp only [Hand.V1, W1, W0]; after_results <;> (try rfl)
theorem V1_v2 (c : Dev nD) : (Hand.V1 m ρ c main_v2 : S4x1x1024.Idx → Elt Ideal .i32)
    = shapeCast S4x1x1024 (m ((c : Thread nD τ).loc main_arg1)) Gen.shapeCasts_S2x2048_S4x1x1024 := by
  dsimp only [Hand.V1, W1, W0]; after_results <;> (try rfl)
theorem V1_v8 (c : Dev nD) : (Hand.V1 m ρ c main_v8 : S3072x1024.Idx → Elt Ideal .bf16)
    = truncf (F := Ideal) .bf16 (concatenate S3072x1024 0 [⟨S1024x1024, mulf (extractStridedSlice S1024x1024 ![0, 0] (m ((c : Thread nD τ).loc main_arg2)) Gen.slices_S3072x1024_S1024x1024_0_0) (broadcastInDim S1024x1024 ![] Gen.bcast_S_S1024x1024 (constant (F := Ideal) S_ .f32 0x3E000000#32))⟩, ⟨S2048x1024, extractStridedSlice S2048x1024 ![1024, 0] (m ((c : Thread nD τ).loc main_arg2)) Gen.slices_S3072x1024_S2048x1024_1024_0⟩] Gen.concatenates_S1024x1024_S2048x1024_S3072x1024_d0) Gen.bitsLt_bf16_f32 := by
  dsimp only [Hand.V1, W1, W0]; after_results <;> (try rfl)
theorem V1_v11 (c : Dev nD) : (Hand.V1 m ρ c main_v11 : S16x64x1024.Idx → Elt Ideal .bf16)
    = (shapeCast S16x64x1024 (truncf (F := Ideal) .bf16 (transpose S1024x1024 [1, 0] (m ((c : Thread nD τ).loc main_arg3) : FVec Ideal S1024x1024 .f32) Gen.transposes_S1024x1024_S1024x1024_1_0) Gen.bitsLt_bf16_f32) Gen.shapeCasts_S1024x1024_S16x64x1024 : S16x64x1024.Idx → Elt Ideal .bf16) := by
  dsimp only [Hand.V1, W1, W0]; after_results <;> (try rfl)
theorem V1_arg4 (c : Dev nD) : Hand.V1 m ρ c main_arg4 = m ((c : Thread nD τ).loc main_arg4) :=
  StableHlo.after_of_writes_sub hostOps0 _ hostOps0_writes (by decide)

/-- The projections' array as the second region finds it. -/
theorem V2_v12 (c : Dev nD) : Hand.V2 m ρ c main_v12
    = G0 (Hand.V1 m ρ c main_v0) (Hand.V1 m ρ c main_v1) (Hand.V1 m ρ c main_v8) :=
  (hF0 m ρ c 3).symm.trans (final0 (Hand.V1 m ρ) c)
theorem V2_v2 (c : Dev nD) : Hand.V2 m ρ c main_v2 = Hand.V1 m ρ c main_v2 := hrest0 m ρ c main_v2 (by decide)
theorem V2_v11 (c : Dev nD) : Hand.V2 m ρ c main_v11 = Hand.V1 m ρ c main_v11 := hrest0 m ρ c main_v11 (by decide)
theorem V2_arg4 (c : Dev nD) : Hand.V2 m ρ c main_arg4 = m ((c : Thread nD τ).loc main_arg4) :=
  (hrest0 m ρ c main_arg4 (by decide)).trans (V1_arg4 m ρ c)

/-- The result array: the closing reshape of what the second region leaves. -/
theorem W4_v14 (c : Dev nD) : (W4 m ρ c (Proc.devRef .tc main_v14) : S2x2048x1024.Idx → Elt Ideal .f32)
    = shapeCast S2x2048x1024 (o3 m ρ c) Gen.shapeCasts_S4096x1024_S2x2048x1024 := by
  dsimp only [W4]; after_results
  rw [show W3 m ρ c (Proc.devRef .tc main_v13) = o3 m ρ c from V3_v13 m ρ c]
  rfl

end Cert.KernelIdeal.Hand

end
-- ==== Proof.LibMatmulTN.lean ====
/-
  The product of the TRANSPOSE of a K × M matrix with a K × N matrix (both operands contracted over their first
  axis) into the zero accumulator, read at an entry at the ideal values: the sum over the contracted coordinate of the
  products of the two columns' entries.
-/
import Idealize.ShloMosaic.Lib.ValueIdx
import Idealize.ShloMosaic.PureOps.Ideal.Laws

noncomputable section

open scoped BigOperators

namespace Cert.LibMatmulTN

open Idealize.ShloMosaic Idealize.ShloMosaic.ValueIdx

/-- Entry (a, b) of Aᵀ·B for A of K rows and M columns and B of K rows and N columns: the sum over c of
    A (c, a) · B (c, b). The contraction index has one axis, of extent K; the sum over it is re-indexed by that
    axis's coordinate, and the two operand indices are read coordinate by coordinate. -/
theorem matmul_tn_zero_apply {M K N : ℕ} {φ₁ φ₂ : FTy}
    (w : DotDims.WF ⟨2, ![K, M]⟩ ⟨2, ![K, N]⟩ ⟨2, ![M, N]⟩ [0] [0] [1] [1] [] [])
    (prec : Option ContractPrecision) (A : FVec Ideal ⟨2, ![K, M]⟩ φ₁) (B : FVec Ideal ⟨2, ![K, N]⟩ φ₂)
    (a : Fin M) (b : Fin N) :
    matmul (⟨[0], [0], [1], [1], [], [], w⟩ : DotDims _ _ _) prec A B
        (constant (F := Ideal) ⟨2, ![M, N]⟩ .f32 0x00000000#32) (ix2 a b)
      = ∑ c : Fin K, A (ix2 c a) * B (ix2 c b) := by
  show FloatOps.matmul _ prec A B _ (ix2 a b) = _
  rw [Ideal.matmul_constant_zero_apply,
    ← Equiv.sum_comp (contrEquiv1 (⟨[0], [0], [1], [1], [], [], w⟩ : DotDims _ _ _) K rfl rfl).symm]
  refine Finset.sum_congr rfl fun c _ => ?_
  have c2 := contrEquiv1_symm_val
    (⟨[0], [0], [1], [1], [], [], w⟩ : DotDims ⟨2, ![K, M]⟩ ⟨2, ![K, N]⟩ ⟨2, ![M, N]⟩) K rfl rfl c
  have l2 : (⟨[0], [0], [1], [1], [], [], w⟩ : DotDims ⟨2, ![K, M]⟩ ⟨2, ![K, N]⟩ ⟨2, ![M, N]⟩).lhsIdx (ix2 a b)
      ((contrEquiv1 _ K rfl rfl).symm c) = ix2 c a := by
    funext ax; apply Fin.ext
    match ax with
    | ⟨0, _⟩ => simp [DotDims.lhsIdx]; exact c2
    | ⟨1, _⟩ => simp [DotDims.lhsIdx]; rfl
  have r2 : (⟨[0], [0], [1], [1], [], [], w⟩ : DotDims ⟨2, ![K, M]⟩ ⟨2, ![K, N]⟩ ⟨2, ![M, N]⟩).rhsIdx (ix2 a b)
      ((contrEquiv1 _ K rfl rfl).symm c) = ix2 c b := by
    funext ax; apply Fin.ext
    match ax with
    | ⟨0, _⟩ => simp [DotDims.rhsIdx]; exact c2
    | ⟨1, _⟩ => simp [DotDims.rhsIdx]; rfl
  rw [l2, r2]

end Cert.LibMatmulTN

end
-- ==== Proof.LibMatmulIx.lean ====
/-
  A matrix product accumulated into the zero array, read at one entry.

  For an `M × K` matrix `A` and a `K × N` matrix `B` whose product contracts the second axis of `A` with the first
  axis of `B` (no batch axis), the entry `(a, b)` of the product added to the all-zero `M × N` array is the sum over
  the contracted coordinate `c` of `A (a, c) * B (c, b)`. Stated over the extended reals, for any extents and for any
  proof that the dimension numbers are well formed, so that it applies to every record with these dimension numbers.
-/
import Idealize.ShloMosaic.Lib.ValueIdx
import Idealize.ShloMosaic.PureOps.Ideal.Laws

noncomputable section

open scoped BigOperators

namespace Cert.LibMatmulIx

open Idealize.ShloMosaic Idealize.ShloMosaic.ValueIdx

/-- The product of an `M × K` by a `K × N` matrix into the zero accumulator, at entry `(a, b)`: the sum over the
    contracted coordinate of the products of the entries `A (a, c)` and `B (c, b)`. The contraction index has one
    axis, of extent `K`; the sum over it is re-indexed by that axis's coordinate, and the two operand indices are
    read coordinate by coordinate. -/
theorem matmul_zero_apply {M K N : ℕ} {φ₁ φ₂ : FTy}
    (w : DotDims.WF ⟨2, ![M, K]⟩ ⟨2, ![K, N]⟩ ⟨2, ![M, N]⟩ [1] [0] [0] [1] [] [])
    (prec : Option ContractPrecision) (A : FVec Ideal ⟨2, ![M, K]⟩ φ₁) (B : FVec Ideal ⟨2, ![K, N]⟩ φ₂)
    (a : Fin M) (b : Fin N) :
    matmul (⟨[1], [0], [0], [1], [], [], w⟩ : DotDims _ _ _) prec A B
        (constant (F := Ideal) ⟨2, ![M, N]⟩ .f32 0x00000000#32) (ix2 a b)
      = ∑ c : Fin K, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims _ _ _) K rfl rfl).symm]
  refine Finset.sum_congr rfl fun c _ => ?_
  have c2 := contrEquiv1_symm_val
    (⟨[1], [0], [0], [1], [], [], w⟩ : DotDims ⟨2, ![M, K]⟩ ⟨2, ![K, N]⟩ ⟨2, ![M, N]⟩) K rfl rfl c
  have l2 : (⟨[1], [0], [0], [1], [], [], w⟩ : DotDims ⟨2, ![M, K]⟩ ⟨2, ![K, N]⟩ ⟨2, ![M, N]⟩).lhsIdx (ix2 a b)
      ((contrEquiv1 _ K rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![M, K]⟩ ⟨2, ![K, N]⟩ ⟨2, ![M, N]⟩).rhsIdx (ix2 a b)
      ((contrEquiv1 _ K rfl rfl).symm c) = ix2 c b := by
    funext ax; apply Fin.ext
    match ax with
    | ⟨0, _⟩ => simp [DotDims.rhsIdx]; exact c2
    | ⟨1, _⟩ => simp [DotDims.rhsIdx]; rfl
  rw [l2, r2]

end Cert.LibMatmulIx

end
-- ==== Proof.KBody1Ops.lean ====
/-
  One head of the attention-and-projection body as a composition of its vector operations, and what each operation
  reads at an index at the ideal values: the scores qᵀ·k, the row maximum, the exponentials, their row sums, the
  product with the values, the normalisation, and the product with the head's slab of the projection weights.
-/
import proofs.«166787_g36747740185073_cont_sun_m_199_12_alg».proof.Proof.Gen.KernelIdeal.Skeleton
import proofs.«166787_g36747740185073_cont_sun_m_199_12_alg».proof.Proof.LibMatmulTN
import proofs.«166787_g36747740185073_cont_sun_m_199_12_alg».proof.Proof.LibMatmulNT
import proofs.«166787_g36747740185073_cont_sun_m_199_12_alg».proof.Proof.LibMatmulIx
import proofs.«166787_g36747740185073_cont_sun_m_199_12_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.BodyVal

open Idealize.ShloMosaic Idealize.ShloMosaic.ValueIdx

/-! ## The operations of one head, as the body spells them -/

/-- The scores of a 64-lane query slab against a 64-lane key slab, contracted over the lanes: `[query, key]`. -/
def scoresV (qh : FVec Ideal S64x1024 .bf16) (kh : FVec Ideal S64x2048 .bf16) : FVec Ideal S1024x2048 .f32 :=
  matmul dot_S64x1024_S64x2048_S1024x2048_0_0_1_1_n_n none qh kh (constant S1024x2048 .f32 0x00000000#32)

/-- The maximum of each row of the scores. -/
def rowmaxV (s : FVec Ideal S1024x2048 .f32) : FVec Ideal S1024 .f32 :=
  multiReduction .maximumf [1] S1024 s 0xFF800000#32 Gen.reduces_S1024x2048_S1024 (.inl rfl) rfl

/-- The exponentials of the scores less their row's maximum. -/
def expV (s : FVec Ideal S1024x2048 .f32) : FVec Ideal S1024x2048 .f32 :=
  exp (subf s (broadcastTo S1024x2048 (shapeCast S1024x1 (rowmaxV s) Gen.shapeCasts_S1024_S1024x1) Gen.broadcasts_S1024x1_S1024x2048))

/-- The sum of each row. -/
def rowsumV (p : FVec Ideal S1024x2048 .f32) : FVec Ideal S1024 .f32 :=
  multiReduction .add [1] S1024 p 0x00000000#32 Gen.reduces_S1024x2048_S1024 (.inl rfl) rfl

/-- The exponentials times the value slab, contracted over the keys: `[query, lane]`. -/
def pvV (p : FVec Ideal S1024x2048 .f32) (vh : FVec Ideal S64x2048 .bf16) : FVec Ideal S1024x64 .f32 :=
  matmul dot_S1024x2048_S64x2048_S1024x64_1_1_0_0_n_n none (truncf .bf16 p Gen.bitsLt_bf16_f32) vh (constant S1024x64 .f32 0x00000000#32)

/-- The rows divided by their row sums. -/
def normV (pv : FVec Ideal S1024x64 .f32) (l : FVec Ideal S1024 .f32) : FVec Ideal S1024x64 .bf16 :=
  truncf .bf16 (divf pv (broadcastTo S1024x64 (shapeCast S1024x1 l Gen.shapeCasts_S1024_S1024x1) Gen.broadcasts_S1024x1_S1024x64)) Gen.bitsLt_bf16_f32

/-- The head's output times its slab of the projection weights, contracted over the lanes: `[query, output feature]`. -/
def projV (o : FVec Ideal S1024x64 .bf16) (wh3 : Vec Ideal S1x64x1024 .bf16) : FVec Ideal S1024x1024 .f32 :=
  matmul dot_S1024x64_S64x1024_S1024x1024_1_0_0_1_n_n none o
    (shapeCast S64x1024 wh3 Gen.shapeCasts_S1x64x1024_S64x1024 : FVec Ideal S64x1024 .bf16) (constant S1024x1024 .f32 0x00000000#32)

/-- One head: from its query slab as loaded, its key and value slabs and its weight slab to its contribution. -/
def headV (qh0 : Vec Ideal S64x1024 .bf16) (kh vh : FVec Ideal S64x2048 .bf16) (wh3 : Vec Ideal S1x64x1024 .bf16) :
    FVec Ideal S1024x1024 .f32 :=
  projV (normV (pvV (expV (scoresV (shapeCast S64x1024 qh0 Gen.shapeCasts_S64x1024_S64x1024) kh)) vh)
    (rowsumV (expV (scoresV (shapeCast S64x1024 qh0 Gen.shapeCasts_S64x1024_S64x1024) kh)))) wh3

/-! ## The same over plain functions of coordinates -/

/-- Score of query `q` against key `k`. -/
def hS (Qh : Fin 64 → Fin 1024 → EReal) (Kh : Fin 64 → Fin 2048 → EReal) (q : Fin 1024) (k : Fin 2048) : EReal :=
  ∑ d : Fin 64, Qh d q * Kh d k
/-- The row's maximum score. -/
def hM (Qh : Fin 64 → Fin 1024 → EReal) (Kh : Fin 64 → Fin 2048 → EReal) (q : Fin 1024) : EReal :=
  Finset.univ.sup fun k : Fin 2048 => hS Qh Kh q k
/-- The exponential of a score less its row's maximum. -/
def hP (Qh : Fin 64 → Fin 1024 → EReal) (Kh : Fin 64 → Fin 2048 → EReal) (q : Fin 1024) (k : Fin 2048) : EReal :=
  Ideal.exp (hS Qh Kh q k - hM Qh Kh q)
/-- The row's sum of exponentials. -/
def hL (Qh : Fin 64 → Fin 1024 → EReal) (Kh : Fin 64 → Fin 2048 → EReal) (q : Fin 1024) : EReal :=
  ∑ k : Fin 2048, hP Qh Kh q k
/-- The head's normalised output at lane `d`. -/
def hO (Qh : Fin 64 → Fin 1024 → EReal) (Kh Vh : Fin 64 → Fin 2048 → EReal) (q : Fin 1024) (d : Fin 64) : EReal :=
  Ideal.div (∑ k : Fin 2048, hP Qh Kh q k * Vh d k) (hL Qh Kh q)
/-- The head's contribution to output feature `o`. -/
def headOut (Qh : Fin 64 → Fin 1024 → EReal) (Kh Vh : Fin 64 → Fin 2048 → EReal) (W : Fin 64 → Fin 1024 → EReal)
    (q o : Fin 1024) : EReal :=
  ∑ d : Fin 64, hO Qh Kh Vh q d * W d o

/-! ## Each operation at an index -/

theorem scoresV_apply (qh : FVec Ideal S64x1024 .bf16) (kh : FVec Ideal S64x2048 .bf16) (q : Fin 1024) (k : Fin 2048) :
    scoresV qh kh (ix2 q k) = ∑ d : Fin 64, qh (ix2 d q) * kh (ix2 d k) := by
  unfold scoresV
  exact Cert.LibMatmulTN.matmul_tn_zero_apply (M := 1024) (K := 64) (N := 2048)
    Gen.dot_S64x1024_S64x2048_S1024x2048_0_0_1_1_n_n_wf none qh kh q k

/-- The accumulator a maximum starts from is the least extended real. -/
theorem ofBits_neg_inf : Ideal.ofBits .f32 0xFF800000#32 = (⊥ : EReal) := by simp [Ideal.ofBits, Ideal.ieee]

theorem rowmaxV_apply (s : FVec Ideal S1024x2048 .f32) (q : Fin 1024) :
    rowmaxV s (ix1 q) = Finset.univ.sup fun k : Fin 2048 => s (ix2 q k) := by
  unfold rowmaxV
  refine (Cert.LibKeepdims.multiReduction_maximumf_axis1 (a := 1024) (b := 2048) s 0xFF800000#32
    Gen.reduces_S1024x2048_S1024 (.inl rfl) rfl q).trans ?_
  rw [ofBits_neg_inf]
  rfl

theorem expV_apply (s : FVec Ideal S1024x2048 .f32) (q : Fin 1024) (k : Fin 2048) :
    expV s (ix2 q k) = Ideal.exp (s (ix2 q k) - Finset.univ.sup fun k' : Fin 2048 => s (ix2 q k')) := by
  show Ideal.exp (s (ix2 q k) - broadcastTo S1024x2048 _ _ (ix2 q k)) = _
  rw [Cert.LibKeepdims.broadcastTo_a1_ab_apply, Cert.LibKeepdims.shapeCast_a_a1_apply, rowmaxV_apply]

theorem rowsumV_apply (p : FVec Ideal S1024x2048 .f32) (q : Fin 1024) :
    rowsumV p (ix1 q) = ∑ k : Fin 2048, p (ix2 q k) := by
  unfold rowsumV
  exact Cert.LibKeepdims.multiReduction_add_axis1 (a := 1024) (b := 2048) p 0x00000000#32
    Gen.reduces_S1024x2048_S1024 (.inl rfl) rfl q

theorem pvV_apply (p : FVec Ideal S1024x2048 .f32) (vh : FVec Ideal S64x2048 .bf16) (q : Fin 1024) (d : Fin 64) :
    pvV p vh (ix2 q d) = ∑ k : Fin 2048, p (ix2 q k) * vh (ix2 d k) := by
  unfold pvV
  exact Cert.LibMatmulNT.matmul_nt_zero_apply (M := 1024) (K := 2048) (N := 64)
    Gen.dot_S1024x2048_S64x2048_S1024x64_1_1_0_0_n_n_wf none (truncf .bf16 p Gen.bitsLt_bf16_f32) vh q d

theorem normV_apply (pv : FVec Ideal S1024x64 .f32) (l : FVec Ideal S1024 .f32) (q : Fin 1024) (d : Fin 64) :
    normV pv l (ix2 q d) = Ideal.div (pv (ix2 q d)) (l (ix1 q)) := by
  show Ideal.div (pv (ix2 q d)) (broadcastTo S1024x64 _ _ (ix2 q d)) = _
  rw [Cert.LibKeepdims.broadcastTo_a1_ab_apply, Cert.LibKeepdims.shapeCast_a_a1_apply]

theorem projV_apply (o : FVec Ideal S1024x64 .bf16) (wh3 : Vec Ideal S1x64x1024 .bf16) (q o' : Fin 1024) :
    projV o wh3 (ix2 q o') = ∑ d : Fin 64, o (ix2 q d) * wh3 (ix3 0 d o') := by
  unfold projV
  refine (Cert.LibMatmulIx.matmul_zero_apply (M := 1024) (K := 64) (N := 1024)
    Gen.dot_S1024x64_S64x1024_S1024x1024_1_0_0_1_n_n_wf none o _ q o').trans ?_
  refine Finset.sum_congr rfl fun d _ => ?_
  rw [shapeCast_1ab_ab_apply]

/-- One head at an index, over the coordinate functions its four operands read as. -/
theorem headV_apply (qh0 : Vec Ideal S64x1024 .bf16) (kh vh : FVec Ideal S64x2048 .bf16) (wh3 : Vec Ideal S1x64x1024 .bf16)
    (Qh : Fin 64 → Fin 1024 → EReal) (Kh Vh : Fin 64 → Fin 2048 → EReal) (W : Fin 64 → Fin 1024 → EReal)
    (hq : ∀ d q, qh0 (ix2 d q) = Qh d q) (hk : ∀ d k, kh (ix2 d k) = Kh d k) (hv : ∀ d k, vh (ix2 d k) = Vh d k)
    (hw : ∀ d o, wh3 (ix3 0 d o) = W d o) (q o : Fin 1024) :
    headV qh0 kh vh wh3 (ix2 q o) = headOut Qh Kh Vh W q o := by
  have hs : ∀ q k, scoresV (shapeCast S64x1024 qh0 Gen.shapeCasts_S64x1024_S64x1024) kh (ix2 q k) = hS Qh Kh q k := fun q k => by
    rw [scoresV_apply, shapeCast_self]
    exact Finset.sum_congr rfl fun d _ => by rw [hq, hk]
  have hp : ∀ q k, expV (scoresV (shapeCast S64x1024 qh0 Gen.shapeCasts_S64x1024_S64x1024) kh) (ix2 q k) = hP Qh Kh q k := fun q k => by
    rw [expV_apply, hs]
    unfold hP hM
    exact congrArg (fun z => Ideal.exp (hS Qh Kh q k - z)) (congrArg Finset.univ.sup (funext fun k' => hs q k'))
  unfold headV headOut
  rw [projV_apply]
  refine Finset.sum_congr rfl fun d _ => ?_
  rw [normV_apply, pvV_apply, rowsumV_apply, hw]
  unfold hO hL
  refine congrArg₂ (fun a b => Ideal.div a b * W d o) ?_ ?_
  · exact Finset.sum_congr rfl fun k _ => by rw [hp, hv]
  · exact Finset.sum_congr rfl fun k _ => hp q k

end Cert.KernelIdeal.BodyVal

end
-- ==== Proof.KBody1Parts.lean ====
/-
  The payload terms of the attention-and-projection body regrouped head by head: each of the nine windows of the
  unrolled body adds whole heads to the running sum, a head cut by a window boundary being completed from the pieces
  the earlier window handed on; the last window adds the sixteenth head, the bias and the feature mask.
-/
import proofs.«166787_g36747740185073_cont_sun_m_199_12_alg».proof.Proof.Gen.KernelIdeal.Skeleton
import proofs.«166787_g36747740185073_cont_sun_m_199_12_alg».proof.Proof.KBody1Ops

noncomputable section

open scoped BigOperators

namespace Cert.KernelIdeal.BodyVal

open Idealize.ShloMosaic Idealize.ShloMosaic.ValueIdx

/-- The last steps of the body: the bias row added to every row of the running sum, and the select on the test of
    output feature against `(e + 1) · 128` for the row's expert id `e`. -/
def finalV (acc : FVec Ideal S1024x1024 .f32) (b : Vec Ideal S1024 .f32) (e : Vec Ideal S1x1x1024 .i32) :
    FVec Ideal S1024x1024 .f32 :=
  select
    (cmpi .slt (iota .tc S1024x1024 32 [1] Gen.iota_S1024x1024_d1_w32)
      (broadcastTo S1024x1024
        (shapeCast S1024x1
          (muli (addi (shapeCast S1024 e Gen.shapeCasts_S1x1x1024_S1024) (broadcast S1024 1#32)) (broadcast S1024 128#32))
          Gen.shapeCasts_S1024_S1024x1)
        Gen.broadcasts_S1024x1_S1024x1024))
    (addf acc (broadcastTo S1024x1024 (shapeCast S1x1024 b Gen.shapeCasts_S1024_S1x1024 : FVec Ideal S1x1024 .f32) Gen.broadcasts_S1x1024_S1024x1024))
    (broadcast S1024x1024 (Scalar.ofBits .f32 0x00000000#32))

section
variable (v0 v2 : Vec Ideal S1024x2048 .bf16) (v1 v3 : FVec Ideal S1024x2048 .bf16) (acc : FVec Ideal S1024x1024 .f32)
  (qa qb : Vec Ideal S64x1024 .bf16) (wa wb : Vec Ideal S1x64x1024 .bf16)

/-- Window 1: head 0 whole. -/
theorem part1_eq : Gen.k1_pay3 v0 v2 qa wa
    = headV qa (extractStridedSlice S64x2048 ![0, 0] (Gen.k1_pay1 v0) Gen.slices_S1024x2048_o0_0_S64x2048) (extractStridedSlice S64x2048 ![0, 0] (Gen.k1_pay2 v2) Gen.slices_S1024x2048_o0_0_S64x2048) wa := rfl

/-- Window 2: head 1 completed from window 1's exponentials' row sums and value product, head 2 whole. -/
theorem part2_eq : Gen.k1_pay7 (Gen.k1_pay1 v0) (Gen.k1_pay2 v2) acc (Gen.k1_pay5 v0 qa) (Gen.k1_pay6 v0 v2 qa) wa qb wb
    = addf (addf acc (headV qa (extractStridedSlice S64x2048 ![64, 0] (Gen.k1_pay1 v0) Gen.slices_S1024x2048_o64_0_S64x2048) (extractStridedSlice S64x2048 ![64, 0] (Gen.k1_pay2 v2) Gen.slices_S1024x2048_o64_0_S64x2048) wa))
        (headV qb (extractStridedSlice S64x2048 ![128, 0] (Gen.k1_pay1 v0) Gen.slices_S1024x2048_o128_0_S64x2048) (extractStridedSlice S64x2048 ![128, 0] (Gen.k1_pay2 v2) Gen.slices_S1024x2048_o128_0_S64x2048) wb) := rfl

/-- Window 3: head 3 completed, head 4 whole. -/
theorem part3_eq : Gen.k1_pay12 v1 v3 acc (Gen.k1_pay8 v3) (Gen.k1_pay10 v1 qa) (Gen.k1_pay11 v1 qa) wa qb wb
    = addf (addf acc (headV qa (extractStridedSlice S64x2048 ![192, 0] v1 Gen.slices_S1024x2048_o192_0_S64x2048) (extractStridedSlice S64x2048 ![192, 0] v3 Gen.slices_S1024x2048_o192_0_S64x2048) wa))
        (headV qb (extractStridedSlice S64x2048 ![256, 0] v1 Gen.slices_S1024x2048_o256_0_S64x2048) (extractStridedSlice S64x2048 ![256, 0] v3 Gen.slices_S1024x2048_o256_0_S64x2048) wb) := rfl

/-- Window 4: head 5 completed, head 6 whole. -/
theorem part4_eq : Gen.k1_pay16 v1 v3 acc (Gen.k1_pay13 v3) (Gen.k1_pay14 v1 qa) (Gen.k1_pay15 v1 qa) wa qb wb
    = addf (addf acc (headV qa (extractStridedSlice S64x2048 ![320, 0] v1 Gen.slices_S1024x2048_o320_0_S64x2048) (extractStridedSlice S64x2048 ![320, 0] v3 Gen.slices_S1024x2048_o320_0_S64x2048) wa))
        (headV qb (extractStridedSlice S64x2048 ![384, 0] v1 Gen.slices_S1024x2048_o384_0_S64x2048) (extractStridedSlice S64x2048 ![384, 0] v3 Gen.slices_S1024x2048_o384_0_S64x2048) wb) := rfl

/-- Window 5: head 7 completed, head 8 whole. -/
theorem part5_eq : Gen.k1_pay19 v1 v3 acc (Gen.k1_pay17 v3) (Gen.k1_pay18 v1 qa) wa qb wb
    = addf (addf acc (headV qa (extractStridedSlice S64x2048 ![448, 0] v1 Gen.slices_S1024x2048_o448_0_S64x2048) (extractStridedSlice S64x2048 ![448, 0] v3 Gen.slices_S1024x2048_o448_0_S64x2048) wa))
        (headV qb (extractStridedSlice S64x2048 ![512, 0] v1 Gen.slices_S1024x2048_o512_0_S64x2048) (extractStridedSlice S64x2048 ![512, 0] v3 Gen.slices_S1024x2048_o512_0_S64x2048) wb) := rfl

/-- Window 6: head 9 completed, head 10 whole. -/
theorem part6_eq : Gen.k1_pay23 v1 v3 acc (Gen.k1_pay20 v3) (Gen.k1_pay21 v1 qa) (Gen.k1_pay22 v1 qa) wa qb wb
    = addf (addf acc (headV qa (extractStridedSlice S64x2048 ![576, 0] v1 Gen.slices_S1024x2048_o576_0_S64x2048) (extractStridedSlice S64x2048 ![576, 0] v3 Gen.slices_S1024x2048_o576_0_S64x2048) wa))
        (headV qb (extractStridedSlice S64x2048 ![640, 0] v1 Gen.slices_S1024x2048_o640_0_S64x2048) (extractStridedSlice S64x2048 ![640, 0] v3 Gen.slices_S1024x2048_o640_0_S64x2048) wb) := rfl

/-- Window 7: head 11 completed, head 12 whole. -/
theorem part7_eq : Gen.k1_pay27 v1 v3 acc (Gen.k1_pay24 v3) (Gen.k1_pay25 v1 qa) (Gen.k1_pay26 v1 qa) wa qb wb
    = addf (addf acc (headV qa (extractStridedSlice S64x2048 ![704, 0] v1 Gen.slices_S1024x2048_o704_0_S64x2048) (extractStridedSlice S64x2048 ![704, 0] v3 Gen.slices_S1024x2048_o704_0_S64x2048) wa))
        (headV qb (extractStridedSlice S64x2048 ![768, 0] v1 Gen.slices_S1024x2048_o768_0_S64x2048) (extractStridedSlice S64x2048 ![768, 0] v3 Gen.slices_S1024x2048_o768_0_S64x2048) wb) := rfl

/-- Window 8: head 13 completed, head 14 whole. -/
theorem part8_eq : Gen.k1_pay30 v1 v3 acc (Gen.k1_pay28 v3) (Gen.k1_pay29 v1 qa) wa qb wb
    = addf (addf acc (headV qa (extractStridedSlice S64x2048 ![832, 0] v1 Gen.slices_S1024x2048_o832_0_S64x2048) (extractStridedSlice S64x2048 ![832, 0] v3 Gen.slices_S1024x2048_o832_0_S64x2048) wa))
        (headV qb (extractStridedSlice S64x2048 ![896, 0] v1 Gen.slices_S1024x2048_o896_0_S64x2048) (extractStridedSlice S64x2048 ![896, 0] v3 Gen.slices_S1024x2048_o896_0_S64x2048) wb) := rfl

/-- Window 9: head 15 whole, then the bias and the mask. -/
theorem part9_eq (b : Vec Ideal S1024 .f32) (e : Vec Ideal S1x1x1024 .i32) :
    Gen.k1_pay34 acc (Gen.k1_pay31 qa) (Gen.k1_pay32 v1) (Gen.k1_pay33 v3) wa b e
    = finalV (addf acc (headV qa (extractStridedSlice S64x2048 ![960, 0] v1 Gen.slices_S1024x2048_o960_0_S64x2048) (extractStridedSlice S64x2048 ![960, 0] v3 Gen.slices_S1024x2048_o960_0_S64x2048) wa)) b e := rfl

end

end Cert.KernelIdeal.BodyVal

end
-- ==== Proof.KBody1Val.lean ====
/-
  What the attention-and-projection body stores, index by index, at the ideal values: entry (q, o) of its output
  block is, where the feature test of row q's expert id keeps o, the sum over the sixteen heads of the head's normalised
  attention output times its slab of the projection weights, plus the bias; elsewhere zero.
-/
import proofs.«166787_g36747740185073_cont_sun_m_199_12_alg».proof.Proof.Gen.KernelIdeal.Skeleton
import proofs.«166787_g36747740185073_cont_sun_m_199_12_alg».proof.Proof.KBody1Def
import proofs.«166787_g36747740185073_cont_sun_m_199_12_alg».proof.Proof.KBody1Ops
import proofs.«166787_g36747740185073_cont_sun_m_199_12_alg».proof.Proof.KBody1Parts
import proofs.«166787_g36747740185073_cont_sun_m_199_12_alg».proof.Proof.KBody0
import proofs.«166787_g36747740185073_cont_sun_m_199_12_alg».proof.Proof.Spec
import Idealize.ShloMosaic.Lib.ValueIdx
import Idealize.ShloMosaic.Lib.ValueLayout
import Idealize.ShloMosaic.Lib.Pipeline.Value

noncomputable section

open scoped BigOperators

namespace Cert.KernelIdeal.BodyVal

open Idealize.ShloMosaic Idealize.ShloMosaic.ValueIdx

open Cert.AttnSpec (col)

/-! ## The block as plain functions of coordinates -/

/-- Entry `(q, o)` of the output block from the query block `Q` [feature, query], the key and value blocks `Kb`, `Vb`
    [feature, key], the expert-id words `e`, the per-head projection weights `Wh` [head, lane, output feature] and the
    bias `bb`: head `h` reads features `h·64 + d` of the three blocks. -/
def blockOut (Q : Fin 1024 → Fin 1024 → EReal) (Kb Vb : Fin 1024 → Fin 2048 → EReal) (e : Fin 1024 → BitVec 32)
    (Wh : Fin 16 → Fin 64 → Fin 1024 → EReal) (bb : Fin 1024 → EReal) (q o : Fin 1024) : EReal :=
  if kmaskW (e q) o then
    (∑ h : Fin 16, headOut (fun d q' => Q (col h d) q') (fun d k => Kb (col h d) k) (fun d k => Vb (col h d) k) (Wh h) q o) + bb o
  else 0

/-! ## The loads -/

theorem zeros1 : (![0] : Fin 1 → ℕ) = fun _ => 0 := funext fun a => by fin_cases a; rfl
theorem zeros2 : (![0, 0] : Fin 2 → ℕ) = fun _ => 0 := funext fun a => by fin_cases a <;> rfl
theorem zeros3 : (![0, 0, 0] : Fin 3 → ℕ) = fun _ => 0 := funext fun a => by fin_cases a <;> rfl

/-- A 64-row slab of the query block loaded at row offset `r` reads, at `(d, q)`, the block at `(r + d, q)`. -/
theorem ld_qslab (xq : Vec Ideal S1024x1024 .bf16) (r : ℕ)
    (inb : ∀ a, (![r, 0] : Fin 2 → ℕ) a + S64x1024.size a ≤ S1024x1024.size a)
    (d : Fin 64) (q : Fin 1024) (k : Fin 1024) (hk : k.val = r + d.val) :
    View.ld (Val := Elt Ideal) (e' := .bf16) xq (Rect.unit (s := S1024x1024) ![r, 0] S64x1024.size inb) (ix2 d q) = xq (ix2 k q) :=
  congrArg xq (funext fun a => Fin.ext (by
    match a with
    | ⟨0, _⟩ => show r + 1 * d.val = k.val; omega
    | ⟨1, _⟩ => show 0 + 1 * q.val = q.val; omega))

/-- One head's slab of the weights loaded at head `h` reads, at `(0, d, o)`, the weights at `(h, d, o)`. -/
theorem ld_wslab (xw : Vec Ideal S16x64x1024 .bf16) (h : ℕ)
    (inb : ∀ a, (![h, 0, 0] : Fin 3 → ℕ) a + S1x64x1024.size a ≤ S16x64x1024.size a)
    (d : Fin 64) (o : Fin 1024) (hh : Fin 16) (hk : hh.val = h) :
    View.ld (Val := Elt Ideal) (e' := .bf16) xw (Rect.unit (s := S16x64x1024) ![h, 0, 0] S1x64x1024.size inb) (ix3 0 d o) = xw (ix3 hh d o) :=
  congrArg xw (funext fun a => Fin.ext (by
    match a with
    | ⟨0, _⟩ => show h + 1 * 0 = hh.val; omega
    | ⟨1, _⟩ => show 0 + 1 * d.val = d.val; omega
    | ⟨2, _⟩ => show 0 + 1 * o.val = o.val; omega))

/-- Rows `r … r + 63` of the key block as the body slices them out of the whole loaded block. -/
theorem kslab_apply (xk : Vec Ideal S1024x2048 .bf16) (r : ℕ) (hs : S1024x2048.Slices ![r, 0] S64x2048)
    (d : Fin 64) (k : Fin 2048) (kk : Fin 1024) (hk : kk.val = r + d.val) :
    extractStridedSlice S64x2048 ![r, 0]
        (Gen.k1_pay1 (View.ld (Val := Elt Ideal) (e' := .bf16) xk
          (Rect.unit (s := S1024x2048) ![0, 0] S1024x2048.size Gen.inb_S1024x2048_S1024x2048_0_0))) hs (ix2 d k)
      = xk (ix2 kk k) := by
  refine (slice2_axis0_apply r _ hs d k kk hk).trans ?_
  unfold Gen.k1_pay1
  dsimp only
  rw [shapeCast_self, View.ld_unit_zero (S := S1024x2048) zeros2]

/-- The same of the value block. -/
theorem vslab_apply (xv : Vec Ideal S1024x2048 .bf16) (r : ℕ) (hs : S1024x2048.Slices ![r, 0] S64x2048)
    (d : Fin 64) (k : Fin 2048) (kk : Fin 1024) (hk : kk.val = r + d.val) :
    extractStridedSlice S64x2048 ![r, 0]
        (Gen.k1_pay2 (View.ld (Val := Elt Ideal) (e' := .bf16) xv
          (Rect.unit (s := S1024x2048) ![0, 0] S1024x2048.size Gen.inb_S1024x2048_S1024x2048_0_0))) hs (ix2 d k)
      = xv (ix2 kk k) := by
  refine (slice2_axis0_apply r _ hs d k kk hk).trans ?_
  unfold Gen.k1_pay2
  dsimp only
  rw [shapeCast_self, View.ld_unit_zero (S := S1024x2048) zeros2]

/-! ## One head of the body over the loaded blocks -/

/-- Head `h`'s contribution as the body computes it: the query slab loaded at rows `r = h·64`, the key and value slabs
    sliced at the same rows out of the whole loaded blocks, the weights' slab loaded at head `h`. -/
def hdV (xq : Vec Ideal S1024x1024 .bf16) (xk xv : Vec Ideal S1024x2048 .bf16) (xw : Vec Ideal S16x64x1024 .bf16) (r h : ℕ)
    (iq : ∀ a, (![r, 0] : Fin 2 → ℕ) a + S64x1024.size a ≤ S1024x1024.size a)
    (hs : S1024x2048.Slices ![r, 0] S64x2048)
    (iw : ∀ a, (![h, 0, 0] : Fin 3 → ℕ) a + S1x64x1024.size a ≤ S16x64x1024.size a) : FVec Ideal S1024x1024 .f32 :=
  headV (View.ld (Val := Elt Ideal) (e' := .bf16) xq (Rect.unit (s := S1024x1024) ![r, 0] S64x1024.size iq))
    (extractStridedSlice S64x2048 ![r, 0]
      (Gen.k1_pay1 (View.ld (Val := Elt Ideal) (e' := .bf16) xk
        (Rect.unit (s := S1024x2048) ![0, 0] S1024x2048.size Gen.inb_S1024x2048_S1024x2048_0_0))) hs)
    (extractStridedSlice S64x2048 ![r, 0]
      (Gen.k1_pay2 (View.ld (Val := Elt Ideal) (e' := .bf16) xv
        (Rect.unit (s := S1024x2048) ![0, 0] S1024x2048.size Gen.inb_S1024x2048_S1024x2048_0_0))) hs)
    (View.ld (Val := Elt Ideal) (e' := .bf16) xw (Rect.unit (s := S16x64x1024) ![h, 0, 0] S1x64x1024.size iw))

theorem hdV_apply (xq : Vec Ideal S1024x1024 .bf16) (xk xv : Vec Ideal S1024x2048 .bf16) (xw : Vec Ideal S16x64x1024 .bf16) (r h : ℕ)
    (iq : ∀ a, (![r, 0] : Fin 2 → ℕ) a + S64x1024.size a ≤ S1024x1024.size a)
    (hs : S1024x2048.Slices ![r, 0] S64x2048)
    (iw : ∀ a, (![h, 0, 0] : Fin 3 → ℕ) a + S1x64x1024.size a ≤ S16x64x1024.size a)
    (hh : Fin 16) (hr : hh.val * 64 = r) (hhv : hh.val = h) (q o : Fin 1024) :
    hdV xq xk xv xw r h iq hs iw (ix2 q o)
      = headOut (fun d q' => xq (ix2 (col hh d) q')) (fun d k => xk (ix2 (col hh d) k)) (fun d k => xv (ix2 (col hh d) k))
          (fun d o' => xw (ix3 hh d o')) q o := by
  have hc : ∀ d : Fin 64, (col hh d).val = r + d.val := fun d => by show hh.val * 64 + d.val = _; omega
  unfold hdV
  exact headV_apply _ _ _ _ _ _ _ _
    (fun d q' => ld_qslab xq r iq d q' (col hh d) (hc d))
    (fun d k => kslab_apply xk r hs d k (col hh d) (hc d))
    (fun d k => vslab_apply xv r hs d k (col hh d) (hc d))
    (fun d o' => ld_wslab xw h iw d o' hh hhv) q o

/-! ## The last steps at an index -/

/-- The feature test of the last steps, at `(q, o)`: the word of `o` against `(e + 1) · 128` for row `q`'s expert id. -/
theorem mask1_apply (e : Vec Ideal S1x1x1024 .i32) (q o : Fin 1024) :
    cmpi .slt (iota .tc S1024x1024 32 [1] Gen.iota_S1024x1024_d1_w32)
        (broadcastTo S1024x1024
          (shapeCast S1024x1
            (muli (addi (shapeCast S1024 e Gen.shapeCasts_S1x1x1024_S1024) (broadcast S1024 1#32)) (broadcast S1024 128#32))
            Gen.shapeCasts_S1024_S1024x1)
          Gen.broadcasts_S1024x1_S1024x1024) (ix2 q o)
      = IntOp.cmpi .slt (BitVec.ofNat 32 o.val) (IntOp.muli (IntOp.addi (e (ix3 0 0 q)) 1#32) 128#32) := by
  show IntOp.cmpi .slt (iota .tc S1024x1024 32 [1] Gen.iota_S1024x1024_d1_w32 (ix2 q o)) (broadcastTo S1024x1024 _ _ (ix2 q o)) = _
  rw [iota_single_apply, Cert.LibKeepdims.broadcastTo_a1_ab_apply, Cert.LibKeepdims.shapeCast_a_a1_apply]
  show IntOp.cmpi .slt _ (IntOp.muli (IntOp.addi (shapeCast S1024 e Gen.shapeCasts_S1x1x1024_S1024 (ix1 q)) 1#32) 128#32) = _
  rw [shapeCast_11a_a_apply]

theorem finalV_apply (acc : FVec Ideal S1024x1024 .f32) (b : Vec Ideal S1024 .f32) (e : Vec Ideal S1x1x1024 .i32) (q o : Fin 1024) :
    finalV acc b e (ix2 q o) = if kmaskW (e (ix3 0 0 q)) o then acc (ix2 q o) + b (ix1 o) else 0 := by
  unfold finalV
  rw [select_apply, mask1_apply, select_kmask, addf_apply, broadcastTo_1b_ab_apply, shapeCast_a_1a_apply, broadcast_apply]
  exact congrArg (fun z : EReal => if kmaskW (e (ix3 0 0 q)) o = true then acc (ix2 q o) + b (ix1 o) else z)
    Ideal.ofBits_zero_f32

/-! ## The whole body -/

/-- The sixteen heads' contributions added in the body's order. -/
def accV (xq : Vec Ideal S1024x1024 .bf16) (xk xv : Vec Ideal S1024x2048 .bf16) (xw : Vec Ideal S16x64x1024 .bf16) :
    FVec Ideal S1024x1024 .f32 :=
  (addf (addf (addf (addf (addf (addf (addf (addf (addf (addf (addf (addf (addf (addf (addf (hdV xq xk xv xw 0 0 Gen.inb_S1024x1024_S64x1024_0_0 Gen.slices_S1024x2048_o0_0_S64x2048 Gen.inb_S16x64x1024_S1x64x1024_0_0_0)
    (hdV xq xk xv xw 64 1 Gen.inb_S1024x1024_S64x1024_64_0 Gen.slices_S1024x2048_o64_0_S64x2048 Gen.inb_S16x64x1024_S1x64x1024_1_0_0))
    (hdV xq xk xv xw 128 2 Gen.inb_S1024x1024_S64x1024_128_0 Gen.slices_S1024x2048_o128_0_S64x2048 Gen.inb_S16x64x1024_S1x64x1024_2_0_0))
    (hdV xq xk xv xw 192 3 Gen.inb_S1024x1024_S64x1024_192_0 Gen.slices_S1024x2048_o192_0_S64x2048 Gen.inb_S16x64x1024_S1x64x1024_3_0_0))
    (hdV xq xk xv xw 256 4 Gen.inb_S1024x1024_S64x1024_256_0 Gen.slices_S1024x2048_o256_0_S64x2048 Gen.inb_S16x64x1024_S1x64x1024_4_0_0))
    (hdV xq xk xv xw 320 5 Gen.inb_S1024x1024_S64x1024_320_0 Gen.slices_S1024x2048_o320_0_S64x2048 Gen.inb_S16x64x1024_S1x64x1024_5_0_0))
    (hdV xq xk xv xw 384 6 Gen.inb_S1024x1024_S64x1024_384_0 Gen.slices_S1024x2048_o384_0_S64x2048 Gen.inb_S16x64x1024_S1x64x1024_6_0_0))
    (hdV xq xk xv xw 448 7 Gen.inb_S1024x1024_S64x1024_448_0 Gen.slices_S1024x2048_o448_0_S64x2048 Gen.inb_S16x64x1024_S1x64x1024_7_0_0))
    (hdV xq xk xv xw 512 8 Gen.inb_S1024x1024_S64x1024_512_0 Gen.slices_S1024x2048_o512_0_S64x2048 Gen.inb_S16x64x1024_S1x64x1024_8_0_0))
    (hdV xq xk xv xw 576 9 Gen.inb_S1024x1024_S64x1024_576_0 Gen.slices_S1024x2048_o576_0_S64x2048 Gen.inb_S16x64x1024_S1x64x1024_9_0_0))
    (hdV xq xk xv xw 640 10 Gen.inb_S1024x1024_S64x1024_640_0 Gen.slices_S1024x2048_o640_0_S64x2048 Gen.inb_S16x64x1024_S1x64x1024_10_0_0))
    (hdV xq xk xv xw 704 11 Gen.inb_S1024x1024_S64x1024_704_0 Gen.slices_S1024x2048_o704_0_S64x2048 Gen.inb_S16x64x1024_S1x64x1024_11_0_0))
    (hdV xq xk xv xw 768 12 Gen.inb_S1024x1024_S64x1024_768_0 Gen.slices_S1024x2048_o768_0_S64x2048 Gen.inb_S16x64x1024_S1x64x1024_12_0_0))
    (hdV xq xk xv xw 832 13 Gen.inb_S1024x1024_S64x1024_832_0 Gen.slices_S1024x2048_o832_0_S64x2048 Gen.inb_S16x64x1024_S1x64x1024_13_0_0))
    (hdV xq xk xv xw 896 14 Gen.inb_S1024x1024_S64x1024_896_0 Gen.slices_S1024x2048_o896_0_S64x2048 Gen.inb_S16x64x1024_S1x64x1024_14_0_0))
    (hdV xq xk xv xw 960 15 Gen.inb_S1024x1024_S64x1024_960_0 Gen.slices_S1024x2048_o960_0_S64x2048 Gen.inb_S16x64x1024_S1x64x1024_15_0_0))

/-- The stored value is the last steps applied to the sixteen heads' sum, the bias and the expert ids as loaded. -/
theorem pay1_eq (xq : Vec Ideal S1024x1024 .bf16) (xk xv : Vec Ideal S1024x2048 .bf16) (xe : Vec Ideal S1x1x1024 .i32)
    (xw : Vec Ideal S16x64x1024 .bf16) (xb : Vec Ideal S1024 .f32) :
    pay1 xq xk xv xe xw xb = finalV (accV xq xk xv xw) xb xe := by
  unfold pay1
  dsimp only
  rw [part9_eq, part8_eq, part7_eq, part6_eq, part5_eq, part4_eq, part3_eq, part2_eq, part1_eq,
    View.ld_unit_zero (S := S1024) zeros1, View.ld_unit_zero (S := S1x1x1024) zeros3]
  rfl

/-- A sum over the sixteen heads written out in order. -/
theorem sum16 (f : Fin 16 → EReal) :
    ∑ h : Fin 16, f h = f 0 + f 1 + f 2 + f 3 + f 4 + f 5 + f 6 + f 7 + f 8 + f 9 + f 10 + f 11 + f 12 + f 13 + f 14 + f 15 := by
  simp only [Fin.sum_univ_castSucc, Fin.sum_univ_zero, zero_add]
  rfl

/-- Entry `(q, o)` of the stored block. -/
theorem pay1_apply (xq : Vec Ideal S1024x1024 .bf16) (xk xv : Vec Ideal S1024x2048 .bf16) (xe : Vec Ideal S1x1x1024 .i32)
    (xw : Vec Ideal S16x64x1024 .bf16) (xb : Vec Ideal S1024 .f32) (q o : Fin 1024) :
    pay1 xq xk xv xe xw xb (ix2 q o)
      = blockOut (fun f q' => xq (ix2 f q')) (fun f k => xk (ix2 f k)) (fun f k => xv (ix2 f k)) (fun q' => xe (ix3 0 0 q'))
          (fun h d o' => xw (ix3 h d o')) (fun o' => xb (ix1 o')) q o := by
  rw [pay1_eq, finalV_apply]
  unfold blockOut accV
  rw [sum16]
  simp only [addf_apply]
  rw [hdV_apply xq xk xv xw 0 0 _ _ _ (0 : Fin 16) rfl rfl q o,
    hdV_apply xq xk xv xw 64 1 _ _ _ (1 : Fin 16) rfl rfl q o,
    hdV_apply xq xk xv xw 128 2 _ _ _ (2 : Fin 16) rfl rfl q o,
    hdV_apply xq xk xv xw 192 3 _ _ _ (3 : Fin 16) rfl rfl q o,
    hdV_apply xq xk xv xw 256 4 _ _ _ (4 : Fin 16) rfl rfl q o,
    hdV_apply xq xk xv xw 320 5 _ _ _ (5 : Fin 16) rfl rfl q o,
    hdV_apply xq xk xv xw 384 6 _ _ _ (6 : Fin 16) rfl rfl q o,
    hdV_apply xq xk xv xw 448 7 _ _ _ (7 : Fin 16) rfl rfl q o,
    hdV_apply xq xk xv xw 512 8 _ _ _ (8 : Fin 16) rfl rfl q o,
    hdV_apply xq xk xv xw 576 9 _ _ _ (9 : Fin 16) rfl rfl q o,
    hdV_apply xq xk xv xw 640 10 _ _ _ (10 : Fin 16) rfl rfl q o,
    hdV_apply xq xk xv xw 704 11 _ _ _ (11 : Fin 16) rfl rfl q o,
    hdV_apply xq xk xv xw 768 12 _ _ _ (12 : Fin 16) rfl rfl q o,
    hdV_apply xq xk xv xw 832 13 _ _ _ (13 : Fin 16) rfl rfl q o,
    hdV_apply xq xk xv xw 896 14 _ _ _ (14 : Fin 16) rfl rfl q o,
    hdV_apply xq xk xv xw 960 15 _ _ _ (15 : Fin 16) rfl rfl q o]

end Cert.KernelIdeal.BodyVal

end
-- ==== Proof.KIVal1.lean ====
/-
  What the second region leaves in the result array: row r of the 4096 × 1024 array belongs to query block r / 1024
  (batch entry r / 2048) at position r % 1024, and holds that block's attention-and-projection output computed from
  the query columns of the block, the key and value columns of the batch entry, the block's expert ids, the per-head
  weights and the bias.
-/
import proofs.«166787_g36747740185073_cont_sun_m_199_12_alg».proof.Proof.KIBlocks
import proofs.«166787_g36747740185073_cont_sun_m_199_12_alg».proof.Proof.KIVal0
import proofs.«166787_g36747740185073_cont_sun_m_199_12_alg».proof.Proof.KBody1Val

set_option maxRecDepth 16384

noncomputable section

namespace Cert.KernelIdeal.Hand

open Cert.KernelIdeal Cert.KernelIdeal.Gen Cert.KernelIdeal.Facts₀ Cert.KernelIdeal.Facts Cert.KernelIdeal.BodyVal
open Idealize.ShloMosaic Idealize.ShloMosaic.TcCoe Idealize.ShloMosaic.ValueIdx
open Idealize.SL Idealize.SL.Sem
open Idealize.ShloMosaic.Pipeline (Dat Cfg Window)
open scoped BigOperators

variable (V : (c : Dev nD) → (b : Ref sig .tc) → Buf (Elt Ideal) ((c : Thread nD τ).loc b))

theorem ix2_congr {n0 n1 : Nat} {a a' : Fin n0} {b b' : Fin n1} (ha : a = a') (hb : b = b') : ix2 a b = ix2 a' b' := by
  subst ha; subst hb; rfl
theorem ix3_congr {n0 n1 n2 : Nat} {a a' : Fin n0} {b b' : Fin n1} {c c' : Fin n2} (ha : a = a') (hb : b = b') (hc : c = c') :
    ix3 a b c = ix3 a' b' c' := by
  subst ha; subst hb; subst hc; rfl

theorem blockOut_congr {Q Q' : Fin 1024 → Fin 1024 → EReal} {Kb Kb' Vb Vb' : Fin 1024 → Fin 2048 → EReal} {e e' : Fin 1024 → BitVec 32}
    {Wh Wh' : Fin 16 → Fin 64 → Fin 1024 → EReal} {bb bb' : Fin 1024 → EReal} {q q' : Fin 1024} (o : Fin 1024)
    (h1 : Q = Q') (h2 : Kb = Kb') (h3 : Vb = Vb') (h4 : e = e') (h5 : Wh = Wh') (h6 : bb = bb') (h7 : q = q') :
    blockOut Q Kb Vb e Wh bb q o = blockOut Q' Kb' Vb' e' Wh' bb' q' o := by
  subst h1; subst h2; subst h3; subst h4; subst h5; subst h6; subst h7; rfl

/-- Entry (r, o) of the result, from the projections' array, the expert-id blocks, the per-head weights and the bias. -/
def G1c (qkv : S3072x4096.Idx → Elt Ideal .bf16) (em : S4x1x1024.Idx → Elt Ideal .i32) (wp : S16x64x1024.Idx → Elt Ideal .bf16)
    (bp : S1024.Idx → Elt Ideal .f32) (r : Fin 4096) (o : Fin 1024) : Elt Ideal .f32 :=
  blockOut (fun f q' => qkv (ix2 (⟨f.val, by omega⟩ : Fin 3072) (⟨(r.val / 1024) * 1024 + q'.val, by omega⟩ : Fin 4096)))
    (fun f k => qkv (ix2 (⟨1024 + f.val, by omega⟩ : Fin 3072) (⟨(r.val / 1024 / 2) * 2048 + k.val, by omega⟩ : Fin 4096)))
    (fun f k => qkv (ix2 (⟨2048 + f.val, by omega⟩ : Fin 3072) (⟨(r.val / 1024 / 2) * 2048 + k.val, by omega⟩ : Fin 4096)))
    (fun q' => em (ix3 (⟨r.val / 1024, by omega⟩ : Fin 4) (0 : Fin 1) q'))
    (fun h d o' => wp (ix3 h d o')) (fun o' => bp (ix1 o')) (⟨r.val % 1024, by omega⟩ : Fin 1024) o

def G1 (qkv : S3072x4096.Idx → Elt Ideal .bf16) (em : S4x1x1024.Idx → Elt Ideal .i32) (wp : S16x64x1024.Idx → Elt Ideal .bf16)
    (bp : S1024.Idx → Elt Ideal .f32) : S4096x1024.Idx → Elt Ideal .f32 := fun i => G1c qkv em wp bp (i 0) (i 1)

/-- What point `t` writes back is block `t` of `G1`. -/
theorem flushed1_eq (c : Dev nD) (t : Fin cfg1.N) :
    (dat1 V c).flushed 6 t = ((cfg1.win 6).blk t).view.read (Elt Ideal) (G1 (V c main_v12) (V c main_v2) (V c main_v11) (V c main_arg4)) := by
  show (cfg1.win 6).cut (grid1.coords t) ((dat1 V c).after 6 t) = _
  rw [after1_6]
  unfold out1_6
  rw [View.canon_unit_zero hz2]
  funext j
  obtain ⟨q, o, rfl⟩ : ∃ (q : Fin 1024) (o : Fin 1024), j = ix2 q o := ⟨j 0, j 1, eq_ix2 j⟩
  rw [oblk1_apply c]
  show pay1 (iblk1 V c 0 t) (iblk1 V c 1 t) (iblk1 V c 2 t) (iblk1 V c 3 t) (iblk1 V c 4 t) (iblk1 V c 5 t) (ix2 q o) = _
  refine (pay1_apply _ _ _ _ _ _ q o).trans ?_
  have ht : t.val < 4 := tlt1 t
  show _ = G1c (V c main_v12) (V c main_v2) (V c main_v11) (V c main_arg4) ⟨t.val * 1024 + q.val, _⟩ o
  unfold G1c
  have e1 : (t.val * 1024 + q.val) / 1024 = t.val := by omega
  have e2 : (t.val * 1024 + q.val) % 1024 = q.val := by omega
  refine blockOut_congr o ?_ ?_ ?_ ?_ ?_ ?_ ?_
  · funext f q'; rw [iblk1_0_apply]; exact congrArg _ (ix2_congr rfl (Fin.ext (by show t.val * 1024 + q'.val = (t.val * 1024 + q.val) / 1024 * 1024 + q'.val; rw [e1])))
  · funext f k; rw [iblk1_1_apply]; exact congrArg _ (ix2_congr rfl (Fin.ext (by show t.val / 2 * 2048 + k.val = (t.val * 1024 + q.val) / 1024 / 2 * 2048 + k.val; rw [e1])))
  · funext f k; rw [iblk1_2_apply]; exact congrArg _ (ix2_congr rfl (Fin.ext (by show t.val / 2 * 2048 + k.val = (t.val * 1024 + q.val) / 1024 / 2 * 2048 + k.val; rw [e1])))
  · funext q'; rw [iblk1_3_apply]; exact congrArg _ (ix3_congr (Fin.ext (by show t.val = (t.val * 1024 + q.val) / 1024; rw [e1])) rfl rfl)
  · funext h d o'; rw [iblk1_4_apply]
  · funext o'; rw [iblk1_5_apply]
  · exact Fin.ext (by show q.val = (t.val * 1024 + q.val) % 1024; rw [e2])

/-- The result array after the second region. -/
theorem final1 (c : Dev nD) : (dat1 V c).arrAt 6 cfg1.N = G1 (V c main_v12) (V c main_v2) (V c main_v11) (V c main_arg4) :=
  (dat1 V c).arrAt_eq_of_cover 6 _ (fun t _ => flushed1_eq V c t) cover1

end Cert.KernelIdeal.Hand

end
-- ==== Proof.KIHost.lean ====
/-
  The host operations of the program read at an index, over the extended reals: each reshape, slice, concatenation,
  transposition and format change of the program's host stretch, applied to an arbitrary operand, is the operand at
  the index with the same row-major position (or the same coordinates).
-/
import proofs.«166787_g36747740185073_cont_sun_m_199_12_alg».proof.Proof.Gen.KernelIdeal
import proofs.«166787_g36747740185073_cont_sun_m_199_12_alg».proof.Proof.Spec
import Idealize.ShloMosaic.Lib.ValueIdx
import Idealize.ShloMosaic.Lib.Pipeline.Value
import Idealize.ShloMosaic.Lib.ValueLayout
import Idealize.ShloMosaic.PureOps.Ideal

namespace Cert.KernelIdeal.HostVal

open Idealize.ShloMosaic Idealize.ShloMosaic.ValueIdx Cert.KernelIdeal

/-- The tokens as 4096 rows: row `r` is token `r % 2048` of batch entry `r / 2048`. -/
theorem hostX (a0 : FVec Ideal S2x2048x1024 .f32) (r : Fin 4096) (d : Fin 1024) :
    shapeCast S4096x1024 a0 Gen.shapeCasts_S2x2048x1024_S4096x1024 (ix2 r d)
      = a0 (ix3 (⟨r.val / 2048, by omega⟩ : Fin 2) (⟨r.val % 2048, by omega⟩ : Fin 2048) d) := by
  refine shapeCast_apply a0 _ (ix2 r d) _ ?_
  rw [Shape.rowMajor_val_three, Shape.rowMajor_val_two]
  show (r.val / 2048 * 2048 + r.val % 2048) * 1024 + d.val = r.val * 1024 + d.val
  omega

/-- The token labels as 8 blocks of 512. -/
theorem hostE8 (a1 : IVec S2x2048 32) (i : Fin 8) (r : Fin 512) :
    shapeCast S8x1x512 a1 Gen.shapeCasts_S2x2048_S8x1x512 (ix3 i (0 : Fin 1) r)
      = a1 (ix2 (⟨(i.val * 512 + r.val) / 2048, by omega⟩ : Fin 2) (⟨(i.val * 512 + r.val) % 2048, by omega⟩ : Fin 2048)) := by
  refine shapeCast_apply a1 _ (ix3 i (0 : Fin 1) r) _ ?_
  rw [Shape.rowMajor_val_three, Shape.rowMajor_val_two]
  show (i.val * 512 + r.val) / 2048 * 2048 + (i.val * 512 + r.val) % 2048 = (i.val * 1 + 0) * 512 + r.val
  omega

/-- The token labels as 4 blocks of 1024. -/
theorem hostE4 (a1 : IVec S2x2048 32) (i : Fin 4) (q : Fin 1024) :
    shapeCast S4x1x1024 a1 Gen.shapeCasts_S2x2048_S4x1x1024 (ix3 i (0 : Fin 1) q)
      = a1 (ix2 (⟨(i.val * 1024 + q.val) / 2048, by omega⟩ : Fin 2) (⟨(i.val * 1024 + q.val) % 2048, by omega⟩ : Fin 2048)) := by
  refine shapeCast_apply a1 _ (ix3 i (0 : Fin 1) q) _ ?_
  rw [Shape.rowMajor_val_three, Shape.rowMajor_val_two]
  show (i.val * 1024 + q.val) / 2048 * 2048 + (i.val * 1024 + q.val) % 2048 = (i.val * 1 + 0) * 1024 + q.val
  omega

/-- The 4096 result rows as 2 batch entries of 2048 tokens. -/
theorem hostY (y : FVec Ideal S4096x1024 .f32) (b : Fin 2) (n : Fin 2048) (o : Fin 1024) :
    shapeCast S2x2048x1024 y Gen.shapeCasts_S4096x1024_S2x2048x1024 (ix3 b n o)
      = y (ix2 (⟨b.val * 2048 + n.val, by omega⟩ : Fin 4096) o) := by
  refine shapeCast_apply y _ (ix3 b n o) _ ?_
  rw [Shape.rowMajor_val_three, Shape.rowMajor_val_two]
  show (b.val * 2048 + n.val) * 1024 + o.val = (b.val * 2048 + n.val) * 1024 + o.val
  rfl

/-- The output projection transposed and cut into 16 heads of 64 lanes: entry `(h, d, o)` is `Wp o (h·64 + d)`. -/
theorem hostWp (a3 : FVec Ideal S1024x1024 .f32) (h : Fin 16) (d : Fin 64) (o : Fin 1024) :
    shapeCast S16x64x1024 (truncf .bf16 (transpose S1024x1024 [1, 0] a3 Gen.transposes_S1024x1024_S1024x1024_1_0)
      Gen.bitsLt_bf16_f32) Gen.shapeCasts_S1024x1024_S16x64x1024 (ix3 h d o) = a3 (ix2 o (Cert.AttnSpec.col h d)) := by
  refine (shapeCast_apply _ _ (ix3 h d o) (ix2 (Cert.AttnSpec.col h d) o) ?_).trans ?_
  · rw [Shape.rowMajor_val_two, Shape.rowMajor_val_three]
    show (h.val * 64 + d.val) * 1024 + o.val = (h.val * 64 + d.val) * 1024 + o.val
    rfl
  · refine (truncf_apply (φ := .f32) (ψ := .bf16) _ Gen.bitsLt_bf16_f32 _).trans ?_
    exact transpose_apply [1, 0] a3 _ (ix2 (Cert.AttnSpec.col h d) o) (ix2 o (Cert.AttnSpec.col h d))
      (fun b => match b with | ⟨0, _⟩ => rfl | ⟨1, _⟩ => rfl)

/-- The f32 pattern `0x3E000000` is the real 2⁻³, one eighth. -/
theorem eighth_bits : Ideal.ofBits .f32 0x3E000000#32 = Cert.AttnSpec.eighth := by
  unfold Cert.AttnSpec.eighth
  simp [Ideal.ofBits, Ideal.ieee, -EReal.coe_mul]; norm_num

/-- The query rows of the projection: row `i` of the first 1024. -/
theorem sliceQ (a2 : FVec Ideal S3072x1024 .f32) (i : Fin 1024) (d : Fin 1024) (f : Fin 3072) (hf : f.val = i.val) :
    extractStridedSlice S1024x1024 ![0, 0] a2 Gen.slices_S3072x1024_S1024x1024_0_0 (ix2 i d) = a2 (ix2 f d) :=
  extractStridedSlice_apply ![0, 0] a2 _ (ix2 i d) (ix2 f d) (fun a => match a with
    | ⟨0, _⟩ => by show f.val = 0 + i.val; omega
    | ⟨1, _⟩ => by show d.val = 0 + d.val; omega)

/-- The key and value rows of the projection: row `1024 + i`. -/
theorem sliceKV (a2 : FVec Ideal S3072x1024 .f32) (i : Fin 2048) (d : Fin 1024) (f : Fin 3072) (hf : f.val = 1024 + i.val) :
    extractStridedSlice S2048x1024 ![1024, 0] a2 Gen.slices_S3072x1024_S2048x1024_1024_0 (ix2 i d) = a2 (ix2 f d) :=
  extractStridedSlice_apply ![1024, 0] a2 _ (ix2 i d) (ix2 f d) (fun a => match a with
    | ⟨0, _⟩ => by show f.val = 1024 + i.val; omega
    | ⟨1, _⟩ => by show d.val = 0 + d.val; omega)

/-- The broadcast scale reads one eighth everywhere. -/
theorem bcastEighth (j : S1024x1024.Idx) :
    broadcastInDim S1024x1024 ![] Gen.bcast_S_S1024x1024 (constant (F := Ideal) S_ .f32 0x3E000000#32) j
      = Cert.AttnSpec.eighth :=
  (broadcastInDim_apply ![] Gen.bcast_S_S1024x1024 _ j ix0 (fun a => a.elim0)).trans ((constant_apply _ _).trans eighth_bits)

/-- The folded projection: the query rows scaled by one eighth, the key and value rows as they are. -/
theorem hostW (a2 : FVec Ideal S3072x1024 .f32) (f : Fin 3072) (d : Fin 1024) :
    truncf .bf16 (concatenate S3072x1024 0
      [⟨S1024x1024, mulf (extractStridedSlice S1024x1024 ![0, 0] a2 Gen.slices_S3072x1024_S1024x1024_0_0)
          (broadcastInDim S1024x1024 ![] Gen.bcast_S_S1024x1024 (constant (F := Ideal) S_ .f32 0x3E000000#32))⟩,
        ⟨S2048x1024, extractStridedSlice S2048x1024 ![1024, 0] a2 Gen.slices_S3072x1024_S2048x1024_1024_0⟩]
      Gen.concatenates_S1024x1024_S2048x1024_S3072x1024_d0) Gen.bitsLt_bf16_f32 (ix2 f d)
      = Cert.AttnSpec.kw (fun f d => a2 (ix2 f d)) f d := by
  refine (truncf_apply (φ := .f32) (ψ := .bf16) _ Gen.bitsLt_bf16_f32 _).trans ?_
  unfold Cert.AttnSpec.kw
  by_cases hf : f.val < 1024
  · rw [if_pos hf]
    refine (concatenate_pair_apply_left (t := S3072x1024) (s₁ := S1024x1024) (s₂ := S2048x1024) 0 _ _ _ (ix2 f d) rfl (ix2 (⟨f.val, hf⟩ : Fin 1024) d)
      (fun b => match b with | ⟨0, _⟩ => rfl | ⟨1, _⟩ => rfl)).trans ?_
    refine (mulf_apply _ _ _).trans ?_
    exact congrArg₂ (· * ·) (sliceQ a2 ⟨f.val, hf⟩ d f rfl) (bcastEighth _)
  · rw [if_neg hf]
    have hf' : f.val - 1024 < 2048 := by have := f.isLt; omega
    refine (concatenate_pair_apply_right (t := S3072x1024) (s₁ := S1024x1024) (s₂ := S2048x1024) 0 _ _ _ (ix2 f d) rfl rfl (ix2 (⟨f.val - 1024, hf'⟩ : Fin 2048) d)
      (fun b hb => match b with | ⟨0, _⟩ => absurd rfl hb | ⟨1, _⟩ => rfl)
      (by show f.val - 1024 + 1024 = f.val; omega)).trans ?_
    exact sliceKV a2 ⟨f.val - 1024, hf'⟩ d f (by show f.val = 1024 + (f.val - 1024); omega)

end Cert.KernelIdeal.HostVal
-- ==== Proof.KIValueRows.lean ====
/-
  The rows of the kernel's intermediate arrays in the specification's coordinates. Row `r = b·2048 + n` of the 4096
  rows is token `n` of batch entry `b`: the reshaped tokens read the token's features there, the expert-id blocks of
  512 and of 1024 read the token's expert id, and entry `(f, r)` of the projections' array is the specification's
  folded projection `kqkv` of feature `f` at that token.
-/
import proofs.«166787_g36747740185073_cont_sun_m_199_12_alg».proof.Proof.KIVal0
import proofs.«166787_g36747740185073_cont_sun_m_199_12_alg».proof.Proof.KIHost
import proofs.«166787_g36747740185073_cont_sun_m_199_12_alg».proof.Proof.Spec

noncomputable section

namespace Cert.KernelIdeal.Hand

open Cert.KernelIdeal Cert.KernelIdeal.Gen Cert.KernelIdeal.BodyVal
open Idealize.ShloMosaic Idealize.ShloMosaic.ValueIdx
open scoped BigOperators

theorem ix2_eq {n0 n1 : Nat} {a a' : Fin n0} {b b' : Fin n1} (ha : a = a') (hb : b = b') : ix2 a b = ix2 a' b' := by
  subst ha; subst hb; rfl
theorem ix3_eq {n0 n1 n2 : Nat} {a a' : Fin n0} {b b' : Fin n1} {c c' : Fin n2} (ha : a = a') (hb : b = b') (hc : c = c') :
    ix3 a b c = ix3 a' b' c' := by
  subst ha; subst hb; subst hc; rfl

variable (a0 : FVec Ideal S2x2048x1024 .f32) (a1 : IVec S2x2048 32) (a2 : FVec Ideal S3072x1024 .f32)

/-- Row `r = b·2048 + n` of the reshaped tokens is token `(b, n)`. -/
theorem x_row (r : Fin 4096) (b : Fin 2) (n : Fin 2048) (hr : r.val = b.val * 2048 + n.val) (d : Fin 1024) :
    shapeCast S4096x1024 a0 Gen.shapeCasts_S2x2048x1024_S4096x1024 (ix2 r d) = a0 (ix3 b n d) := by
  refine (HostVal.hostX a0 r d).trans ?_
  exact congrArg a0 (ix3_eq (Fin.ext (by show r.val / 2048 = b.val; omega)) (Fin.ext (by show r.val % 2048 = n.val; omega)) rfl)

/-- Position `r % 512` of block `r / 512` of the expert ids, for `r = b·2048 + n`, is the expert id of token `(b, n)`. -/
theorem e8_row (r : Fin 4096) (b : Fin 2) (n : Fin 2048) (hr : r.val = b.val * 2048 + n.val) :
    shapeCast S8x1x512 a1 Gen.shapeCasts_S2x2048_S8x1x512
        (ix3 (⟨r.val / 512, by omega⟩ : Fin 8) (0 : Fin 1) (⟨r.val % 512, by omega⟩ : Fin 512)) = a1 (ix2 b n) := by
  refine (HostVal.hostE8 a1 _ _).trans ?_
  exact congrArg a1 (ix2_eq (Fin.ext (by show (r.val / 512 * 512 + r.val % 512) / 2048 = b.val; omega))
    (Fin.ext (by show (r.val / 512 * 512 + r.val % 512) % 2048 = n.val; omega)))

/-- Position `r % 1024` of block `r / 1024` of the expert ids, for `r = b·2048 + n`, is the expert id of token `(b, n)`. -/
theorem e4_row (r : Fin 4096) (b : Fin 2) (n : Fin 2048) (hr : r.val = b.val * 2048 + n.val) :
    shapeCast S4x1x1024 a1 Gen.shapeCasts_S2x2048_S4x1x1024
        (ix3 (⟨r.val / 1024, by omega⟩ : Fin 4) (0 : Fin 1) (⟨r.val % 1024, by omega⟩ : Fin 1024)) = a1 (ix2 b n) := by
  refine (HostVal.hostE4 a1 _ _).trans ?_
  exact congrArg a1 (ix2_eq (Fin.ext (by show (r.val / 1024 * 1024 + r.val % 1024) / 2048 = b.val; omega))
    (Fin.ext (by show (r.val / 1024 * 1024 + r.val % 1024) % 2048 = n.val; omega)))

/-- Entry `(f, r)` of the projections' array, for `r = b·2048 + n`: the folded projection of feature `f` at token `(b, n)`. -/
theorem proj_entry (f : Fin 3072) (r : Fin 4096) (b : Fin 2) (n : Fin 2048) (hr : r.val = b.val * 2048 + n.val) :
    G0 (shapeCast S4096x1024 a0 Gen.shapeCasts_S2x2048x1024_S4096x1024)
        (shapeCast S8x1x512 a1 Gen.shapeCasts_S2x2048_S8x1x512)
        (truncf (F := Ideal) .bf16 (concatenate S3072x1024 0 [⟨S1024x1024, mulf (extractStridedSlice S1024x1024 ![0, 0] a2 Gen.slices_S3072x1024_S1024x1024_0_0) (broadcastInDim S1024x1024 ![] Gen.bcast_S_S1024x1024 (constant (F := Ideal) S_ .f32 0x3E000000#32))⟩, ⟨S2048x1024, extractStridedSlice S2048x1024 ![1024, 0] a2 Gen.slices_S3072x1024_S2048x1024_1024_0⟩] Gen.concatenates_S1024x1024_S2048x1024_S3072x1024_d0) Gen.bitsLt_bf16_f32) (ix2 f r)
      = Cert.AttnSpec.kqkv (fun b n d => a0 (ix3 b n d)) (fun b n d => kmaskW (a1 (ix2 b n)) d) (fun f d => a2 (ix2 f d)) f b n := by
  show G0c _ _ _ f r = _
  unfold G0c Cert.AttnSpec.kqkv
  refine Finset.sum_congr rfl fun d _ => ?_
  refine congrArg₂ (· * ·) (HostVal.hostW a2 f d) ?_
  unfold Cert.AttnSpec.kxm
  rw [e8_row a1 r b n hr, x_row a0 r b n hr d]

end Cert.KernelIdeal.Hand

end
-- ==== Proof.KBridge.lean ====
/-
  The block formula of the attention-and-projection body against the folded arrangement of the specification: when, at
  a query of the block, the query, key and value blocks read as the feature-major projection at a batch entry, the
  weights as the transposed output projection cut by head, the bias as the bias and the feature test as the token's mask,
  the block's entries at that query are the folded arrangement's at that token.
-/
import proofs.«166787_g36747740185073_cont_sun_m_199_12_alg».proof.Proof.KBody1Val
import proofs.«166787_g36747740185073_cont_sun_m_199_12_alg».proof.Proof.Spec

noncomputable section

open scoped BigOperators

namespace Cert.KernelIdeal.BodyVal

open Idealize.ShloMosaic Idealize.ShloMosaic.ValueIdx

open Cert.AttnSpec

theorem blockOut_eq_KG (X : Fin 2 → Fin 2048 → Fin 1024 → EReal) (M : Fin 2 → Fin 2048 → Fin 1024 → Bool)
    (Wq : Fin 3072 → Fin 1024 → EReal) (Wp : Fin 1024 → Fin 1024 → EReal) (Bp : Fin 1024 → EReal) (b : Fin 2) (n : Fin 2048)
    (Q : Fin 1024 → Fin 1024 → EReal) (Kb Vb : Fin 1024 → Fin 2048 → EReal) (e : Fin 1024 → BitVec 32)
    (Wh : Fin 16 → Fin 64 → Fin 1024 → EReal) (bb : Fin 1024 → EReal) (q : Fin 1024)
    (hQ : ∀ h d, Q (col h d) q = kqkv X M Wq (feat 0 h d) b n)
    (hK : ∀ h d k, Kb (col h d) k = kqkv X M Wq (feat 1 h d) b k)
    (hV : ∀ h d k, Vb (col h d) k = kqkv X M Wq (feat 2 h d) b k)
    (he : ∀ o, kmaskW (e q) o = M b n o)
    (hW : ∀ h d o, Wh h d o = Wp o (col h d))
    (hb : ∀ o, bb o = Bp o) (o : Fin 1024) :
    blockOut Q Kb Vb e Wh bb q o = KG X M Wq Wp Bp b n o := by
  -- the scores, their row maximum, the exponentials and their row sum of head `h` at the query
  have hs : ∀ (h : Fin 16) (k : Fin 2048),
      hS (fun d q' => Q (col h d) q') (fun d k => Kb (col h d) k) q k = ks X M Wq b h n k :=
    fun h k => Finset.sum_congr rfl fun d _ => congrArg₂ (· * ·) (hQ h d) (hK h d k)
  have hm : ∀ h : Fin 16, hM (fun d q' => Q (col h d) q') (fun d k => Kb (col h d) k) q = kmax X M Wq b h n :=
    fun h => congrArg Finset.univ.sup (funext fun k => hs h k)
  have hp : ∀ (h : Fin 16) (k : Fin 2048),
      hP (fun d q' => Q (col h d) q') (fun d k => Kb (col h d) k) q k = kp X M Wq b h n k :=
    fun h k => by unfold hP kp; rw [hs, hm]
  have hl : ∀ h : Fin 16, hL (fun d q' => Q (col h d) q') (fun d k => Kb (col h d) k) q = kl X M Wq b h n :=
    fun h => Finset.sum_congr rfl fun k _ => hp h k
  -- the head's normalised output and its contribution
  have ho : ∀ (h : Fin 16) (d : Fin 64),
      hO (fun d q' => Q (col h d) q') (fun d k => Kb (col h d) k) (fun d k => Vb (col h d) k) q d = ko X M Wq b h n d :=
    fun h d => by
      unfold hO ko
      rw [hl]
      exact congrArg (fun z => Ideal.div z (kl X M Wq b h n))
        (Finset.sum_congr rfl fun k _ => congrArg₂ (· * ·) (hp h k) (hV h d k))
  have hc : ∀ h : Fin 16,
      headOut (fun d q' => Q (col h d) q') (fun d k => Kb (col h d) k) (fun d k => Vb (col h d) k) (Wh h) q o
        = kc X M Wq Wp b h n o :=
    fun h => Finset.sum_congr rfl fun d _ => congrArg₂ (· * ·) (ho h d) (hW h d o)
  unfold blockOut KG
  rw [he, hb]
  by_cases hM' : M b n o = true
  · rw [if_pos hM', if_pos hM']
    exact congrArg (fun z => z + Bp o) (Finset.sum_congr rfl fun h _ => hc h)
  · rw [if_neg hM', if_neg hM']

end Cert.KernelIdeal.BodyVal

end
-- ==== Proof.KIValue.lean ====
/-
  The kernel's result in the specification's terms: entry `(b, n, o)` of the result array is the folded arrangement
  `KG` of the specification over the launch contents of the five arguments, the mask the body's word-level test on the
  token's expert id. The result is the closing reshape of what the second region leaves; row `b·2048 + n` of that is the
  attention-and-projection block formula at the token, whose query, key and value operands are rows of the
  projections' array — the folded projection `kqkv` —, whose weights are the transposed output projection cut by head
  and whose bias is the bias.
-/
import proofs.«166787_g36747740185073_cont_sun_m_199_12_alg».proof.Proof.KIValA
import proofs.«166787_g36747740185073_cont_sun_m_199_12_alg».proof.Proof.KIVal1
import proofs.«166787_g36747740185073_cont_sun_m_199_12_alg».proof.Proof.KIHost
import proofs.«166787_g36747740185073_cont_sun_m_199_12_alg».proof.Proof.KIValueRows
import proofs.«166787_g36747740185073_cont_sun_m_199_12_alg».proof.Proof.KBridge
import proofs.«166787_g36747740185073_cont_sun_m_199_12_alg».proof.Proof.Spec

set_option maxRecDepth 16384

noncomputable section

namespace Cert.KernelIdeal.Hand

open Cert.KernelIdeal Cert.KernelIdeal.Gen Cert.KernelIdeal.Facts₀ Cert.KernelIdeal.Facts Cert.KernelIdeal.BodyVal
open Idealize.ShloMosaic Idealize.ShloMosaic.TcCoe Idealize.ShloMosaic.ValueIdx
open Idealize.SL Idealize.SL.Sem
open Idealize.ShloMosaic.Pipeline (Dat Cfg Window)
open Cert.AttnSpec (col feat)
open scoped BigOperators

/-- Row `r = b·2048 + n` of what the second region leaves, over the arrays the host stretch hands it: the folded
    arrangement at token `(b, n)`. -/
theorem block_entry (a0 : FVec Ideal S2x2048x1024 .f32) (a1 : IVec S2x2048 32) (a2 : FVec Ideal S3072x1024 .f32)
    (a3 : FVec Ideal S1024x1024 .f32) (a4 : FVec Ideal S1024 .f32)
    (r : Fin 4096) (b : Fin 2) (n : Fin 2048) (hr : r.val = b.val * 2048 + n.val) (o : Fin 1024) :
    G1c (G0 (shapeCast S4096x1024 a0 Gen.shapeCasts_S2x2048x1024_S4096x1024)
          (shapeCast S8x1x512 a1 Gen.shapeCasts_S2x2048_S8x1x512)
          (truncf (F := Ideal) .bf16 (concatenate S3072x1024 0 [⟨S1024x1024, mulf (extractStridedSlice S1024x1024 ![0, 0] a2 Gen.slices_S3072x1024_S1024x1024_0_0) (broadcastInDim S1024x1024 ![] Gen.bcast_S_S1024x1024 (constant (F := Ideal) S_ .f32 0x3E000000#32))⟩, ⟨S2048x1024, extractStridedSlice S2048x1024 ![1024, 0] a2 Gen.slices_S3072x1024_S2048x1024_1024_0⟩] Gen.concatenates_S1024x1024_S2048x1024_S3072x1024_d0) Gen.bitsLt_bf16_f32))
        (shapeCast S4x1x1024 a1 Gen.shapeCasts_S2x2048_S4x1x1024)
        (shapeCast S16x64x1024 (truncf (F := Ideal) .bf16 (transpose S1024x1024 [1, 0] a3 Gen.transposes_S1024x1024_S1024x1024_1_0) Gen.bitsLt_bf16_f32) Gen.shapeCasts_S1024x1024_S16x64x1024)
        a4 r o
      = Cert.AttnSpec.KG (fun b n d => a0 (ix3 b n d)) (fun b n d => kmaskW (a1 (ix2 b n)) d) (fun f d => a2 (ix2 f d)) (fun o k => a3 (ix2 o k)) (fun o => a4 (ix1 o)) b n o := by
  unfold G1c
  refine blockOut_eq_KG _ _ _ _ _ b n _ _ _ _ _ _ _ ?hQ ?hK ?hV ?he ?hW ?hb o
  case hQ =>
    intro h d
    refine Eq.trans (congrArg _ (ix2_eq (Fin.ext ?_) (Fin.ext ?_))) (proj_entry a0 a1 a2 (feat 0 h d) r b n hr)
    · show h.val * 64 + d.val = 0 * 1024 + h.val * 64 + d.val; omega
    · show r.val / 1024 * 1024 + r.val % 1024 = r.val; omega
  case hK =>
    intro h d k
    refine Eq.trans (congrArg _ (ix2_eq (Fin.ext ?_) (Fin.ext ?_)))
      (proj_entry a0 a1 a2 (feat 1 h d) (⟨b.val * 2048 + k.val, by omega⟩ : Fin 4096) b k rfl)
    · show 1024 + (h.val * 64 + d.val) = 1 * 1024 + h.val * 64 + d.val; omega
    · show r.val / 1024 / 2 * 2048 + k.val = b.val * 2048 + k.val; omega
  case hV =>
    intro h d k
    refine Eq.trans (congrArg _ (ix2_eq (Fin.ext ?_) (Fin.ext ?_)))
      (proj_entry a0 a1 a2 (feat 2 h d) (⟨b.val * 2048 + k.val, by omega⟩ : Fin 4096) b k rfl)
    · show 2048 + (h.val * 64 + d.val) = 2 * 1024 + h.val * 64 + d.val; omega
    · show r.val / 1024 / 2 * 2048 + k.val = b.val * 2048 + k.val; omega
  case he =>
    intro o'
    exact congrArg (fun e => kmaskW e o') (e4_row a1 r b n hr)
  case hW =>
    intro h d o'
    exact HostVal.hostWp a3 h d o'
  case hb =>
    intro o'
    rfl

variable (m : (ℓ : Loc nD τ sig) → Buf (Elt Ideal) ℓ) (ρ : Dev nD → PrngReg)

/-- The result array, entry by entry: the folded arrangement over the launch contents. -/
theorem kernel_value (c : Dev nD) :
    (W4 m ρ c (Proc.devRef .tc main_v14) : S2x2048x1024.Idx → Elt Ideal .f32)
      = fun i => Cert.AttnSpec.KG (fun b n d => (m ((c : Thread nD τ).loc main_arg0)) (ix3 b n d)) (fun b n d => kmaskW ((m ((c : Thread nD τ).loc main_arg1)) (ix2 b n)) d) (fun f d => (m ((c : Thread nD τ).loc main_arg2)) (ix2 f d)) (fun o k => (m ((c : Thread nD τ).loc main_arg3)) (ix2 o k)) (fun o => (m ((c : Thread nD τ).loc main_arg4)) (ix1 o)) (i 0) (i 1) (i 2) := by
  funext i
  obtain ⟨b, n, o, rfl⟩ : ∃ (b : Fin 2) (n : Fin 2048) (o : Fin 1024), i = ix3 b n o := ⟨i 0, i 1, i 2, eq_ix3 i⟩
  rw [W4_v14 m ρ c]
  refine (HostVal.hostY _ b n o).trans ?_
  have h3 : o3 m ρ c = G1 (Hand.V2 m ρ c main_v12) (Hand.V2 m ρ c main_v2) (Hand.V2 m ρ c main_v11) (Hand.V2 m ρ c main_arg4) :=
    final1 (Hand.V2 m ρ) c
  rw [h3]
  show G1c _ _ _ _ (⟨b.val * 2048 + n.val, by omega⟩ : Fin 4096) o = _
  rw [V2_v12 m ρ c, V2_v2 m ρ c, V2_v11 m ρ c, V2_arg4 m ρ c, V1_v0 m ρ c, V1_v1 m ρ c, V1_v2 m ρ c, V1_v8 m ρ c, V1_v11 m ρ c]
  exact block_entry _ _ _ _ _ _ b n rfl o

end Cert.KernelIdeal.Hand

end
-- ==== Proof.lean ====
/-
  The claim: a nested-width attention kernel against its textbook reference, equal as extended reals.

  Every token carries an expert id e in 0 … 7 and keeps its first 128·(e + 1) features. The kernel program projects the
  masked tokens to feature-major queries, keys and values (the softmax scale 1/8 folded into the query weights), and per
  query block runs the 16 heads — scores, row maximum, exponentials, their sum, the value product divided by the sum —
  accumulating each head's output through its 64-row slab of the output weights, adds the bias and masks the output
  features. The reference masks by a product with a 0/1 array, scales the scores, normalises the softmax before the
  value product and projects the 1024 concatenated head outputs at once.

  The three frames: each program runs to the end, faults nowhere and leaves its arguments unchanged. The two kernel
  regions run back to back; the second reads the first's result through three windows on one buffer, which is dealt to
  them in fractions and reassembled when the region is left. The idealization rewrote nothing, so it is the program's
  own text read over the extended reals.

  The algebraic conjunct: the kernel's result array is the folded arrangement `KG` of the arguments (the blocks each
  grid point writes cover the arrays, and each block is the body's stored value read index by index); the reference's
  result is the textbook arrangement `RG`; with every float argument a real and every expert id below 8 the two word-level
  masks are the same test d < 128·(e + 1), and `KG = RG`: the scale moves out of the finite sums, the quotient by the
  positive softmax denominator distributes over the value sum, the 1024 columns are 16 blocks of 64, and a product with
  1 or 0 is a selection.
-/
import proofs.«166787_g36747740185073_cont_sun_m_199_12_alg».proof.Defs
import proofs.«166787_g36747740185073_cont_sun_m_199_12_alg».proof.Proof.Assembly
import proofs.«166787_g36747740185073_cont_sun_m_199_12_alg».proof.Proof.KIValue

noncomputable section

namespace Cert.Proof

open Idealize.ShloMosaic Idealize.SL.Sem Cert.KernelIdeal Cert.KernelIdeal.Hand

/-- The idealized kernel's run with its result named: the final state holds the result array at the folded
    arrangement of the arguments and every argument as launched. -/
theorem kernel_run : Cert.Proof.Assembly.KernelRun := fun m ρ =>
  (θ_run (Cert.KernelIdeal.defs (F := Ideal)) _ _).mono (fun _ h c =>
    ⟨(h c _ (mem_uc main_v14 (by decide))).trans (kernel_value m ρ c),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c)⟩) (run_all m ρ)

theorem claim : Cert.Claim := Cert.Proof.Assembly.claim_of kernel_run

end Cert.Proof

end
